-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S50000 : Shape := ⟨1, ![50000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x1 .f32) (main_arg12 : FVec F S1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S512 .f32) (main_arg7 : FVec F S512x256 .f32) (main_arg8 : FVec F S256 .f32) (main_arg9 : FVec F S256x128 .f32) (main_arg10 : FVec F S128 .f32) (main_arg11 : FVec F S128x1 .f32) (main_arg12 : FVec F S1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg7
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x400000 32) (main_arg2 : IVec S50000 32) (main_arg3 : FVec F S128x256 .f32) (main_arg4 : FVec F S256 .f32) (main_arg5 : FVec F S256x512 .f32) (main_arg6 : FVec F S512 .f32) (main_arg7 : FVec F S512x256 .f32) (main_arg8 : FVec F S256 .f32) (main_arg9 : FVec F S256x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg5
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x400000 : Shape := ⟨2, ![2, 400000]⟩
abbrev S50000 : Shape := ⟨1, ![50000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S1x256 : Shape := ⟨2, ![1, 256]⟩
abbrev S50000x256 : Shape := ⟨2, ![50000, 256]⟩
abbrev S400000x256 : Shape := ⟨2, ![400000, 256]⟩
abbrev S1x512 : Shape := ⟨2, ![1, 512]⟩
abbrev S50000x512 : Shape := ⟨2, ![50000, 512]⟩
abbrev S1024x256 : Shape := ⟨2, ![1024, 256]⟩
abbrev S1024 : Shape := ⟨1, ![1024]⟩
abbrev S1024x1 : Shape := ⟨2, ![1024, 1]⟩
abbrev S1x128 : Shape := ⟨2, ![1, 128]⟩
abbrev S1x1 : Shape := ⟨2, ![1, 1]⟩
abbrev S2000x128 : Shape := ⟨2, ![2000, 128]⟩
abbrev S2000x1 : Shape := ⟨2, ![2000, 1]⟩
abbrev S2000x256 : Shape := ⟨2, ![2000, 256]⟩
abbrev S2000x512 : Shape := ⟨2, ![2000, 512]⟩
abbrev S1024x128 : Shape := ⟨2, ![1024, 128]⟩

abbrev nBuf : Space → Nat
  | .hbm => 192
  | .vmem => 34
  | .smem => 0
  | _ => 0

abbrev hbmTy0_0 (i : Nat) : BufTy := match i % 128 with
  | 0 => ⟨S50000x128, .f32⟩
  | 1 => ⟨S2x400000, .i32⟩
  | 2 => ⟨S50000, .i32⟩
  | 3 => ⟨S128x256, .f32⟩
  | 4 => ⟨S256, .f32⟩
  | 5 => ⟨S256x512, .f32⟩
  | 6 => ⟨S512, .f32⟩
  | 7 => ⟨S512x256, .f32⟩
  | 8 => ⟨S256, .f32⟩
  | 9 => ⟨S256x128, .f32⟩
  | 10 => ⟨S128, .f32⟩
  | 11 => ⟨S128x1, .f32⟩
  | 12 => ⟨S1, .f32⟩
  | 13 => ⟨S1x400000, .i32⟩
  | 14 => ⟨S400000, .i32⟩
  | 15 => ⟨S1x400000, .i32⟩
  | 16 => ⟨S400000, .i32⟩
  | 17 => ⟨S_, .f32⟩
  | 18 => ⟨S400000, .f32⟩
  | 19 => ⟨S_, .f32⟩
  | 20 => ⟨S50000, .f32⟩
  | 21 => ⟨S400000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S400000, .f32⟩
  | 35 => ⟨S_, .f32⟩
  | 36 => ⟨S50000, .f32⟩
  | 37 => ⟨S400000x1, .i32⟩
  | 38 => ⟨S50000, .f32⟩
  | 39 => ⟨S_, .f32⟩
  | 40 => ⟨S50000, .f32⟩
  | 41 => ⟨S50000, .i1⟩
  | 42 => ⟨S_, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x128, .f32⟩
  | 58 => ⟨S_, .f32⟩
  | 59 => ⟨S50000x128, .f32⟩
  | 60 => ⟨S400000x1, .i32⟩
  | 61 => ⟨S50000x128, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x128, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000, .f32⟩
  | 80 => ⟨S400000x1, .f32⟩
  | 81 => ⟨S400000x128, .f32⟩
  | 82 => ⟨S400000x128, .f32⟩
  | 83 => ⟨S_, .f32⟩
  | 84 => ⟨S50000x128, .f32⟩
  | 85 => ⟨S400000x1, .i32⟩
  | 86 => ⟨S50000x128, .f32⟩
  | 87 => ⟨S50000x1, .f32⟩
  | 88 => ⟨S1x256, .f32⟩
  | 89 => ⟨S50000x256, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x256, .f32⟩
  | 99 => ⟨S_, .f32⟩
  | 100 => ⟨S50000x256, .f32⟩
  | 101 => ⟨S400000x1, .i32⟩
  | 102 => ⟨S50000x256, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x256, .f32⟩
  | 112 => ⟨S_, .i32⟩
  | 113 => ⟨S400000, .i32⟩
  | 114 => ⟨S400000, .i1⟩
  | 115 => ⟨S_, .i32⟩
  | 116 => ⟨S400000, .i32⟩
  | 117 => ⟨S400000, .i32⟩
  | 118 => ⟨S400000, .i32⟩
  | 119 => ⟨S400000x1, .i32⟩
  | 120 => ⟨S400000, .f32⟩
  | 121 => ⟨S400000x1, .f32⟩
  | 122 => ⟨S400000x256, .f32⟩
  | 123 => ⟨S400000x256, .f32⟩
  | 124 => ⟨S_, .f32⟩
  | 125 => ⟨S50000x256, .f32⟩
  | 126 => ⟨S400000x1, .i32⟩
  | 127 => ⟨S50000x256, .f32⟩
  | _ => ⟨S50000x128, .f32⟩

abbrev hbmTy0_1 (i : Nat) : BufTy := match i % 128 with
  | 0 => ⟨S50000x1, .f32⟩
  | 1 => ⟨S1x512, .f32⟩
  | 2 => ⟨S50000x512, .f32⟩
  | 3 => ⟨S50000x256, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x256, .f32⟩
  | 13 => ⟨S_, .f32⟩
  | 14 => ⟨S50000x256, .f32⟩
  | 15 => ⟨S400000x1, .i32⟩
  | 16 => ⟨S50000x256, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x256, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000, .f32⟩
  | 35 => ⟨S400000x1, .f32⟩
  | 36 => ⟨S400000x256, .f32⟩
  | 37 => ⟨S400000x256, .f32⟩
  | 38 => ⟨S_, .f32⟩
  | 39 => ⟨S50000x256, .f32⟩
  | 40 => ⟨S400000x1, .i32⟩
  | 41 => ⟨S50000x256, .f32⟩
  | 42 => ⟨S50000x1, .f32⟩
  | 43 => ⟨S1x256, .f32⟩
  | 44 => ⟨S50000x256, .f32⟩
  | 45 => ⟨S_, .f32⟩
  | 46 => ⟨S1024x256, .f32⟩
  | 47 => ⟨S50000x1, .i32⟩
  | 48 => ⟨S1024x256, .f32⟩
  | 49 => ⟨S_, .f32⟩
  | 50 => ⟨S50000, .f32⟩
  | 51 => ⟨S_, .f32⟩
  | 52 => ⟨S1024, .f32⟩
  | 53 => ⟨S50000x1, .i32⟩
  | 54 => ⟨S1024, .f32⟩
  | 55 => ⟨S_, .f32⟩
  | 56 => ⟨S1024, .f32⟩
  | 57 => ⟨S1024, .f32⟩
  | 58 => ⟨S1024x1, .f32⟩
  | 59 => ⟨S1024x256, .f32⟩
  | 60 => ⟨S1024x256, .f32⟩
  | 61 => ⟨S1x128, .f32⟩
  | 62 => ⟨S1x1, .f32⟩
  | 63 => ⟨S1024x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S256x512, .f32⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S512x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S1024x256, .f32⟩
  | .local _ .vmem, ⟨29, _⟩ => ⟨S256x128, .f32⟩
  | .local _ .vmem, ⟨30, _⟩ => ⟨S1x128, .f32⟩
  | .local _ .vmem, ⟨31, _⟩ => ⟨S128x1, .f32⟩
  | .local _ .vmem, ⟨32, _⟩ => ⟨S1x1, .f32⟩
  | .local _ .vmem, ⟨33, _⟩ => ⟨S1024x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_cst : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_cst_2 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_v12 : Ref sig .tc := ⟨.hbm, 32, rfl⟩
abbrev main_call0_cst_4 : Ref sig .tc := ⟨.hbm, 33, rfl⟩
abbrev main_call0_v13 : Ref sig .tc := ⟨.hbm, 34, rfl⟩
abbrev main_call0_cst_5 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_cst_6 : Ref sig .tc := ⟨.hbm, 39, rfl⟩
abbrev main_call0_v17 : Ref sig .tc := ⟨.hbm, 40, rfl⟩
abbrev main_call0_v18 : Ref sig .tc := ⟨.hbm, 41, rfl⟩
abbrev main_call0_cst_7 : Ref sig .tc := ⟨.hbm, 42, rfl⟩
abbrev main_call0_v19 : Ref sig .tc := ⟨.hbm, 43, rfl⟩
abbrev main_call0_v20 : Ref sig .tc := ⟨.hbm, 44, rfl⟩
abbrev main_call0_cst_8 : Ref sig .tc := ⟨.hbm, 45, rfl⟩
abbrev main_call0_call1_v0 : Ref sig .tc := ⟨.hbm, 46, rfl⟩
abbrev main_call0_call1_v1 : Ref sig .tc := ⟨.hbm, 47, rfl⟩
abbrev main_call0_v21 : Ref sig .tc := ⟨.hbm, 48, rfl⟩
abbrev main_call0_c : Ref sig .tc := ⟨.hbm, 49, rfl⟩
abbrev main_call0_v22 : Ref sig .tc := ⟨.hbm, 50, rfl⟩
abbrev main_call0_v23 : Ref sig .tc := ⟨.hbm, 51, rfl⟩
abbrev main_call0_c_9 : Ref sig .tc := ⟨.hbm, 52, rfl⟩
abbrev main_call0_v24 : Ref sig .tc := ⟨.hbm, 53, rfl⟩
abbrev main_call0_v25 : Ref sig .tc := ⟨.hbm, 54, rfl⟩
abbrev main_call0_v26 : Ref sig .tc := ⟨.hbm, 55, rfl⟩
abbrev main_call0_v27 : Ref sig .tc := ⟨.hbm, 56, rfl⟩
abbrev main_call0_v28 : Ref sig .tc := ⟨.hbm, 57, rfl⟩
abbrev main_call0_cst_10 : Ref sig .tc := ⟨.hbm, 58, rfl⟩
abbrev main_call0_v29 : Ref sig .tc := ⟨.hbm, 59, rfl⟩
abbrev main_call0_v30 : Ref sig .tc := ⟨.hbm, 60, rfl⟩
abbrev main_call0_v31 : Ref sig .tc := ⟨.hbm, 61, rfl⟩
abbrev main_call0_c_11 : Ref sig .tc := ⟨.hbm, 62, rfl⟩
abbrev main_call0_v32 : Ref sig .tc := ⟨.hbm, 63, rfl⟩
abbrev main_call0_v33 : Ref sig .tc := ⟨.hbm, 64, rfl⟩
abbrev main_call0_c_12 : Ref sig .tc := ⟨.hbm, 65, rfl⟩
abbrev main_call0_v34 : Ref sig .tc := ⟨.hbm, 66, rfl⟩
abbrev main_call0_v35 : Ref sig .tc := ⟨.hbm, 67, rfl⟩
abbrev main_call0_v36 : Ref sig .tc := ⟨.hbm, 68, rfl⟩
abbrev main_call0_v37 : Ref sig .tc := ⟨.hbm, 69, rfl⟩
abbrev main_call0_v38 : Ref sig .tc := ⟨.hbm, 70, rfl⟩
abbrev main_call0_c_13 : Ref sig .tc := ⟨.hbm, 71, rfl⟩
abbrev main_call0_v39 : Ref sig .tc := ⟨.hbm, 72, rfl⟩
abbrev main_call0_v40 : Ref sig .tc := ⟨.hbm, 73, rfl⟩
abbrev main_call0_c_14 : Ref sig .tc := ⟨.hbm, 74, rfl⟩
abbrev main_call0_v41 : Ref sig .tc := ⟨.hbm, 75, rfl⟩
abbrev main_call0_v42 : Ref sig .tc := ⟨.hbm, 76, rfl⟩
abbrev main_call0_v43 : Ref sig .tc := ⟨.hbm, 77, rfl⟩
abbrev main_call0_v44 : Ref sig .tc := ⟨.hbm, 78, rfl⟩
abbrev main_call0_v45 : Ref sig .tc := ⟨.hbm, 79, rfl⟩
abbrev main_call0_v46 : Ref sig .tc := ⟨.hbm, 80, rfl⟩
abbrev main_call0_v47 : Ref sig .tc := ⟨.hbm, 81, rfl⟩
abbrev main_call0_v48 : Ref sig .tc := ⟨.hbm, 82, rfl⟩
abbrev main_call0_cst_15 : Ref sig .tc := ⟨.hbm, 83, rfl⟩
abbrev main_call0_v49 : Ref sig .tc := ⟨.hbm, 84, rfl⟩
abbrev main_call0_v50 : Ref sig .tc := ⟨.hbm, 85, rfl⟩
abbrev main_call0_v51 : Ref sig .tc := ⟨.hbm, 86, rfl⟩
abbrev main_call0_v52 : Ref sig .tc := ⟨.hbm, 87, rfl⟩
abbrev main_call0_v53 : Ref sig .tc := ⟨.hbm, 88, rfl⟩
abbrev main_call0_v54 : Ref sig .tc := ⟨.hbm, 89, rfl⟩
abbrev main_call0_c_16 : Ref sig .tc := ⟨.hbm, 90, rfl⟩
abbrev main_call0_v55 : Ref sig .tc := ⟨.hbm, 91, rfl⟩
abbrev main_call0_v56 : Ref sig .tc := ⟨.hbm, 92, rfl⟩
abbrev main_call0_c_17 : Ref sig .tc := ⟨.hbm, 93, rfl⟩
abbrev main_call0_v57 : Ref sig .tc := ⟨.hbm, 94, rfl⟩
abbrev main_call0_v58 : Ref sig .tc := ⟨.hbm, 95, rfl⟩
abbrev main_call0_v59 : Ref sig .tc := ⟨.hbm, 96, rfl⟩
abbrev main_call0_v60 : Ref sig .tc := ⟨.hbm, 97, rfl⟩
abbrev main_call0_v61 : Ref sig .tc := ⟨.hbm, 98, rfl⟩
abbrev main_call0_cst_18 : Ref sig .tc := ⟨.hbm, 99, rfl⟩
abbrev main_call0_v62 : Ref sig .tc := ⟨.hbm, 100, rfl⟩
abbrev main_call0_v63 : Ref sig .tc := ⟨.hbm, 101, rfl⟩
abbrev main_call0_v64 : Ref sig .tc := ⟨.hbm, 102, rfl⟩
abbrev main_call0_c_19 : Ref sig .tc := ⟨.hbm, 103, rfl⟩
abbrev main_call0_v65 : Ref sig .tc := ⟨.hbm, 104, rfl⟩
abbrev main_call0_v66 : Ref sig .tc := ⟨.hbm, 105, rfl⟩
abbrev main_call0_c_20 : Ref sig .tc := ⟨.hbm, 106, rfl⟩
abbrev main_call0_v67 : Ref sig .tc := ⟨.hbm, 107, rfl⟩
abbrev main_call0_v68 : Ref sig .tc := ⟨.hbm, 108, rfl⟩
abbrev main_call0_v69 : Ref sig .tc := ⟨.hbm, 109, rfl⟩
abbrev main_call0_v70 : Ref sig .tc := ⟨.hbm, 110, rfl⟩
abbrev main_call0_v71 : Ref sig .tc := ⟨.hbm, 111, rfl⟩
abbrev main_call0_c_21 : Ref sig .tc := ⟨.hbm, 112, rfl⟩
abbrev main_call0_v72 : Ref sig .tc := ⟨.hbm, 113, rfl⟩
abbrev main_call0_v73 : Ref sig .tc := ⟨.hbm, 114, rfl⟩
abbrev main_call0_c_22 : Ref sig .tc := ⟨.hbm, 115, rfl⟩
abbrev main_call0_v74 : Ref sig .tc := ⟨.hbm, 116, rfl⟩
abbrev main_call0_v75 : Ref sig .tc := ⟨.hbm, 117, rfl⟩
abbrev main_call0_v76 : Ref sig .tc := ⟨.hbm, 118, rfl⟩
abbrev main_call0_v77 : Ref sig .tc := ⟨.hbm, 119, rfl⟩
abbrev main_call0_v78 : Ref sig .tc := ⟨.hbm, 120, rfl⟩
abbrev main_call0_v79 : Ref sig .tc := ⟨.hbm, 121, rfl⟩
abbrev main_call0_v80 : Ref sig .tc := ⟨.hbm, 122, rfl⟩
abbrev main_call0_v81 : Ref sig .tc := ⟨.hbm, 123, rfl⟩
abbrev main_call0_cst_23 : Ref sig .tc := ⟨.hbm, 124, rfl⟩
abbrev main_call0_v82 : Ref sig .tc := ⟨.hbm, 125, rfl⟩
abbrev main_call0_v83 : Ref sig .tc := ⟨.hbm, 126, rfl⟩
abbrev main_call0_v84 : Ref sig .tc := ⟨.hbm, 127, rfl⟩
abbrev main_call0_v85 : Ref sig .tc := ⟨.hbm, 128, rfl⟩
abbrev main_call0_v86 : Ref sig .tc := ⟨.hbm, 129, rfl⟩
abbrev main_call0_v87 : Ref sig .tc := ⟨.hbm, 130, rfl⟩
abbrev main_call0_v88 : Ref sig .tc := ⟨.hbm, 131, rfl⟩
abbrev main_call0_c_24 : Ref sig .tc := ⟨.hbm, 132, rfl⟩
abbrev main_call0_v89 : Ref sig .tc := ⟨.hbm, 133, rfl⟩
abbrev main_call0_v90 : Ref sig .tc := ⟨.hbm, 134, rfl⟩
abbrev main_call0_c_25 : Ref sig .tc := ⟨.hbm, 135, rfl⟩
abbrev main_call0_v91 : Ref sig .tc := ⟨.hbm, 136, rfl⟩
abbrev main_call0_v92 : Ref sig .tc := ⟨.hbm, 137, rfl⟩
abbrev main_call0_v93 : Ref sig .tc := ⟨.hbm, 138, rfl⟩
abbrev main_call0_v94 : Ref sig .tc := ⟨.hbm, 139, rfl⟩
abbrev main_call0_v95 : Ref sig .tc := ⟨.hbm, 140, rfl⟩
abbrev main_call0_cst_26 : Ref sig .tc := ⟨.hbm, 141, rfl⟩
abbrev main_call0_v96 : Ref sig .tc := ⟨.hbm, 142, rfl⟩
abbrev main_call0_v97 : Ref sig .tc := ⟨.hbm, 143, rfl⟩
abbrev main_call0_v98 : Ref sig .tc := ⟨.hbm, 144, rfl⟩
abbrev main_call0_c_27 : Ref sig .tc := ⟨.hbm, 145, rfl⟩
abbrev main_call0_v99 : Ref sig .tc := ⟨.hbm, 146, rfl⟩
abbrev main_call0_v100 : Ref sig .tc := ⟨.hbm, 147, rfl⟩
abbrev main_call0_c_28 : Ref sig .tc := ⟨.hbm, 148, rfl⟩
abbrev main_call0_v101 : Ref sig .tc := ⟨.hbm, 149, rfl⟩
abbrev main_call0_v102 : Ref sig .tc := ⟨.hbm, 150, rfl⟩
abbrev main_call0_v103 : Ref sig .tc := ⟨.hbm, 151, rfl⟩
abbrev main_call0_v104 : Ref sig .tc := ⟨.hbm, 152, rfl⟩
abbrev main_call0_v105 : Ref sig .tc := ⟨.hbm, 153, rfl⟩
abbrev main_call0_c_29 : Ref sig .tc := ⟨.hbm, 154, rfl⟩
abbrev main_call0_v106 : Ref sig .tc := ⟨.hbm, 155, rfl⟩
abbrev main_call0_v107 : Ref sig .tc := ⟨.hbm, 156, rfl⟩
abbrev main_call0_c_30 : Ref sig .tc := ⟨.hbm, 157, rfl⟩
abbrev main_call0_v108 : Ref sig .tc := ⟨.hbm, 158, rfl⟩
abbrev main_call0_v109 : Ref sig .tc := ⟨.hbm, 159, rfl⟩
abbrev main_call0_v110 : Ref sig .tc := ⟨.hbm, 160, rfl⟩
abbrev main_call0_v111 : Ref sig .tc := ⟨.hbm, 161, rfl⟩
abbrev main_call0_v112 : Ref sig .tc := ⟨.hbm, 162, rfl⟩
abbrev main_call0_v113 : Ref sig .tc := ⟨.hbm, 163, rfl⟩
abbrev main_call0_v114 : Ref sig .tc := ⟨.hbm, 164, rfl⟩
abbrev main_call0_v115 : Ref sig .tc := ⟨.hbm, 165, rfl⟩
abbrev main_call0_cst_31 : Ref sig .tc := ⟨.hbm, 166, rfl⟩
abbrev main_call0_v116 : Ref sig .tc := ⟨.hbm, 167, rfl⟩
abbrev main_call0_v117 : Ref sig .tc := ⟨.hbm, 168, rfl⟩
abbrev main_call0_v118 : Ref sig .tc := ⟨.hbm, 169, rfl⟩
abbrev main_call0_v119 : Ref sig .tc := ⟨.hbm, 170, rfl⟩
abbrev main_call0_v120 : Ref sig .tc := ⟨.hbm, 171, rfl⟩
abbrev main_call0_v121 : Ref sig .tc := ⟨.hbm, 172, rfl⟩
abbrev main_call0_cst_32 : Ref sig .tc := ⟨.hbm, 173, rfl⟩
abbrev main_call0_v122 : Ref sig .tc := ⟨.hbm, 174, rfl⟩
abbrev main_call0_v123 : Ref sig .tc := ⟨.hbm, 175, rfl⟩
abbrev main_call0_v124 : Ref sig .tc := ⟨.hbm, 176, rfl⟩
abbrev main_call0_cst_33 : Ref sig .tc := ⟨.hbm, 177, rfl⟩
abbrev main_call0_v125 : Ref sig .tc := ⟨.hbm, 178, rfl⟩
abbrev main_call0_cst_34 : Ref sig .tc := ⟨.hbm, 179, rfl⟩
abbrev main_call0_v126 : Ref sig .tc := ⟨.hbm, 180, rfl⟩
abbrev main_call0_v127 : Ref sig .tc := ⟨.hbm, 181, rfl⟩
abbrev main_call0_v128 : Ref sig .tc := ⟨.hbm, 182, rfl⟩
abbrev main_call0_cst_35 : Ref sig .tc := ⟨.hbm, 183, rfl⟩
abbrev main_call0_v129 : Ref sig .tc := ⟨.hbm, 184, rfl⟩
abbrev main_call0_v130 : Ref sig .tc := ⟨.hbm, 185, rfl⟩
abbrev main_call0_v131 : Ref sig .tc := ⟨.hbm, 186, rfl⟩
abbrev main_call0_v132 : Ref sig .tc := ⟨.hbm, 187, rfl⟩
abbrev main_call0_v133 : Ref sig .tc := ⟨.hbm, 188, rfl⟩
abbrev main_call0_v134 : Ref sig .tc := ⟨.hbm, 189, rfl⟩
abbrev main_call0_v135 : Ref sig .tc := ⟨.hbm, 190, rfl⟩
abbrev main_v0 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S400000x1_S400000x128_0_1 : S400000x1.BroadcastsInDim S400000x128 (![0, 1] : Fin 2 → Fin S400000x128.rank)
  shapeCasts_S50000_S50000x1 : S50000.ShapeCasts S50000x1
  shapeCasts_S256_S1x256 : S256.ShapeCasts S1x256
  bcast_S_S50000x256 : S_.BroadcastsInDim S50000x256 (![] : Fin 0 → Fin S50000x256.rank)
  bcast_S400000x1_S400000x256_0_1 : S400000x1.BroadcastsInDim S400000x256 (![0, 1] : Fin 2 → Fin S400000x256.rank)
  shapeCasts_S512_S1x512 : S512.ShapeCasts S1x512
  bcast_S_S1024x256 : S_.BroadcastsInDim S1024x256 (![] : Fin 0 → Fin S1024x256.rank)
  bcast_S50000_S50000x1_0 : S50000.BroadcastsInDim S50000x1 (![0] : Fin 1 → Fin S50000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  shapeCasts_S128_S1x128 : S128.ShapeCasts S1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S50000_S400000x1_S400000_n_0_0_1_wf : ScatterDims.WF S50000 S400000x1 S400000 [] [0] [0] 1
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  gather_S50000_S400000x1_S400000_n_0_n_n_0_1_1_wf : GatherDims.WF S50000 S400000x1 S400000 [] [0] [] [0] [] 1 ![1]
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S1024x256_S50000x1_S50000x256_1_0_0_1_wf : ScatterDims.WF S1024x256 S50000x1 S50000x256 [1] [0] [0] 1
  scatter_S1024_S50000x1_S50000_n_0_0_1_wf : ScatterDims.WF S1024 S50000x1 S50000 [] [0] [0] 1
  dot_S2000x128_S128x256_S2000x256_1_0_0_1_n_n_wf : DotDims.WF S2000x128 S128x256 S2000x256 [1] [0] [0] [1] [] []
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S50000x512.size a
  hwx1_4 : ∀ i : grid1.Coords, EltTy.bits .f32 = 32 ∨ (Rect.block (s := S50000x512) S2000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S1024x256.size a
  hwx4_0 : ∀ i : grid4.Coords, EltTy.bits .f32 = 32 ∨ (Rect.block (s := S1024x256) S1024x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x1.size a ≤ S1024x1.size a
  hwx4_5 : ∀ i : grid4.Coords, EltTy.bits .f32 = 32 ∨ (Rect.block (s := S1024x1) S1024x1.size (cc4_transform_5 i) (hinb4_5 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S1024x256_S50000x1_S50000x256_1_0_0_1 : ScatterDims S1024x256 S50000x1 S50000x256 where
  updateWindowDims := [1]
  insertedWindowDims := [0]
  scatterDimsToOperandDims := [0]
  indexVectorDim := 1
  wf := scatter_S1024x256_S50000x1_S50000x256_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_call0_v51) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v52) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v53) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v54) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v84) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v85) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v86) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v87) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v87) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v88) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v118) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v119) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v120) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v121) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_call0_v133) S1024x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v134) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v135) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v0) S1024x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S50000 : Shape := ⟨1, ![50000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S50000x256 : Shape := ⟨2, ![50000, 256]⟩
abbrev S50000x1 : Shape := ⟨2, ![50000, 1]⟩
abbrev S400000x256 : Shape := ⟨2, ![400000, 256]⟩
abbrev S1x256 : Shape := ⟨2, ![1, 256]⟩
abbrev S50000x512 : Shape := ⟨2, ![50000, 512]⟩
abbrev S400000x512 : Shape := ⟨2, ![400000, 512]⟩
abbrev S1x512 : Shape := ⟨2, ![1, 512]⟩
abbrev S1024x256 : Shape := ⟨2, ![1024, 256]⟩
abbrev S1024 : Shape := ⟨1, ![1024]⟩
abbrev S1024x1 : Shape := ⟨2, ![1024, 1]⟩
abbrev S1024x128 : Shape := ⟨2, ![1024, 128]⟩
abbrev S1x128 : Shape := ⟨2, ![1, 128]⟩
abbrev S1x1 : Shape := ⟨2, ![1, 1]⟩

abbrev nBuf : Space → Nat
  | .hbm => 257
  | .vmem => 0
  | .smem => 0
  | _ => 0

abbrev hbmTy0_0 (i : Nat) : BufTy := match i % 128 with
  | 0 => ⟨S50000x128, .f32⟩
  | 1 => ⟨S2x400000, .i32⟩
  | 2 => ⟨S50000, .i32⟩
  | 3 => ⟨S128x256, .f32⟩
  | 4 => ⟨S256, .f32⟩
  | 5 => ⟨S256x512, .f32⟩
  | 6 => ⟨S512, .f32⟩
  | 7 => ⟨S512x256, .f32⟩
  | 8 => ⟨S256, .f32⟩
  | 9 => ⟨S256x128, .f32⟩
  | 10 => ⟨S128, .f32⟩
  | 11 => ⟨S128x1, .f32⟩
  | 12 => ⟨S1, .f32⟩
  | 13 => ⟨S1x400000, .i32⟩
  | 14 => ⟨S400000, .i32⟩
  | 15 => ⟨S1x400000, .i32⟩
  | 16 => ⟨S400000, .i32⟩
  | 17 => ⟨S_, .f32⟩
  | 18 => ⟨S400000, .f32⟩
  | 19 => ⟨S_, .f32⟩
  | 20 => ⟨S50000, .f32⟩
  | 21 => ⟨S400000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S400000, .f32⟩
  | 35 => ⟨S_, .f32⟩
  | 36 => ⟨S50000, .f32⟩
  | 37 => ⟨S400000x1, .i32⟩
  | 38 => ⟨S50000, .f32⟩
  | 39 => ⟨S_, .f32⟩
  | 40 => ⟨S50000, .f32⟩
  | 41 => ⟨S50000, .i1⟩
  | 42 => ⟨S_, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S50000x256, .f32⟩
  | 50 => ⟨S50000x1, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x256, .f32⟩
  | 60 => ⟨S_, .f32⟩
  | 61 => ⟨S50000x256, .f32⟩
  | 62 => ⟨S400000x1, .i32⟩
  | 63 => ⟨S50000x256, .f32⟩
  | 64 => ⟨S50000x256, .f32⟩
  | 65 => ⟨S50000x256, .f32⟩
  | 66 => ⟨S50000x1, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x256, .f32⟩
  | 76 => ⟨S_, .f32⟩
  | 77 => ⟨S50000x256, .f32⟩
  | 78 => ⟨S400000x1, .i32⟩
  | 79 => ⟨S50000x256, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S_, .f32⟩
  | 86 => ⟨S50000x256, .f32⟩
  | 87 => ⟨S50000x256, .f32⟩
  | 88 => ⟨S_, .f32⟩
  | 89 => ⟨S400000, .f32⟩
  | 90 => ⟨S_, .f32⟩
  | 91 => ⟨S50000, .f32⟩
  | 92 => ⟨S400000x1, .i32⟩
  | 93 => ⟨S50000, .f32⟩
  | 94 => ⟨S_, .f32⟩
  | 95 => ⟨S50000, .f32⟩
  | 96 => ⟨S50000, .i1⟩
  | 97 => ⟨S_, .f32⟩
  | 98 => ⟨S50000, .f32⟩
  | 99 => ⟨S50000, .f32⟩
  | 100 => ⟨S_, .f32⟩
  | 101 => ⟨S_, .f32⟩
  | 102 => ⟨S50000, .f32⟩
  | 103 => ⟨S50000, .f32⟩
  | 104 => ⟨S_, .f32⟩
  | 105 => ⟨S400000, .f32⟩
  | 106 => ⟨S_, .f32⟩
  | 107 => ⟨S50000, .f32⟩
  | 108 => ⟨S400000x1, .i32⟩
  | 109 => ⟨S50000, .f32⟩
  | 110 => ⟨S_, .f32⟩
  | 111 => ⟨S50000, .f32⟩
  | 112 => ⟨S50000, .i1⟩
  | 113 => ⟨S_, .f32⟩
  | 114 => ⟨S50000, .f32⟩
  | 115 => ⟨S50000, .f32⟩
  | 116 => ⟨S_, .f32⟩
  | 117 => ⟨S_, .f32⟩
  | 118 => ⟨S50000, .f32⟩
  | 119 => ⟨S50000, .f32⟩
  | 120 => ⟨S50000x512, .f32⟩
  | 121 => ⟨S50000x1, .f32⟩
  | 122 => ⟨S_, .i32⟩
  | 123 => ⟨S400000, .i32⟩
  | 124 => ⟨S400000, .i1⟩
  | 125 => ⟨S_, .i32⟩
  | 126 => ⟨S400000, .i32⟩
  | 127 => ⟨S400000, .i32⟩
  | _ => ⟨S50000x128, .f32⟩

abbrev hbmTy0_1 (i : Nat) : BufTy := match i % 128 with
  | 0 => ⟨S400000, .i32⟩
  | 1 => ⟨S400000x1, .i32⟩
  | 2 => ⟨S400000x512, .f32⟩
  | 3 => ⟨S_, .f32⟩
  | 4 => ⟨S50000x512, .f32⟩
  | 5 => ⟨S400000x1, .i32⟩
  | 6 => ⟨S50000x512, .f32⟩
  | 7 => ⟨S50000x512, .f32⟩
  | 8 => ⟨S50000x512, .f32⟩
  | 9 => ⟨S50000x1, .f32⟩
  | 10 => ⟨S_, .i32⟩
  | 11 => ⟨S400000, .i32⟩
  | 12 => ⟨S400000, .i1⟩
  | 13 => ⟨S_, .i32⟩
  | 14 => ⟨S400000, .i32⟩
  | 15 => ⟨S400000, .i32⟩
  | 16 => ⟨S400000, .i32⟩
  | 17 => ⟨S400000x1, .i32⟩
  | 18 => ⟨S400000x512, .f32⟩
  | 19 => ⟨S_, .f32⟩
  | 20 => ⟨S50000x512, .f32⟩
  | 21 => ⟨S400000x1, .i32⟩
  | 22 => ⟨S50000x512, .f32⟩
  | 23 => ⟨S50000x512, .f32⟩
  | 24 => ⟨S50000x512, .f32⟩
  | 25 => ⟨S1x512, .f32⟩
  | 26 => ⟨S50000x512, .f32⟩
  | 27 => ⟨S50000x512, .f32⟩
  | 28 => ⟨S_, .f32⟩
  | 29 => ⟨S50000x512, .f32⟩
  | 30 => ⟨S50000x512, .f32⟩
  | 31 => ⟨S_, .f32⟩
  | 32 => ⟨S400000, .f32⟩
  | 33 => ⟨S_, .f32⟩
  | 34 => ⟨S50000, .f32⟩
  | 35 => ⟨S400000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S_, .f32⟩
  | 44 => ⟨S_, .f32⟩
  | 45 => ⟨S50000, .f32⟩
  | 46 => ⟨S50000, .f32⟩
  | 47 => ⟨S_, .f32⟩
  | 48 => ⟨S400000, .f32⟩
  | 49 => ⟨S_, .f32⟩
  | 50 => ⟨S50000, .f32⟩
  | 51 => ⟨S400000x1, .i32⟩
  | 52 => ⟨S50000, .f32⟩
  | 53 => ⟨S_, .f32⟩
  | 54 => ⟨S50000, .f32⟩
  | 55 => ⟨S50000, .i1⟩
  | 56 => ⟨S_, .f32⟩
  | 57 => ⟨S50000, .f32⟩
  | 58 => ⟨S50000, .f32⟩
  | 59 => ⟨S_, .f32⟩
  | 60 => ⟨S_, .f32⟩
  | 61 => ⟨S50000, .f32⟩
  | 62 => ⟨S50000, .f32⟩
  | 63 => ⟨S50000x256, .f32⟩
  | 64 => ⟨S50000x1, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x256, .f32⟩
  | 74 => ⟨S_, .f32⟩
  | 75 => ⟨S50000x256, .f32⟩
  | 76 => ⟨S400000x1, .i32⟩
  | 77 => ⟨S50000x256, .f32⟩
  | 78 => ⟨S50000x256, .f32⟩
  | 79 => ⟨S50000x256, .f32⟩
  | 80 => ⟨S50000x1, .f32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x256, .f32⟩
  | 90 => ⟨S_, .f32⟩
  | 91 => ⟨S50000x256, .f32⟩
  | 92 => ⟨S400000x1, .i32⟩
  | 93 => ⟨S50000x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S_, .f32⟩
  | 103 => ⟨S1024x256, .f32⟩
  | 104 => ⟨S50000x1, .i32⟩
  | 105 => ⟨S1024x256, .f32⟩
  | 106 => ⟨S_, .f32⟩
  | 107 => ⟨S50000, .f32⟩
  | 108 => ⟨S_, .f32⟩
  | 109 => ⟨S1024, .f32⟩
  | 110 => ⟨S50000x1, .i32⟩
  | 111 => ⟨S1024, .f32⟩
  | 112 => ⟨S_, .f32⟩
  | 113 => ⟨S1024, .f32⟩
  | 114 => ⟨S1024, .f32⟩
  | 115 => ⟨S1024x1, .f32⟩
  | 116 => ⟨S1024x256, .f32⟩
  | 117 => ⟨S1024x256, .f32⟩
  | 118 => ⟨S1024x128, .f32⟩
  | 119 => ⟨S1x128, .f32⟩
  | 120 => ⟨S1024x128, .f32⟩
  | 121 => ⟨S1024x128, .f32⟩
  | 122 => ⟨S_, .f32⟩
  | 123 => ⟨S1024x128, .f32⟩
  | 124 => ⟨S1024x128, .f32⟩
  | 125 => ⟨S1024x1, .f32⟩
  | 126 => ⟨S1x1, .f32⟩
  | 127 => ⟨S1024x1, .f32⟩
  | _ => ⟨S50000x128, .f32⟩

abbrev hbmTy0_2 (i : Nat) : BufTy := match i % 128 with
  | 0 => ⟨S1024x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_cst_5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_v19 : Ref sig .tc := ⟨.hbm, 43, rfl⟩
abbrev main_v20 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c : Ref sig .tc := ⟨.hbm, 51, rfl⟩
abbrev main_v24 : Ref sig .tc := ⟨.hbm, 52, rfl⟩
abbrev main_v25 : Ref sig .tc := ⟨.hbm, 53, rfl⟩
abbrev main_c_9 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_10 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_11 : Ref sig .tc := ⟨.hbm, 67, rfl⟩
abbrev main_v37 : Ref sig .tc := ⟨.hbm, 68, rfl⟩
abbrev main_v38 : Ref sig .tc := ⟨.hbm, 69, rfl⟩
abbrev main_c_12 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_13 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call2_cst : Ref sig .tc := ⟨.hbm, 85, rfl⟩
abbrev main_call2_v0 : Ref sig .tc := ⟨.hbm, 86, rfl⟩
abbrev main_v52 : Ref sig .tc := ⟨.hbm, 87, rfl⟩
abbrev main_cst_14 : Ref sig .tc := ⟨.hbm, 88, rfl⟩
abbrev main_v53 : Ref sig .tc := ⟨.hbm, 89, rfl⟩
abbrev main_cst_15 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_16 : Ref sig .tc := ⟨.hbm, 94, rfl⟩
abbrev main_v57 : Ref sig .tc := ⟨.hbm, 95, rfl⟩
abbrev main_v58 : Ref sig .tc := ⟨.hbm, 96, rfl⟩
abbrev main_cst_17 : Ref sig .tc := ⟨.hbm, 97, rfl⟩
abbrev main_v59 : Ref sig .tc := ⟨.hbm, 98, rfl⟩
abbrev main_v60 : Ref sig .tc := ⟨.hbm, 99, rfl⟩
abbrev main_cst_18 : Ref sig .tc := ⟨.hbm, 100, rfl⟩
abbrev main_call3_v0 : Ref sig .tc := ⟨.hbm, 101, rfl⟩
abbrev main_call3_v1 : Ref sig .tc := ⟨.hbm, 102, rfl⟩
abbrev main_v61 : Ref sig .tc := ⟨.hbm, 103, rfl⟩
abbrev main_cst_19 : Ref sig .tc := ⟨.hbm, 104, rfl⟩
abbrev main_v62 : Ref sig .tc := ⟨.hbm, 105, rfl⟩
abbrev main_cst_20 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_21 : Ref sig .tc := ⟨.hbm, 110, rfl⟩
abbrev main_v66 : Ref sig .tc := ⟨.hbm, 111, rfl⟩
abbrev main_v67 : Ref sig .tc := ⟨.hbm, 112, rfl⟩
abbrev main_cst_22 : Ref sig .tc := ⟨.hbm, 113, rfl⟩
abbrev main_v68 : Ref sig .tc := ⟨.hbm, 114, rfl⟩
abbrev main_v69 : Ref sig .tc := ⟨.hbm, 115, rfl⟩
abbrev main_cst_23 : Ref sig .tc := ⟨.hbm, 116, rfl⟩
abbrev main_call4_v0 : Ref sig .tc := ⟨.hbm, 117, rfl⟩
abbrev main_call4_v1 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_24 : Ref sig .tc := ⟨.hbm, 122, rfl⟩
abbrev main_v73 : Ref sig .tc := ⟨.hbm, 123, rfl⟩
abbrev main_v74 : Ref sig .tc := ⟨.hbm, 124, rfl⟩
abbrev main_c_25 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_26 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_c_27 : Ref sig .tc := ⟨.hbm, 138, rfl⟩
abbrev main_v86 : Ref sig .tc := ⟨.hbm, 139, rfl⟩
abbrev main_v87 : Ref sig .tc := ⟨.hbm, 140, rfl⟩
abbrev main_c_28 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_29 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_call5_cst : Ref sig .tc := ⟨.hbm, 156, rfl⟩
abbrev main_call5_v0 : Ref sig .tc := ⟨.hbm, 157, rfl⟩
abbrev main_v101 : Ref sig .tc := ⟨.hbm, 158, rfl⟩
abbrev main_cst_30 : Ref sig .tc := ⟨.hbm, 159, rfl⟩
abbrev main_v102 : Ref sig .tc := ⟨.hbm, 160, rfl⟩
abbrev main_cst_31 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_32 : Ref sig .tc := ⟨.hbm, 165, rfl⟩
abbrev main_v106 : Ref sig .tc := ⟨.hbm, 166, rfl⟩
abbrev main_v107 : Ref sig .tc := ⟨.hbm, 167, rfl⟩
abbrev main_cst_33 : Ref sig .tc := ⟨.hbm, 168, rfl⟩
abbrev main_v108 : Ref sig .tc := ⟨.hbm, 169, rfl⟩
abbrev main_v109 : Ref sig .tc := ⟨.hbm, 170, rfl⟩
abbrev main_cst_34 : Ref sig .tc := ⟨.hbm, 171, rfl⟩
abbrev main_call6_v0 : Ref sig .tc := ⟨.hbm, 172, rfl⟩
abbrev main_call6_v1 : Ref sig .tc := ⟨.hbm, 173, rfl⟩
abbrev main_v110 : Ref sig .tc := ⟨.hbm, 174, rfl⟩
abbrev main_cst_35 : Ref sig .tc := ⟨.hbm, 175, rfl⟩
abbrev main_v111 : Ref sig .tc := ⟨.hbm, 176, rfl⟩
abbrev main_cst_36 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_cst_37 : Ref sig .tc := ⟨.hbm, 181, rfl⟩
abbrev main_v115 : Ref sig .tc := ⟨.hbm, 182, rfl⟩
abbrev main_v116 : Ref sig .tc := ⟨.hbm, 183, rfl⟩
abbrev main_cst_38 : Ref sig .tc := ⟨.hbm, 184, rfl⟩
abbrev main_v117 : Ref sig .tc := ⟨.hbm, 185, rfl⟩
abbrev main_v118 : Ref sig .tc := ⟨.hbm, 186, rfl⟩
abbrev main_cst_39 : Ref sig .tc := ⟨.hbm, 187, rfl⟩
abbrev main_call7_v0 : Ref sig .tc := ⟨.hbm, 188, rfl⟩
abbrev main_call7_v1 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_c_40 : Ref sig .tc := ⟨.hbm, 193, rfl⟩
abbrev main_v122 : Ref sig .tc := ⟨.hbm, 194, rfl⟩
abbrev main_v123 : Ref sig .tc := ⟨.hbm, 195, rfl⟩
abbrev main_c_41 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_cst_42 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_c_43 : Ref sig .tc := ⟨.hbm, 209, rfl⟩
abbrev main_v135 : Ref sig .tc := ⟨.hbm, 210, rfl⟩
abbrev main_v136 : Ref sig .tc := ⟨.hbm, 211, rfl⟩
abbrev main_c_44 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_cst_45 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_call8_cst : Ref sig .tc := ⟨.hbm, 227, rfl⟩
abbrev main_call8_v0 : Ref sig .tc := ⟨.hbm, 228, rfl⟩
abbrev main_v150 : Ref sig .tc := ⟨.hbm, 229, rfl⟩
abbrev main_cst_46 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_cst_47 : Ref sig .tc := ⟨.hbm, 234, rfl⟩
abbrev main_v154 : Ref sig .tc := ⟨.hbm, 235, rfl⟩
abbrev main_cst_48 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_cst_49 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_call9_cst : Ref sig .tc := ⟨.hbm, 250, rfl⟩
abbrev main_call9_v0 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S50000_S400000x1_S400000_n_0_0_1_wf : ScatterDims.WF S50000 S400000x1 S400000 [] [0] [0] 1
  dot_S50000x128_S128x256_S50000x256_1_0_0_1_n_n_wf : DotDims.WF S50000x128 S128x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x512_S50000x512_1_0_0_1_n_n_wf : DotDims.WF S50000x256 S256x512 S50000x512 [1] [0] [0] [1] [] []
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x256_S50000x256_1_0_0_1_n_n_wf : DotDims.WF S50000x512 S512x256 S50000x256 [1] [0] [0] [1] [] []
  scatter_S1024x256_S50000x1_S50000x256_1_0_0_1_wf : ScatterDims.WF S1024x256 S50000x1 S50000x256 [1] [0] [0] 1
  scatter_S1024_S50000x1_S50000_n_0_0_1_wf : ScatterDims.WF S1024 S50000x1 S50000 [] [0] [0] 1
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S1024x256_S50000x1_S50000x256_1_0_0_1 : ScatterDims S1024x256 S50000x1 S50000x256 where
  updateWindowDims := [1]
  insertedWindowDims := [0]
  scatterDimsToOperandDims := [0]
  indexVectorDim := 1
  wf := scatter_S1024x256_S50000x1_S50000x256_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

class Facts : Prop extends Facts₀ where

variable [Facts]
-- ==== Proof.KDefs.lean ====
/-
  The kernel program's host operations between its launches, as named pieces of the mathematics: the two index rows
  of the incidence array, an index row as a column, an index row wrapped for gathering, the inverse degree of an index
  column, one propagation as this program spells it (gather the rows at the nodes, sum them per hyperedge, gather the
  sums at the hyperedges, multiply by the gathered hyperedge factor, sum per node) at widths 128 and 256, the per-node
  factor as a column, a bias vector as a row, and the mean pooling over graphs.
-/
import proofs.«148780_j25718264168627_2_alg».proof.KernelIdeal
import proofs.«148780_j25718264168627_2_alg».proof.Proof.Gen.KernelIdeal
import Idealize.ShloMosaic.PureOps.Ideal

noncomputable section

namespace Cert.KernelIdeal.Terms

open Cert.KernelIdeal Cert.KernelIdeal.Facts₀ Cert.KernelIdeal.Facts Idealize.ShloMosaic

/-- A float array of shape `s` on the extended reals, and an index array. -/
abbrev FA (s : Shape) := FVec Ideal s .f32
abbrev IA (s : Shape) := IVec s 32

/-- Row 0 of the incidence array: the node words. -/
def nI (a1 : IA S2x400000) : IA S400000 :=
  shapeCast _ (extractStridedSlice S1x400000 ![0, 0] a1 slices_S2x400000_S1x400000_0_0) shapeCasts_S1x400000_S400000
/-- Row 1 of the incidence array: the hyperedge words. -/
def eI (a1 : IA S2x400000) : IA S400000 :=
  shapeCast _ (extractStridedSlice S1x400000 ![1, 0] a1 slices_S2x400000_S1x400000_1_0) shapeCasts_S1x400000_S400000
/-- An index row as a column of start indices. -/
def colI (v : IA S400000) : IA S400000x1 := broadcastInDim S400000x1 ![0] bcast_S400000_S400000x1_0 v
/-- An index row with its negative words wrapped by the extent. -/
def wrapI (v : IA S400000) : IA S400000 := select (cmpi .slt v (broadcastInDim S400000 ![] bcast_S_S400000 (constantI S_ 32 0#32))) (addi v (broadcastInDim S400000 ![] bcast_S_S400000 (constantI S_ 32 50000#32))) v
/-- The inverse degree of an index column: the count of ones scattered by it, inverted where positive, else 0. -/
def invD (col : IA S400000x1) : FA S50000 := select (cmpf (F := Ideal) .ogt (Host.scatterAdd scatter_S50000_S400000x1_S400000_n_0_0_1 (broadcastInDim S50000 ![] bcast_S_S50000 (constant S_ .f32 0x00000000#32)) col (broadcastInDim S400000 ![] bcast_S_S400000 (constant S_ .f32 0x3F800000#32))) (broadcastInDim S50000 ![] bcast_S_S50000 (constant S_ .f32 0x00000000#32))) (Host.divf (broadcastInDim S50000 ![] bcast_S_S50000 (constant S_ .f32 0x3F800000#32)) (Host.scatterAdd scatter_S50000_S400000x1_S400000_n_0_0_1 (broadcastInDim S50000 ![] bcast_S_S50000 (constant S_ .f32 0x00000000#32)) col (broadcastInDim S400000 ![] bcast_S_S400000 (constant S_ .f32 0x3F800000#32)))) (broadcastInDim S50000 ![] bcast_S_S50000 (id (constant (F := Ideal) S_ .f32 0x00000000#32)))
/-- One propagation at width 128 as the kernel's program spells it: the hyperedge sums gathered at the hyperedges,
    TIMES the gathered hyperedge factor, summed per node. -/
def propKf128 (V : FA S50000x128) (nv ev : IA S400000) (bd : FA S50000) : FA S50000x128 := Host.scatterAdd scatter_S50000x128_S400000x1_S400000x128_1_0_0_1 (broadcastInDim S50000x128 ![] bcast_S_S50000x128 (constant S_ .f32 0x00000000#32)) (colI nv) (mulf (Host.gather gather_S50000x128_S400000x1_S400000x128_1_0_n_n_0_1_1128 (Host.scatterAdd scatter_S50000x128_S400000x1_S400000x128_1_0_0_1 (broadcastInDim S50000x128 ![] bcast_S_S50000x128 (constant S_ .f32 0x00000000#32)) (colI ev) (Host.gather gather_S50000x128_S400000x1_S400000x128_1_0_n_n_0_1_1128 V (colI (wrapI nv)))) (colI (wrapI ev))) (broadcastInDim S400000x128 ![0, 1] bcast_S400000x1_S400000x128_0_1 (broadcastInDim S400000x1 ![0] bcast_S400000_S400000x1_0 (Host.gather gather_S50000_S400000x1_S400000_n_0_n_n_0_1_1 bd (colI (wrapI ev))))))
/-- The same at width 256. -/
def propKf256 (V : FA S50000x256) (nv ev : IA S400000) (bd : FA S50000) : FA S50000x256 := Host.scatterAdd scatter_S50000x256_S400000x1_S400000x256_1_0_0_1 (broadcastInDim S50000x256 ![] bcast_S_S50000x256 (constant S_ .f32 0x00000000#32)) (colI nv) (mulf (Host.gather gather_S50000x256_S400000x1_S400000x256_1_0_n_n_0_1_1256 (Host.scatterAdd scatter_S50000x256_S400000x1_S400000x256_1_0_0_1 (broadcastInDim S50000x256 ![] bcast_S_S50000x256 (constant S_ .f32 0x00000000#32)) (colI ev) (Host.gather gather_S50000x256_S400000x1_S400000x256_1_0_n_n_0_1_1256 V (colI (wrapI nv)))) (colI (wrapI ev))) (broadcastInDim S400000x256 ![0, 1] bcast_S400000x1_S400000x256_0_1 (broadcastInDim S400000x1 ![0] bcast_S400000_S400000x1_0 (Host.gather gather_S50000_S400000x1_S400000_n_0_n_n_0_1_1 bd (colI (wrapI ev))))))
/-- The per-node factor as a column. -/
def colF (d : FA S50000) : FA S50000x1 := shapeCast S50000x1 d shapeCasts_S50000_S50000x1
/-- A bias vector as one row. -/
def row256 (b : FA S256) : FA S1x256 := shapeCast S1x256 b shapeCasts_S256_S1x256
def row512 (b : FA S512) : FA S1x512 := shapeCast S1x512 b shapeCasts_S512_S1x512
def row128 (b : FA S128) : FA S1x128 := shapeCast S1x128 b shapeCasts_S128_S1x128
def row1 (b : FA S1) : FA S1x1 := shapeCast S1x1 b shapeCasts_S1_S1x1
/-- The mean of the node rows of each graph (an empty graph's count read as 1). -/
def poolK (h : FA S50000x256) (a2 : IA S50000) : FA S1024x256 := Host.divf (Host.scatterAdd scatter_S1024x256_S50000x1_S50000x256_1_0_0_1 (broadcastInDim S1024x256 ![] bcast_S_S1024x256 (constant S_ .f32 0x00000000#32)) (broadcastInDim S50000x1 ![0] bcast_S50000_S50000x1_0 a2) h) (broadcastInDim S1024x256 ![0, 1] bcast_S1024x1_S1024x256_0_1 (broadcastInDim S1024x1 ![0] bcast_S1024_S1024x1_0 (maximumf (Host.scatterAdd scatter_S1024_S50000x1_S50000_n_0_0_1 (broadcastInDim S1024 ![] bcast_S_S1024 (constant S_ .f32 0x00000000#32)) (broadcastInDim S50000x1 ![0] bcast_S50000_S50000x1_0 a2) (broadcastInDim S50000 ![] bcast_S_S50000 (constant S_ .f32 0x3F800000#32))) (broadcastInDim S1024 ![] bcast_S_S1024 (constant S_ .f32 0x3F800000#32)))))

end Cert.KernelIdeal.Terms

end
-- ==== Proof.KStretch.lean ====
/-
  What each stretch of the kernel program's host operations leaves in the buffers the next launch reads, as a term
  (over the named pieces) of what the stretch found, for ANY contents `W` it starts from: a stretch reads its own
  operations' results and otherwise only `W`.
-/
import proofs.«148780_j25718264168627_2_alg».proof.Proof.KRun
import proofs.«148780_j25718264168627_2_alg».proof.Proof.KDefs
import Idealize.ShloMosaic.Lib.StableHlo.Run

set_option maxRecDepth 65536

noncomputable section

namespace Cert.KernelIdeal.Terms

open Cert.KernelIdeal Cert.KernelIdeal.Gen Idealize.ShloMosaic Idealize.ShloMosaic.TcCoe Idealize.SL.Sem Idealize.ShloMosaic.StableHlo

/-! ## The first stretch -/

set_option maxHeartbeats 4000000 in
theorem s0_nI (W : Valuation τ sig (Elt Ideal)) :
    StableHlo.after hostOps0 W (Proc.devRef .tc main_call0_v1) = nI (W (Proc.devRef .tc main_arg1)) := by
  after_results
  rfl

set_option maxHeartbeats 4000000 in
theorem s0_eI (W : Valuation τ sig (Elt Ideal)) :
    StableHlo.after hostOps0 W (Proc.devRef .tc main_call0_v3) = eI (W (Proc.devRef .tc main_arg1)) := by
  after_results
  rfl

set_option maxHeartbeats 4000000 in
theorem s0_brow (W : Valuation τ sig (Elt Ideal)) :
    StableHlo.after hostOps0 W (Proc.devRef .tc main_call0_v53) = row256 (W (Proc.devRef .tc main_arg4)) := by
  after_results
  rfl

/-! ## The second stretch -/

set_option maxHeartbeats 4000000 in
theorem s1_ns (W : Valuation τ sig (Elt Ideal)) :
    StableHlo.after hostOps1 W (Proc.devRef .tc main_call0_v84) = propKf256 (W (Proc.devRef .tc main_call0_v54)) (W (Proc.devRef .tc main_call0_v1)) (W (Proc.devRef .tc main_call0_v3)) (W (Proc.devRef .tc main_call0_v21)) := by
  after_results
  rfl

set_option maxHeartbeats 4000000 in
theorem s1_dcol (W : Valuation τ sig (Elt Ideal)) :
    StableHlo.after hostOps1 W (Proc.devRef .tc main_call0_v85) = colF (W (Proc.devRef .tc main_call0_v12)) := by
  after_results
  rfl

set_option maxHeartbeats 4000000 in
theorem s1_brow (W : Valuation τ sig (Elt Ideal)) :
    StableHlo.after hostOps1 W (Proc.devRef .tc main_call0_v86) = row512 (W (Proc.devRef .tc main_arg6)) := by
  after_results
  rfl

/-! ## The third stretch -/

set_option maxHeartbeats 4000000 in
theorem s3_ns (W : Valuation τ sig (Elt Ideal)) :
    StableHlo.after hostOps3 W (Proc.devRef .tc main_call0_v118) = propKf256 (W (Proc.devRef .tc main_call0_v88)) (W (Proc.devRef .tc main_call0_v1)) (W (Proc.devRef .tc main_call0_v3)) (W (Proc.devRef .tc main_call0_v21)) := by
  after_results
  rfl

set_option maxHeartbeats 4000000 in
theorem s3_dcol (W : Valuation τ sig (Elt Ideal)) :
    StableHlo.after hostOps3 W (Proc.devRef .tc main_call0_v119) = colF (W (Proc.devRef .tc main_call0_v12)) := by
  after_results
  rfl

set_option maxHeartbeats 4000000 in
theorem s3_brow (W : Valuation τ sig (Elt Ideal)) :
    StableHlo.after hostOps3 W (Proc.devRef .tc main_call0_v120) = row256 (W (Proc.devRef .tc main_arg8)) := by
  after_results
  rfl

/-! ## The fourth stretch -/

set_option maxHeartbeats 4000000 in
theorem s4_pool (W : Valuation τ sig (Elt Ideal)) :
    StableHlo.after hostOps4 W (Proc.devRef .tc main_call0_v133) = poolK (W (Proc.devRef .tc main_call0_v121)) (W (Proc.devRef .tc main_arg2)) := by
  after_results
  rfl

set_option maxHeartbeats 4000000 in
theorem s4_brow1 (W : Valuation τ sig (Elt Ideal)) :
    StableHlo.after hostOps4 W (Proc.devRef .tc main_call0_v134) = row128 (W (Proc.devRef .tc main_arg10)) := by
  after_results
  rfl

set_option maxHeartbeats 4000000 in
theorem s4_brow2 (W : Valuation τ sig (Elt Ideal)) :
    StableHlo.after hostOps4 W (Proc.devRef .tc main_call0_v135) = row1 (W (Proc.devRef .tc main_arg12)) := by
  after_results
  rfl

end Cert.KernelIdeal.Terms

end
-- ==== Proof.KStretch0.lean ====
/-
  The first stretch of the kernel program's host operations, the buffers that sit deep in it: the two inverse
  degrees, the propagated rows the first launch reads and the per-node factor as a column, each as a term (over the
  named pieces) of what the stretch found, for ANY contents `W` it starts from.

  The stretch is read in two parts. Its first 36 operations compute the two index rows and the two inverse degrees
  from the incidence array alone; the remaining operations compute the propagation from the features, the index rows
  and the hyperedge factor, and recast the node factor and the bias. Operations run in order, so the stretch from `W`
  is its second part from what its first part leaves, and each buffer is read over the part that writes it.
-/
import proofs.«148780_j25718264168627_2_alg».proof.Proof.KRun
import proofs.«148780_j25718264168627_2_alg».proof.Proof.KDefs
import Idealize.ShloMosaic.Lib.StableHlo.Run

set_option maxRecDepth 65536
set_option Elab.async false

noncomputable section

namespace Cert.KernelIdeal.Terms

open Cert.KernelIdeal Cert.KernelIdeal.Gen Idealize.ShloMosaic Idealize.ShloMosaic.TcCoe Idealize.SL.Sem Idealize.ShloMosaic.StableHlo

attribute [local irreducible] Host.scatterAdd Host.gather Host.divf mulf select cmpi cmpf addi maximumf broadcastInDim constant constantI shapeCast extractStridedSlice

/-- The stretch from `W` is its part after the first 36 operations, from what those leave. -/
theorem stretch0_cut (W : Valuation τ sig (Elt Ideal)) (b : DevRef τ sig) :
    StableHlo.after hostOps0 W b
      = StableHlo.after ((hostOps0 : List (HloOp τ sig (Elt Ideal))).drop 36) (StableHlo.after ((hostOps0 : List (HloOp τ sig (Elt Ideal))).take 36) W) b := by
  rw [← StableHlo.after_append, List.take_append_drop]

/-! ## The first part: the index rows and the inverse degrees -/

set_option maxHeartbeats 16000000 in
theorem pre0_nI (W : Valuation τ sig (Elt Ideal)) :
    StableHlo.after ((hostOps0 : List (HloOp τ sig (Elt Ideal))).take 36) W (Proc.devRef .tc main_call0_v1) = nI (W (Proc.devRef .tc main_arg1)) := by
  simp only [hostOps0, List.take_succ_cons, List.take_zero]
  after_results_simp
  rfl

set_option maxHeartbeats 16000000 in
theorem pre0_eI (W : Valuation τ sig (Elt Ideal)) :
    StableHlo.after ((hostOps0 : List (HloOp τ sig (Elt Ideal))).take 36) W (Proc.devRef .tc main_call0_v3) = eI (W (Proc.devRef .tc main_arg1)) := by
  simp only [hostOps0, List.take_succ_cons, List.take_zero]
  after_results_simp
  rfl

set_option maxHeartbeats 16000000 in
theorem pre0_d (W : Valuation τ sig (Elt Ideal)) :
    StableHlo.after ((hostOps0 : List (HloOp τ sig (Elt Ideal))).take 36) W (Proc.devRef .tc main_call0_v12) = invD (colI (nI (W (Proc.devRef .tc main_arg1)))) := by
  simp only [hostOps0, List.take_succ_cons, List.take_zero]
  after_results_simp
  rfl

set_option maxHeartbeats 16000000 in
theorem pre0_bd (W : Valuation τ sig (Elt Ideal)) :
    StableHlo.after ((hostOps0 : List (HloOp τ sig (Elt Ideal))).take 36) W (Proc.devRef .tc main_call0_v21) = invD (colI (eI (W (Proc.devRef .tc main_arg1)))) := by
  simp only [hostOps0, List.take_succ_cons, List.take_zero]
  after_results_simp
  rfl

set_option maxHeartbeats 16000000 in
theorem pre0_arg0 (W : Valuation τ sig (Elt Ideal)) :
    StableHlo.after ((hostOps0 : List (HloOp τ sig (Elt Ideal))).take 36) W (Proc.devRef .tc main_arg0) = W (Proc.devRef .tc main_arg0) := by
  simp only [hostOps0, List.take_succ_cons, List.take_zero]
  after_results_simp

/-! ## The second part: the propagation, the node factor as a column -/

set_option maxHeartbeats 16000000 in
theorem post0_d (W : Valuation τ sig (Elt Ideal)) :
    StableHlo.after ((hostOps0 : List (HloOp τ sig (Elt Ideal))).drop 36) W (Proc.devRef .tc main_call0_v12) = W (Proc.devRef .tc main_call0_v12) := by
  simp only [hostOps0, List.drop_succ_cons, List.drop_zero]
  after_results_simp

set_option maxHeartbeats 16000000 in
theorem post0_bd (W : Valuation τ sig (Elt Ideal)) :
    StableHlo.after ((hostOps0 : List (HloOp τ sig (Elt Ideal))).drop 36) W (Proc.devRef .tc main_call0_v21) = W (Proc.devRef .tc main_call0_v21) := by
  simp only [hostOps0, List.drop_succ_cons, List.drop_zero]
  after_results_simp

set_option maxHeartbeats 16000000 in
theorem post0_ns (W : Valuation τ sig (Elt Ideal)) :
    StableHlo.after ((hostOps0 : List (HloOp τ sig (Elt Ideal))).drop 36) W (Proc.devRef .tc main_call0_v51)
      = propKf128 (W (Proc.devRef .tc main_arg0)) (W (Proc.devRef .tc main_call0_v1)) (W (Proc.devRef .tc main_call0_v3)) (W (Proc.devRef .tc main_call0_v21)) := by
  simp only [hostOps0, List.drop_succ_cons, List.drop_zero]
  after_results_simp
  rfl

set_option maxHeartbeats 16000000 in
theorem post0_dcol (W : Valuation τ sig (Elt Ideal)) :
    StableHlo.after ((hostOps0 : List (HloOp τ sig (Elt Ideal))).drop 36) W (Proc.devRef .tc main_call0_v52) = colF (W (Proc.devRef .tc main_call0_v12)) := by
  simp only [hostOps0, List.drop_succ_cons, List.drop_zero]
  after_results_simp
  rfl

/-! ## The whole stretch -/

theorem s0_d (W : Valuation τ sig (Elt Ideal)) :
    StableHlo.after hostOps0 W (Proc.devRef .tc main_call0_v12) = invD (colI (nI (W (Proc.devRef .tc main_arg1)))) := by
  rw [stretch0_cut, post0_d, pre0_d]

theorem s0_bd (W : Valuation τ sig (Elt Ideal)) :
    StableHlo.after hostOps0 W (Proc.devRef .tc main_call0_v21) = invD (colI (eI (W (Proc.devRef .tc main_arg1)))) := by
  rw [stretch0_cut, post0_bd, pre0_bd]

theorem s0_ns (W : Valuation τ sig (Elt Ideal)) :
    StableHlo.after hostOps0 W (Proc.devRef .tc main_call0_v51) = propKf128 (W (Proc.devRef .tc main_arg0)) (nI (W (Proc.devRef .tc main_arg1))) (eI (W (Proc.devRef .tc main_arg1))) (invD (colI (eI (W (Proc.devRef .tc main_arg1))))) := by
  rw [stretch0_cut, post0_ns, pre0_arg0, pre0_nI, pre0_eI, pre0_bd]

theorem s0_dcol (W : Valuation τ sig (Elt Ideal)) :
    StableHlo.after hostOps0 W (Proc.devRef .tc main_call0_v52) = colF (invD (colI (nI (W (Proc.devRef .tc main_arg1))))) := by
  rw [stretch0_cut, post0_dcol, pre0_d]

end Cert.KernelIdeal.Terms

end
-- ==== Proof.KWalk.lean ====
/-
  Buffers that ride through the program untouched: an argument array, or an array the first stretch of host
  operations computed once (the two index rows, the two inverse degrees), holds at every later boundary what it held
  when it was written, because no host operation in between writes it and no launch in between has it among its
  arrays. Each lemma walks one buffer back from the boundary where it is read: an argument array to the launch memory,
  a once-computed array to the boundary right after the first stretch.
-/
import proofs.«148780_j25718264168627_2_alg».proof.Proof.KRun
import Idealize.ShloMosaic.Lib.StableHlo.Run
import Idealize.ShloMosaic.PureOps.Ideal

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

/-- No operation of the stretch writes the buffer: every operation's written buffer is another one. -/
macro "not_written" ops:ident : term => `(List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

theorem w1_arg3 : W1 (F := Ideal) m ρ c (Proc.devRef .tc main_arg3) = m ((c.tc : Thread nD τ).loc main_arg3) :=
  calc W1 (F := Ideal) m ρ c (Proc.devRef .tc main_arg3)
    _ = W0 m ρ c (Proc.devRef .tc main_arg3) := StableHlo.after_of_forall_not_mem (b := Proc.devRef .tc main_arg3) _ _ (not_written hostOps0)
    _ = m ((c.tc : Thread nD τ).loc main_arg3) := rfl
theorem w2_arg6 : W2 (F := Ideal) m ρ c (Proc.devRef .tc main_arg6) = m ((c.tc : Thread nD τ).loc main_arg6) :=
  calc W2 (F := Ideal) m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (not_written hostOps0)
    _ = m ((c.tc : Thread nD τ).loc main_arg6) := rfl
theorem w3_arg5 : W3 (F := Ideal) m ρ c (Proc.devRef .tc main_arg5) = m ((c.tc : Thread nD τ).loc main_arg5) :=
  calc W3 (F := Ideal) m ρ c (Proc.devRef .tc main_arg5)
    _ = W2 m ρ c (Proc.devRef .tc main_arg5) := StableHlo.after_of_forall_not_mem (b := Proc.devRef .tc main_arg5) _ _ (not_written hostOps1)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (not_written hostOps0)
    _ = m ((c.tc : Thread nD τ).loc main_arg5) := rfl
theorem w4_arg7 : W4 (F := Ideal) m ρ c (Proc.devRef .tc main_arg7) = m ((c.tc : Thread nD τ).loc main_arg7) :=
  calc W4 (F := Ideal) m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (not_written hostOps1)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (not_written hostOps0)
    _ = m ((c.tc : Thread nD τ).loc main_arg7) := rfl
theorem w5_arg8 : W5 (F := Ideal) m ρ c (Proc.devRef .tc main_arg8) = m ((c.tc : Thread nD τ).loc main_arg8) :=
  calc W5 (F := Ideal) m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (not_written hostOps1)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (not_written hostOps0)
    _ = m ((c.tc : Thread nD τ).loc main_arg8) := rfl
theorem w7_arg2 : W7 (F := Ideal) m ρ c (Proc.devRef .tc main_arg2) = m ((c.tc : Thread nD τ).loc main_arg2) :=
  calc W7 (F := Ideal) m ρ c (Proc.devRef .tc main_arg2)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (not_written hostOps3)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (not_written hostOps1)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (not_written hostOps0)
    _ = m ((c.tc : Thread nD τ).loc main_arg2) := rfl
theorem w7_arg10 : W7 (F := Ideal) m ρ c (Proc.devRef .tc main_arg10) = m ((c.tc : Thread nD τ).loc main_arg10) :=
  calc W7 (F := Ideal) m ρ c (Proc.devRef .tc main_arg10)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (not_written hostOps3)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (not_written hostOps1)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (not_written hostOps0)
    _ = m ((c.tc : Thread nD τ).loc main_arg10) := rfl
theorem w7_arg12 : W7 (F := Ideal) m ρ c (Proc.devRef .tc main_arg12) = m ((c.tc : Thread nD τ).loc main_arg12) :=
  calc W7 (F := Ideal) m ρ c (Proc.devRef .tc main_arg12)
    _ = W6 m ρ c (Proc.devRef .tc main_arg12) := W7_of_ne m ρ c main_arg12 (by decide)
    _ = W5 m ρ c (Proc.devRef .tc main_arg12) := StableHlo.after_of_forall_not_mem (b := Proc.devRef .tc main_arg12) _ _ (not_written hostOps3)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (not_written hostOps1)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (not_written hostOps0)
    _ = m ((c.tc : Thread nD τ).loc main_arg12) := rfl
theorem w8_arg9 : W8 (F := Ideal) m ρ c (Proc.devRef .tc main_arg9) = m ((c.tc : Thread nD τ).loc main_arg9) :=
  calc W8 (F := Ideal) m ρ c (Proc.devRef .tc main_arg9)
    _ = W7 m ρ c (Proc.devRef .tc main_arg9) := StableHlo.after_of_forall_not_mem (b := Proc.devRef .tc main_arg9) _ _ (not_written hostOps4)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (not_written hostOps3)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (not_written hostOps1)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (not_written hostOps0)
    _ = m ((c.tc : Thread nD τ).loc main_arg9) := rfl
theorem w8_arg11 : W8 (F := Ideal) m ρ c (Proc.devRef .tc main_arg11) = m ((c.tc : Thread nD τ).loc main_arg11) :=
  calc W8 (F := Ideal) m ρ c (Proc.devRef .tc main_arg11)
    _ = W7 m ρ c (Proc.devRef .tc main_arg11) := StableHlo.after_of_forall_not_mem (b := Proc.devRef .tc main_arg11) _ _ (not_written hostOps4)
    _ = W6 m ρ c (Proc.devRef .tc main_arg11) := W7_of_ne m ρ c main_arg11 (by decide)
    _ = W5 m ρ c (Proc.devRef .tc main_arg11) := StableHlo.after_of_forall_not_mem (b := Proc.devRef .tc main_arg11) _ _ (not_written hostOps3)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (not_written hostOps1)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (not_written hostOps0)
    _ = m ((c.tc : Thread nD τ).loc main_arg11) := rfl
theorem w2_v1 : W2 (F := Ideal) m ρ c (Proc.devRef .tc main_call0_v1) = W1 m ρ c (Proc.devRef .tc main_call0_v1) :=
  W2_of_ne m ρ c main_call0_v1 (by decide)
theorem w5_v1 : W5 (F := Ideal) m ρ c (Proc.devRef .tc main_call0_v1) = W1 m ρ c (Proc.devRef .tc main_call0_v1) :=
  calc W5 (F := Ideal) m ρ c (Proc.devRef .tc main_call0_v1)
    _ = W4 m ρ c (Proc.devRef .tc main_call0_v1) := W5_of_ne m ρ c main_call0_v1 (by decide)
    _ = W3 m ρ c (Proc.devRef .tc main_call0_v1) := W4_of_ne m ρ c main_call0_v1 (by decide)
    _ = W2 m ρ c (Proc.devRef .tc main_call0_v1) := StableHlo.after_of_forall_not_mem (b := Proc.devRef .tc main_call0_v1) _ _ (not_written hostOps1)
    _ = W1 m ρ c (Proc.devRef .tc main_call0_v1) := W2_of_ne m ρ c main_call0_v1 (by decide)
theorem w2_v3 : W2 (F := Ideal) m ρ c (Proc.devRef .tc main_call0_v3) = W1 m ρ c (Proc.devRef .tc main_call0_v3) :=
  W2_of_ne m ρ c main_call0_v3 (by decide)
theorem w5_v3 : W5 (F := Ideal) m ρ c (Proc.devRef .tc main_call0_v3) = W1 m ρ c (Proc.devRef .tc main_call0_v3) :=
  calc W5 (F := Ideal) m ρ c (Proc.devRef .tc main_call0_v3)
    _ = W4 m ρ c (Proc.devRef .tc main_call0_v3) := W5_of_ne m ρ c main_call0_v3 (by decide)
    _ = W3 m ρ c (Proc.devRef .tc main_call0_v3) := W4_of_ne m ρ c main_call0_v3 (by decide)
    _ = W2 m ρ c (Proc.devRef .tc main_call0_v3) := StableHlo.after_of_forall_not_mem (b := Proc.devRef .tc main_call0_v3) _ _ (not_written hostOps1)
    _ = W1 m ρ c (Proc.devRef .tc main_call0_v3) := W2_of_ne m ρ c main_call0_v3 (by decide)
theorem w2_v12 : W2 (F := Ideal) m ρ c (Proc.devRef .tc main_call0_v12) = W1 m ρ c (Proc.devRef .tc main_call0_v12) :=
  W2_of_ne m ρ c main_call0_v12 (by decide)
theorem w5_v12 : W5 (F := Ideal) m ρ c (Proc.devRef .tc main_call0_v12) = W1 m ρ c (Proc.devRef .tc main_call0_v12) :=
  calc W5 (F := Ideal) m ρ c (Proc.devRef .tc main_call0_v12)
    _ = W4 m ρ c (Proc.devRef .tc main_call0_v12) := W5_of_ne m ρ c main_call0_v12 (by decide)
    _ = W3 m ρ c (Proc.devRef .tc main_call0_v12) := W4_of_ne m ρ c main_call0_v12 (by decide)
    _ = W2 m ρ c (Proc.devRef .tc main_call0_v12) := StableHlo.after_of_forall_not_mem (b := Proc.devRef .tc main_call0_v12) _ _ (not_written hostOps1)
    _ = W1 m ρ c (Proc.devRef .tc main_call0_v12) := W2_of_ne m ρ c main_call0_v12 (by decide)
theorem w2_v21 : W2 (F := Ideal) m ρ c (Proc.devRef .tc main_call0_v21) = W1 m ρ c (Proc.devRef .tc main_call0_v21) :=
  W2_of_ne m ρ c main_call0_v21 (by decide)
theorem w5_v21 : W5 (F := Ideal) m ρ c (Proc.devRef .tc main_call0_v21) = W1 m ρ c (Proc.devRef .tc main_call0_v21) :=
  calc W5 (F := Ideal) m ρ c (Proc.devRef .tc main_call0_v21)
    _ = W4 m ρ c (Proc.devRef .tc main_call0_v21) := W5_of_ne m ρ c main_call0_v21 (by decide)
    _ = W3 m ρ c (Proc.devRef .tc main_call0_v21) := W4_of_ne m ρ c main_call0_v21 (by decide)
    _ = W2 m ρ c (Proc.devRef .tc main_call0_v21) := StableHlo.after_of_forall_not_mem (b := Proc.devRef .tc main_call0_v21) _ _ (not_written hostOps1)
    _ = W1 m ρ c (Proc.devRef .tc main_call0_v21) := W2_of_ne m ρ c main_call0_v21 (by decide)

end Cert.KernelIdeal.Walk

end
-- ==== Proof.RegionSpec.lean ====
/-
  What each of the five kernels leaves in its output array, as one function of its whole input arrays, entry by
  entry, on the extended reals and for any extents. Rows are independent in all five: entry (r, e) of the output
  depends on row r of the row-blocked inputs and on the whole weight and bias arrays, which is why a grid of row
  blocks computes the same array as one pass over all rows.

  * `gScaleProj`  — the scale-project-bias-relu block:  max ((x[r, ·] · s[r]) W[·, e] + b[e], 0).
  * `gProj`       — the plain projection:  ∑ k, x[r, k] · W[k, e].
  * `gScaleBias`  — the scale-bias-relu block:  max (s[r] · x[r, e] + b[e], 0).
  * `gHead`       — the two-layer head:  (∑ j, max ((∑ k, g[r, k] · A[k, j]) + a[j], 0) · B[j, e]) + c[e].
-/
import Mathlib.Data.EReal.Basic
import Idealize.ShloMosaic.Lib.ValueIdx

noncomputable section

namespace Cert.Hyper

open Idealize.ShloMosaic Idealize.ShloMosaic.ValueIdx
open scoped BigOperators

variable {M K F J : ℕ}

/-- Coordinate 0 of a rank-2 index, at its literal extent. -/
abbrev c0 {a b : ℕ} (i : (⟨2, ![a, b]⟩ : Shape).Idx) : Fin a := ⟨(i 0).val, (i 0).isLt⟩
/-- Coordinate 1 of a rank-2 index, at its literal extent. -/
abbrev c1 {a b : ℕ} (i : (⟨2, ![a, b]⟩ : Shape).Idx) : Fin b := ⟨(i 1).val, (i 1).isLt⟩

def gScaleProj (x : (⟨2, ![M, K]⟩ : Shape).Idx → EReal) (s : (⟨2, ![M, 1]⟩ : Shape).Idx → EReal)
    (W : (⟨2, ![K, F]⟩ : Shape).Idx → EReal) (b : (⟨2, ![1, F]⟩ : Shape).Idx → EReal) :
    (⟨2, ![M, F]⟩ : Shape).Idx → EReal :=
  fun i => max ((∑ k : Fin K, (x (ix2 (c0 i) k) * s (ix2 (c0 i) (0 : Fin 1))) * W (ix2 k (c1 i))) + b (ix2 (0 : Fin 1) (c1 i))) 0

def gProj (x : (⟨2, ![M, K]⟩ : Shape).Idx → EReal) (W : (⟨2, ![K, F]⟩ : Shape).Idx → EReal) :
    (⟨2, ![M, F]⟩ : Shape).Idx → EReal :=
  fun i => ∑ k : Fin K, x (ix2 (c0 i) k) * W (ix2 k (c1 i))

def gScaleBias (x : (⟨2, ![M, F]⟩ : Shape).Idx → EReal) (s : (⟨2, ![M, 1]⟩ : Shape).Idx → EReal)
    (b : (⟨2, ![1, F]⟩ : Shape).Idx → EReal) : (⟨2, ![M, F]⟩ : Shape).Idx → EReal :=
  fun i => max (s (ix2 (c0 i) (0 : Fin 1)) * x (ix2 (c0 i) (c1 i)) + b (ix2 (0 : Fin 1) (c1 i))) 0

def gHead (g : (⟨2, ![M, K]⟩ : Shape).Idx → EReal) (A : (⟨2, ![K, J]⟩ : Shape).Idx → EReal)
    (a : (⟨2, ![1, J]⟩ : Shape).Idx → EReal) (B : (⟨2, ![J, F]⟩ : Shape).Idx → EReal)
    (c : (⟨2, ![1, F]⟩ : Shape).Idx → EReal) : (⟨2, ![M, F]⟩ : Shape).Idx → EReal :=
  fun i => (∑ j : Fin J, max ((∑ k : Fin K, g (ix2 (c0 i) k) * A (ix2 k j)) + a (ix2 (0 : Fin 1) j)) 0 * B (ix2 j (c1 i)))
    + c (ix2 (0 : Fin 1) (c1 i))

theorem gScaleProj_apply (x : (⟨2, ![M, K]⟩ : Shape).Idx → EReal) (s : (⟨2, ![M, 1]⟩ : Shape).Idx → EReal)
    (W : (⟨2, ![K, F]⟩ : Shape).Idx → EReal) (b : (⟨2, ![1, F]⟩ : Shape).Idx → EReal) (r : Fin M) (e : Fin F) :
    gScaleProj x s W b (ix2 r e)
      = max ((∑ k : Fin K, (x (ix2 r k) * s (ix2 r (0 : Fin 1))) * W (ix2 k e)) + b (ix2 (0 : Fin 1) e)) 0 := rfl

theorem gProj_apply (x : (⟨2, ![M, K]⟩ : Shape).Idx → EReal) (W : (⟨2, ![K, F]⟩ : Shape).Idx → EReal) (r : Fin M) (e : Fin F) :
    gProj x W (ix2 r e) = ∑ k : Fin K, x (ix2 r k) * W (ix2 k e) := rfl

theorem gScaleBias_apply (x : (⟨2, ![M, F]⟩ : Shape).Idx → EReal) (s : (⟨2, ![M, 1]⟩ : Shape).Idx → EReal)
    (b : (⟨2, ![1, F]⟩ : Shape).Idx → EReal) (r : Fin M) (e : Fin F) :
    gScaleBias x s b (ix2 r e) = max (s (ix2 r (0 : Fin 1)) * x (ix2 r e) + b (ix2 (0 : Fin 1) e)) 0 := rfl

theorem gHead_apply (g : (⟨2, ![M, K]⟩ : Shape).Idx → EReal) (A : (⟨2, ![K, J]⟩ : Shape).Idx → EReal)
    (a : (⟨2, ![1, J]⟩ : Shape).Idx → EReal) (B : (⟨2, ![J, F]⟩ : Shape).Idx → EReal)
    (c : (⟨2, ![1, F]⟩ : Shape).Idx → EReal) (r : Fin M) (e : Fin F) :
    gHead g A a B c (ix2 r e)
      = (∑ j : Fin J, max ((∑ k : Fin K, g (ix2 r k) * A (ix2 k j)) + a (ix2 (0 : Fin 1) j)) 0 * B (ix2 j e))
        + c (ix2 (0 : Fin 1) e) := rfl

end Cert.Hyper

end
-- ==== Proof.KOutDefs.lean ====
/-
  The kernel program's result as one term of its arguments: each launch's whole-array function over what the host
  operations before it computed. `K1`, `K2` are the two propagate-then-project layers (the propagated rows, the
  per-node factor as a column, the weights, the bias row, through the scale-project-bias-relu block), `K3` the
  project-then-propagate layer (the projection block, the propagation, the scale-bias-relu block), and `KOut` the
  head over the pooled third layer.
-/
import proofs.«148780_j25718264168627_2_alg».proof.Proof.KDefs
import proofs.«148780_j25718264168627_2_alg».proof.Proof.RegionSpec

noncomputable section

namespace Cert.KernelIdeal.Value

open Cert.KernelIdeal Cert.KernelIdeal.Terms Idealize.ShloMosaic Cert.Hyper

def K1 (a0 : FA S50000x128) (a1 : IA S2x400000) (a3 : FA S128x256) (a4 : FA S256) : FA S50000x256 :=
  gScaleProj (M := 50000) (K := 128) (F := 256) (propKf128 a0 (nI a1) (eI a1) (invD (colI (eI a1))))
    (colF (invD (colI (nI a1)))) a3 (row256 a4)

def K2 (h : FA S50000x256) (a1 : IA S2x400000) (a5 : FA S256x512) (a6 : FA S512) : FA S50000x512 :=
  gScaleProj (M := 50000) (K := 256) (F := 512) (propKf256 h (nI a1) (eI a1) (invD (colI (eI a1))))
    (colF (invD (colI (nI a1)))) a5 (row512 a6)

def K3 (h : FA S50000x512) (a1 : IA S2x400000) (a7 : FA S512x256) (a8 : FA S256) : FA S50000x256 :=
  gScaleBias (M := 50000) (F := 256)
    (propKf256 (gProj (M := 50000) (K := 512) (F := 256) h a7) (nI a1) (eI a1) (invD (colI (eI a1))))
    (colF (invD (colI (nI a1)))) (row256 a8)

def KOut (a0 : FA S50000x128) (a1 : IA S2x400000) (a2 : IA S50000) (a3 : FA S128x256) (a4 : FA S256)
    (a5 : FA S256x512) (a6 : FA S512) (a7 : FA S512x256) (a8 : FA S256) (a9 : FA S256x128) (a10 : FA S128)
    (a11 : FA S128x1) (a12 : FA S1) : FA S1024x1 :=
  gHead (M := 1024) (K := 256) (J := 128) (F := 1)
    (poolK (K3 (K2 (K1 a0 a1 a3 a4) a1 a5 a6) a1 a7 a8) a2) a9 (row128 a10) a11 (row1 a12)

end Cert.KernelIdeal.Value

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Region0.lean ====
/-
  Region 0: the first scale-project-bias-relu block, as one function of its whole input arrays.

  The kernel walks the 50000 rows of x in 25 blocks of 2000 rows. At block t it holds rows 2000 t … 2000 t + 1999 of x
  ([2000, 128]) and of the per-row scale s ([2000, 1]), and the whole weight W ([128, 256]) and bias row b ([1, 256]); it
  writes rows 2000 t … 2000 t + 1999 of the output: entry (p, q) of the block is
      max ((∑ k, (x[2000 t + p, k] · s[2000 t + p]) · W[k, q]) + b[q], 0).
  Entry (r, e) of the output therefore depends only on row r of x and s and on W and b, so the 25 blocks together are the
  one whole-array function `gScaleProj x s W b`: row r is written by block r / 2000 and by no other. A change of float
  format is the identity on the extended reals and the zero accumulator of the product adds nothing, so no finiteness is
  used: the equation is between the same sums and maxima, term by term.
-/
import proofs.«148780_j25718264168627_2_alg».proof.Proof.Gen.KernelIdeal.Frame
import proofs.«148780_j25718264168627_2_alg».proof.Proof.RegionSpec
import proofs.«148780_j25718264168627_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.ValueIdx Cert.Hyper
open Idealize.ShloMosaic.TcCoe
open Idealize.ShloMosaic.Pipeline (Dat)
open scoped BigOperators

/-! ## The region's arrays by name -/

theorem arr0_0 : Pipeline.arrRef spec0 0 = main_call0_v51 := rfl
theorem arr0_1 : Pipeline.arrRef spec0 1 = main_call0_v52 := rfl
theorem arr0_2 : Pipeline.arrRef spec0 2 = main_arg3 := rfl
theorem arr0_3 : Pipeline.arrRef spec0 3 = main_call0_v53 := rfl
theorem arr0_4 : Pipeline.arrRef spec0 4 = main_call0_v54 := rfl

/-! ## The body's arithmetic at one entry of a block -/

/-- An [a, 1] column repeated over b columns reads, at (p, c), the column's entry of row p. -/
private theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of the block the body stores: the rows of x scaled by their entries of s, times W, plus the bias row,
    cut off below at 0. -/
theorem pay0_apply (x : Vec Ideal S2000x128 .f32) (s : Vec Ideal S2000x1 .f32) (w : Vec Ideal S128x256 .f32)
    (b : Vec Ideal S1x256 .f32) (p : Fin 2000) (q : Fin 256) :
    k0_pay1 x s w b (ix2 p q)
      = max ((∑ k : Fin 128, (x (ix2 p k) * s (ix2 p (0 : Fin 1))) * w (ix2 k q)) + b (ix2 (0 : Fin 1) q)) 0 := by
  unfold k0_pay1
  rw [shapeCast_self x, shapeCast_self s, shapeCast_self b]
  show max (matmul (F := Ideal) dot_S2000x128_S128x256_S2000x256_1_0_0_1_n_n none _ _ _ (ix2 p q)
      + broadcastTo S2000x256 b broadcasts_S1x256_S2000x256 (ix2 p q)) (Ideal.ofBits .f32 0x00000000#32) = _
  rw [Ideal.ofBits_zero_f32, broadcastTo_1b_ab_apply b broadcasts_S1x256_S2000x256 p q]
  refine congrArg (fun z => max (z + b (ix2 (0 : Fin 1) q)) 0) ?_
  refine (matmul_plain_zero_apply dot_S2000x128_S128x256_S2000x256_1_0_0_1_n_n rfl none _ _ p q).trans
    (Finset.sum_congr rfl fun k _ => ?_)
  show (x (ix2 p k) * broadcastTo S2000x128 s broadcasts_S2000x1_S2000x128 (ix2 p k)) * w (ix2 k q) = _
  rw [column_broadcast_apply s broadcasts_S2000x1_S2000x128 p k]

/-! ## Which rows of the arrays a block holds -/

variable (V : (c : Dev nD) → (b : Ref sig .tc) → Buf (Elt Ideal) ((c : Thread nD τ).loc b)) (c : Dev nD)

private theorem zero_offsets : (![0, 0] : Fin 2 → Nat) = fun _ => 0 := funext fun a => by fin_cases a <;> rfl

/-- The printed index maps over the 25 points: the row-blocked windows (x, s and the output) sit at block (t, 0), the
    weight and the bias row at block (0, 0). -/
private theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (p, k) of block t of x is entry (2000 t + p, k) of x. -/
private theorem emb0_0 (t : Fin cfg0.N) (p : Fin 2000) (k : Fin 128) (R : Fin 50000) (hR : R.val = t.val * 2000 + p.val) :
    ((cfg0.win 0).blk t).view.emb (ix2 p k) = (ix2 R k : S50000x128.Idx) := by
  obtain ⟨e0, e1, -⟩ := idx0 t
  funext a; apply Fin.ext
  match a with
  | ⟨0, _⟩ => show win0_0.index t (0 : Fin 2) * 2000 + 1 * p.val = R.val; omega
  | ⟨1, _⟩ => show win0_0.index t (1 : Fin 2) * 128 + 1 * k.val = k.val; omega

/-- Entry (p, 0) of block t of s is entry (2000 t + p, 0) of s. -/
private theorem emb0_1 (t : Fin cfg0.N) (p : Fin 2000) (R : Fin 50000) (hR : R.val = t.val * 2000 + p.val) :
    ((cfg0.win 1).blk t).view.emb (ix2 p (0 : Fin 1)) = (ix2 R (0 : Fin 1) : S50000x1.Idx) := by
  obtain ⟨-, -, e0, e1, -⟩ := idx0 t
  funext a; apply Fin.ext
  match a with
  | ⟨0, _⟩ => show win0_1.index t (0 : Fin 2) * 2000 + 1 * p.val = R.val; omega
  | ⟨1, _⟩ => show win0_1.index t (1 : Fin 2) * 1 + 1 * 0 = 0; omega

/-- The weight's one block is the weight. -/
private theorem emb0_2 (t : Fin cfg0.N) (k : Fin 128) (q : Fin 256) :
    ((cfg0.win 2).blk t).view.emb (ix2 k q) = (ix2 k q : S128x256.Idx) := by
  obtain ⟨-, -, -, -, e0, e1, -⟩ := idx0 t
  funext a; apply Fin.ext
  match a with
  | ⟨0, _⟩ => show win0_2.index t (0 : Fin 2) * 128 + 1 * k.val = k.val; omega
  | ⟨1, _⟩ => show win0_2.index t (1 : Fin 2) * 256 + 1 * q.val = q.val; omega

/-- The bias row's one block is the bias row. -/
private theorem emb0_3 (t : Fin cfg0.N) (q : Fin 256) :
    ((cfg0.win 3).blk t).view.emb (ix2 (0 : Fin 1) q) = (ix2 (0 : Fin 1) q : S1x256.Idx) := by
  obtain ⟨-, -, -, -, -, -, e0, e1, -⟩ := idx0 t
  funext a; apply Fin.ext
  match a with
  | ⟨0, _⟩ => show win0_3.index t (0 : Fin 2) * 1 + 1 * 0 = 0; omega
  | ⟨1, _⟩ => show win0_3.index t (1 : Fin 2) * 256 + 1 * q.val = q.val; omega

/-- Entry (p, q) of block t of the output is entry (2000 t + p, q) of the output. -/
private theorem emb0_4 (t : Fin cfg0.N) (p : Fin 2000) (q : Fin 256) (R : Fin 50000) (hR : R.val = t.val * 2000 + p.val) :
    ((cfg0.win 4).blk t).view.emb (ix2 p q) = (ix2 R q : S50000x256.Idx) := by
  obtain ⟨-, -, -, -, -, -, -, -, e0, e1⟩ := idx0 t
  funext a; apply Fin.ext
  match a with
  | ⟨0, _⟩ => show win0_4.index t (0 : Fin 2) * 2000 + 1 * p.val = R.val; omega
  | ⟨1, _⟩ => show win0_4.index t (1 : Fin 2) * 256 + 1 * q.val = q.val; omega

theorem blk0_0_apply (t : Fin cfg0.N) (p : Fin 2000) (k : Fin 128) (R : Fin 50000) (hR : R.val = t.val * 2000 + p.val) :
    (iblk0 V c 0 t : Vec Ideal S2000x128 .f32) (ix2 p k) = (V c (Pipeline.arrRef spec0 0) : S50000x128.Idx → EReal) (ix2 R k) := by
  unfold iblk0
  rw [View.read_apply, emb0_0 t p k R hR]
  rfl

theorem blk0_1_apply (t : Fin cfg0.N) (p : Fin 2000) (R : Fin 50000) (hR : R.val = t.val * 2000 + p.val) :
    (iblk0 V c 1 t : Vec Ideal S2000x1 .f32) (ix2 p (0 : Fin 1)) = (V c (Pipeline.arrRef spec0 1) : S50000x1.Idx → EReal) (ix2 R (0 : Fin 1)) := by
  unfold iblk0
  rw [View.read_apply, emb0_1 t p R hR]
  rfl

theorem blk0_2_apply (t : Fin cfg0.N) (k : Fin 128) (q : Fin 256) :
    (iblk0 V c 2 t : Vec Ideal S128x256 .f32) (ix2 k q) = (V c (Pipeline.arrRef spec0 2) : S128x256.Idx → EReal) (ix2 k q) := by
  unfold iblk0
  rw [View.read_apply, emb0_2 t k q]
  rfl

theorem blk0_3_apply (t : Fin cfg0.N) (q : Fin 256) :
    (iblk0 V c 3 t : Vec Ideal S1x256 .f32) (ix2 (0 : Fin 1) q) = (V c (Pipeline.arrRef spec0 3) : S1x256.Idx → EReal) (ix2 (0 : Fin 1) q) := by
  unfold iblk0
  rw [View.read_apply, emb0_3 t q]
  rfl

/-! ## What a point writes back, and the whole array -/

/-- Block t of the output, entry by entry: the body's arithmetic on the blocks is the whole-array function read at the
    block's rows. -/
theorem block0_eq (t : Fin cfg0.N) :
    (k0_pay1 (iblk0 V c 0 t) (iblk0 V c 1 t) (iblk0 V c 2 t) (iblk0 V c 3 t) : S2000x256.Idx → EReal)
      = fun j => gScaleProj (M := 50000) (K := 128) (F := 256) (V c (Pipeline.arrRef spec0 0)) (V c (Pipeline.arrRef spec0 1))
          (V c (Pipeline.arrRef spec0 2)) (V c (Pipeline.arrRef spec0 3)) (((cfg0.win 4).blk t).view.emb j) := by
  funext j
  obtain ⟨p, q, rfl⟩ : ∃ (p : Fin 2000) (q : Fin 256), j = ix2 p q := ⟨j 0, j 1, eq_ix2 j⟩
  have ht : t.val < 25 := lt_of_lt_of_eq t.isLt N_0
  obtain ⟨R, hR⟩ : ∃ R : Fin 50000, R.val = t.val * 2000 + p.val := ⟨⟨t.val * 2000 + p.val, by have := p.isLt; omega⟩, rfl⟩
  show _ = gScaleProj (M := 50000) (K := 128) (F := 256) (V c (Pipeline.arrRef spec0 0)) (V c (Pipeline.arrRef spec0 1))
        (V c (Pipeline.arrRef spec0 2)) (V c (Pipeline.arrRef spec0 3)) (((cfg0.win 4).blk t).view.emb (ix2 p q))
  rw [emb0_4 t p q R hR, gScaleProj_apply]
  refine (pay0_apply (iblk0 V c 0 t) (iblk0 V c 1 t) (iblk0 V c 2 t) (iblk0 V c 3 t) p q).trans ?_
  rw [blk0_1_apply V c t p R hR, blk0_3_apply V c t q]
  congr 2
  refine Finset.sum_congr rfl fun k _ => ?_
  rw [blk0_0_apply V c t p k R hR, blk0_2_apply V c t k q]

/-- What point t writes back is block t of the whole-array function of the four input arrays. -/
theorem flushed0_eq (t : Fin cfg0.N) :
    (dat0 (F := Ideal) V c).flushed 4 t
      = ((cfg0.win 4).blk t).view.read (Elt Ideal)
          (gScaleProj (M := 50000) (K := 128) (F := 256) (V c (Pipeline.arrRef spec0 0)) (V c (Pipeline.arrRef spec0 1))
            (V c (Pipeline.arrRef spec0 2)) (V c (Pipeline.arrRef spec0 3))) := by
  show (cfg0.win 4).cut (grid0.coords t) ((dat0 V c).after 4 t) = _
  rw [after0_4]
  unfold out0_4
  rw [View.canon_unit_zero zero_offsets]
  simp only [View.ld_unit_zero (S := S2000x128) zero_offsets, View.ld_unit_zero (S := S2000x1) zero_offsets,
    View.ld_unit_zero (S := S128x256) zero_offsets, View.ld_unit_zero (S := S1x256) zero_offsets]
  exact block0_eq V c t

/-- An entry of the output is in point t's block iff each of its coordinates is in the block's range. -/
private theorem mem_blk0 (t : Fin cfg0.N) (i : S50000x256.Idx) :
    i ∈ ((cfg0.win 4).blk t).view.set
      ↔ ∀ a : Fin 2, win0_4.index t a * S2000x256.size a ≤ (i a).val ∧ (i a).val < win0_4.index t a * S2000x256.size a + S2000x256.size a := by
  show i ∈ ((View.whole main_call0_v54).slice (win0_4.rect t)).set ↔ _
  rw [View.set_slice_whole, Rect.mem_set_unit]
  exact Iff.rfl

/-- Row r of the output is written by point r / 2000. -/
private theorem cover0 (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, -, -, -, -, e0, e1⟩ := idx0 t
  refine ⟨t, flush0_4 t, ?_⟩
  rw [mem_blk0]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 256 ≤ (i 1).val ∧ (i 1).val < win0_4.index t (1 : Fin 2) * 256 + 256
    omega

/-- THE OUTPUT ARRAY of region 0 after its 25 points: the scale-project-bias-relu block of the four input arrays as
    the region finds them. -/
theorem final0 :
    (dat0 (F := Ideal) V c).arrAt 4 cfg0.N
      = gScaleProj (M := 50000) (K := 128) (F := 256) (V c (Pipeline.arrRef spec0 0)) (V c (Pipeline.arrRef spec0 1))
          (V c (Pipeline.arrRef spec0 2)) (V c (Pipeline.arrRef spec0 3)) :=
  (dat0 (F := Ideal) V c).arrAt_eq_of_cover 4 _ (fun t _ => flushed0_eq V c t) cover0

end Cert.KernelIdeal.RegionValue

end
-- ==== Proof.Region1.lean ====
/-
  Region 1: the second scale-project-bias-relu block, as one function of its whole input arrays.

  The kernel walks the 50000 rows of x in 25 blocks of 2000 rows. At block t it holds rows 2000 t … 2000 t + 1999 of x
  ([2000, 256]) and of the per-row scale s ([2000, 1]), and the whole weight W ([256, 512]) and bias row b ([1, 512]); it
  writes rows 2000 t … 2000 t + 1999 of the output: entry (p, q) of the block is
      max ((∑ k, (x[2000 t + p, k] · s[2000 t + p]) · W[k, q]) + b[q], 0).
  Entry (r, e) of the output therefore depends only on row r of x and s and on W and b, so the 25 blocks together are the
  one whole-array function `gScaleProj x s W b`: row r is written by block r / 2000 and by no other. A change of float
  format is the identity on the extended reals and the zero accumulator of the product adds nothing, so no finiteness is
  used: the equation is between the same sums and maxima, term by term.
-/
import proofs.«148780_j25718264168627_2_alg».proof.Proof.Gen.KernelIdeal.Frame
import proofs.«148780_j25718264168627_2_alg».proof.Proof.RegionSpec
import proofs.«148780_j25718264168627_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.ValueIdx Cert.Hyper
open Idealize.ShloMosaic.TcCoe
open Idealize.ShloMosaic.Pipeline (Dat)
open scoped BigOperators

/-! ## The region's arrays by name -/

theorem arr1_0 : Pipeline.arrRef spec1 0 = main_call0_v84 := rfl
theorem arr1_1 : Pipeline.arrRef spec1 1 = main_call0_v85 := rfl
theorem arr1_2 : Pipeline.arrRef spec1 2 = main_arg5 := rfl
theorem arr1_3 : Pipeline.arrRef spec1 3 = main_call0_v86 := rfl
theorem arr1_4 : Pipeline.arrRef spec1 4 = main_call0_v87 := rfl

/-! ## The body's arithmetic at one entry of a block -/

/-- An [a, 1] column repeated over b columns reads, at (p, c), the column's entry of row p. -/
private theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of the block the body stores: the rows of x scaled by their entries of s, times W, plus the bias row,
    cut off below at 0. -/
theorem pay1_apply (x : Vec Ideal S2000x256 .f32) (s : Vec Ideal S2000x1 .f32) (w : Vec Ideal S256x512 .f32)
    (b : Vec Ideal S1x512 .f32) (p : Fin 2000) (q : Fin 512) :
    k1_pay1 x s w b (ix2 p q)
      = max ((∑ k : Fin 256, (x (ix2 p k) * s (ix2 p (0 : Fin 1))) * w (ix2 k q)) + b (ix2 (0 : Fin 1) q)) 0 := by
  unfold k1_pay1
  rw [shapeCast_self x, shapeCast_self s, shapeCast_self b]
  show max (matmul (F := Ideal) dot_S2000x256_S256x512_S2000x512_1_0_0_1_n_n none _ _ _ (ix2 p q)
      + broadcastTo S2000x512 b broadcasts_S1x512_S2000x512 (ix2 p q)) (Ideal.ofBits .f32 0x00000000#32) = _
  rw [Ideal.ofBits_zero_f32, broadcastTo_1b_ab_apply b broadcasts_S1x512_S2000x512 p q]
  refine congrArg (fun z => max (z + b (ix2 (0 : Fin 1) q)) 0) ?_
  refine (matmul_plain_zero_apply dot_S2000x256_S256x512_S2000x512_1_0_0_1_n_n rfl none _ _ p q).trans
    (Finset.sum_congr rfl fun k _ => ?_)
  show (x (ix2 p k) * broadcastTo S2000x256 s broadcasts_S2000x1_S2000x256 (ix2 p k)) * w (ix2 k q) = _
  rw [column_broadcast_apply s broadcasts_S2000x1_S2000x256 p k]

/-! ## Which rows of the arrays a block holds -/

variable (V : (c : Dev nD) → (b : Ref sig .tc) → Buf (Elt Ideal) ((c : Thread nD τ).loc b)) (c : Dev nD)

private theorem zero_offsets : (![0, 0] : Fin 2 → Nat) = fun _ => 0 := funext fun a => by fin_cases a <;> rfl

/-- The printed index maps over the 25 points: the row-blocked windows (x, s and the output) sit at block (t, 0), the
    weight and the bias row at block (0, 0). -/
private theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, k) of block t of x is entry (2000 t + p, k) of x. -/
private theorem emb1_0 (t : Fin cfg1.N) (p : Fin 2000) (k : Fin 256) (R : Fin 50000) (hR : R.val = t.val * 2000 + p.val) :
    ((cfg1.win 0).blk t).view.emb (ix2 p k) = (ix2 R k : S50000x256.Idx) := by
  obtain ⟨e0, e1, -⟩ := idx1 t
  funext a; apply Fin.ext
  match a with
  | ⟨0, _⟩ => show win1_0.index t (0 : Fin 2) * 2000 + 1 * p.val = R.val; omega
  | ⟨1, _⟩ => show win1_0.index t (1 : Fin 2) * 256 + 1 * k.val = k.val; omega

/-- Entry (p, 0) of block t of s is entry (2000 t + p, 0) of s. -/
private theorem emb1_1 (t : Fin cfg1.N) (p : Fin 2000) (R : Fin 50000) (hR : R.val = t.val * 2000 + p.val) :
    ((cfg1.win 1).blk t).view.emb (ix2 p (0 : Fin 1)) = (ix2 R (0 : Fin 1) : S50000x1.Idx) := by
  obtain ⟨-, -, e0, e1, -⟩ := idx1 t
  funext a; apply Fin.ext
  match a with
  | ⟨0, _⟩ => show win1_1.index t (0 : Fin 2) * 2000 + 1 * p.val = R.val; omega
  | ⟨1, _⟩ => show win1_1.index t (1 : Fin 2) * 1 + 1 * 0 = 0; omega

/-- The weight's one block is the weight. -/
private theorem emb1_2 (t : Fin cfg1.N) (k : Fin 256) (q : Fin 512) :
    ((cfg1.win 2).blk t).view.emb (ix2 k q) = (ix2 k q : S256x512.Idx) := by
  obtain ⟨-, -, -, -, e0, e1, -⟩ := idx1 t
  funext a; apply Fin.ext
  match a with
  | ⟨0, _⟩ => show win1_2.index t (0 : Fin 2) * 256 + 1 * k.val = k.val; omega
  | ⟨1, _⟩ => show win1_2.index t (1 : Fin 2) * 512 + 1 * q.val = q.val; omega

/-- The bias row's one block is the bias row. -/
private theorem emb1_3 (t : Fin cfg1.N) (q : Fin 512) :
    ((cfg1.win 3).blk t).view.emb (ix2 (0 : Fin 1) q) = (ix2 (0 : Fin 1) q : S1x512.Idx) := by
  obtain ⟨-, -, -, -, -, -, e0, e1, -⟩ := idx1 t
  funext a; apply Fin.ext
  match a with
  | ⟨0, _⟩ => show win1_3.index t (0 : Fin 2) * 1 + 1 * 0 = 0; omega
  | ⟨1, _⟩ => show win1_3.index t (1 : Fin 2) * 512 + 1 * q.val = q.val; omega

/-- Entry (p, q) of block t of the output is entry (2000 t + p, q) of the output. -/
private theorem emb1_4 (t : Fin cfg1.N) (p : Fin 2000) (q : Fin 512) (R : Fin 50000) (hR : R.val = t.val * 2000 + p.val) :
    ((cfg1.win 4).blk t).view.emb (ix2 p q) = (ix2 R q : S50000x512.Idx) := by
  obtain ⟨-, -, -, -, -, -, -, -, e0, e1⟩ := idx1 t
  funext a; apply Fin.ext
  match a with
  | ⟨0, _⟩ => show win1_4.index t (0 : Fin 2) * 2000 + 1 * p.val = R.val; omega
  | ⟨1, _⟩ => show win1_4.index t (1 : Fin 2) * 512 + 1 * q.val = q.val; omega

theorem blk1_0_apply (t : Fin cfg1.N) (p : Fin 2000) (k : Fin 256) (R : Fin 50000) (hR : R.val = t.val * 2000 + p.val) :
    (iblk1 V c 0 t : Vec Ideal S2000x256 .f32) (ix2 p k) = (V c (Pipeline.arrRef spec1 0) : S50000x256.Idx → EReal) (ix2 R k) := by
  unfold iblk1
  rw [View.read_apply, emb1_0 t p k R hR]
  rfl

theorem blk1_1_apply (t : Fin cfg1.N) (p : Fin 2000) (R : Fin 50000) (hR : R.val = t.val * 2000 + p.val) :
    (iblk1 V c 1 t : Vec Ideal S2000x1 .f32) (ix2 p (0 : Fin 1)) = (V c (Pipeline.arrRef spec1 1) : S50000x1.Idx → EReal) (ix2 R (0 : Fin 1)) := by
  unfold iblk1
  rw [View.read_apply, emb1_1 t p R hR]
  rfl

theorem blk1_2_apply (t : Fin cfg1.N) (k : Fin 256) (q : Fin 512) :
    (iblk1 V c 2 t : Vec Ideal S256x512 .f32) (ix2 k q) = (V c (Pipeline.arrRef spec1 2) : S256x512.Idx → EReal) (ix2 k q) := by
  unfold iblk1
  rw [View.read_apply, emb1_2 t k q]
  rfl

theorem blk1_3_apply (t : Fin cfg1.N) (q : Fin 512) :
    (iblk1 V c 3 t : Vec Ideal S1x512 .f32) (ix2 (0 : Fin 1) q) = (V c (Pipeline.arrRef spec1 3) : S1x512.Idx → EReal) (ix2 (0 : Fin 1) q) := by
  unfold iblk1
  rw [View.read_apply, emb1_3 t q]
  rfl

/-! ## What a point writes back, and the whole array -/

/-- Block t of the output, entry by entry: the body's arithmetic on the blocks is the whole-array function read at the
    block's rows. -/
theorem block1_eq (t : Fin cfg1.N) :
    (k1_pay1 (iblk1 V c 0 t) (iblk1 V c 1 t) (iblk1 V c 2 t) (iblk1 V c 3 t) : S2000x512.Idx → EReal)
      = fun j => gScaleProj (M := 50000) (K := 256) (F := 512) (V c (Pipeline.arrRef spec1 0)) (V c (Pipeline.arrRef spec1 1))
          (V c (Pipeline.arrRef spec1 2)) (V c (Pipeline.arrRef spec1 3)) (((cfg1.win 4).blk t).view.emb j) := by
  funext j
  obtain ⟨p, q, rfl⟩ : ∃ (p : Fin 2000) (q : Fin 512), j = ix2 p q := ⟨j 0, j 1, eq_ix2 j⟩
  have ht : t.val < 25 := lt_of_lt_of_eq t.isLt N_1
  obtain ⟨R, hR⟩ : ∃ R : Fin 50000, R.val = t.val * 2000 + p.val := ⟨⟨t.val * 2000 + p.val, by have := p.isLt; omega⟩, rfl⟩
  show _ = gScaleProj (M := 50000) (K := 256) (F := 512) (V c (Pipeline.arrRef spec1 0)) (V c (Pipeline.arrRef spec1 1))
        (V c (Pipeline.arrRef spec1 2)) (V c (Pipeline.arrRef spec1 3)) (((cfg1.win 4).blk t).view.emb (ix2 p q))
  rw [emb1_4 t p q R hR, gScaleProj_apply]
  refine (pay1_apply (iblk1 V c 0 t) (iblk1 V c 1 t) (iblk1 V c 2 t) (iblk1 V c 3 t) p q).trans ?_
  rw [blk1_1_apply V c t p R hR, blk1_3_apply V c t q]
  congr 2
  refine Finset.sum_congr rfl fun k _ => ?_
  rw [blk1_0_apply V c t p k R hR, blk1_2_apply V c t k q]

/-- What point t writes back is block t of the whole-array function of the four input arrays. -/
theorem flushed1_eq (t : Fin cfg1.N) :
    (dat1 (F := Ideal) V c).flushed 4 t
      = ((cfg1.win 4).blk t).view.read (Elt Ideal)
          (gScaleProj (M := 50000) (K := 256) (F := 512) (V c (Pipeline.arrRef spec1 0)) (V c (Pipeline.arrRef spec1 1))
            (V c (Pipeline.arrRef spec1 2)) (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S2000x256) zero_offsets, View.ld_unit_zero (S := S2000x1) zero_offsets,
    View.ld_unit_zero (S := S256x512) zero_offsets, View.ld_unit_zero (S := S1x512) zero_offsets]
  exact block1_eq V c t

/-- An entry of the output is in point t's block iff each of its coordinates is in the block's range. -/
private theorem mem_blk1 (t : Fin cfg1.N) (i : S50000x512.Idx) :
    i ∈ ((cfg1.win 4).blk t).view.set
      ↔ ∀ a : Fin 2, win1_4.index t a * S2000x512.size a ≤ (i a).val ∧ (i a).val < win1_4.index t a * S2000x512.size a + S2000x512.size a := by
  show i ∈ ((View.whole main_call0_v87).slice (win1_4.rect t)).set ↔ _
  rw [View.set_slice_whole, Rect.mem_set_unit]
  exact Iff.rfl

/-- Row r of the output is written by point r / 2000. -/
private theorem cover1 (i : S50000x512.Idx) :
    ∃ t : Fin cfg1.N, (cfg1.win 4).flush t = true ∧ i ∈ ((cfg1.win 4).blk t).view.set := by
  have hi0 : (i 0).val < 50000 := (i 0).isLt
  have hi1 : (i 1).val < 512 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, -, -, -, -, -, -, e0, e1⟩ := idx1 t
  refine ⟨t, flush1_4 t, ?_⟩
  rw [mem_blk1]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 512 ≤ (i 1).val ∧ (i 1).val < win1_4.index t (1 : Fin 2) * 512 + 512
    omega

/-- THE OUTPUT ARRAY of region 1 after its 25 points: the scale-project-bias-relu block of the four input arrays as
    the region finds them. -/
theorem final1 :
    (dat1 (F := Ideal) V c).arrAt 4 cfg1.N
      = gScaleProj (M := 50000) (K := 256) (F := 512) (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => flushed1_eq V c t) cover1

end Cert.KernelIdeal.RegionValue

end
-- ==== Proof.Region2.lean ====
/-
  Region 2: the plain projection, as one function of its whole input arrays.

  The kernel walks the 50000 rows of x in 25 blocks of 2000 rows. At block t it holds rows 2000 t … 2000 t + 1999 of x
  ([2000, 512]) and the whole weight W ([512, 256]); it writes rows 2000 t … 2000 t + 1999 of the output: entry (p, q) of
  the block is ∑ k, x[2000 t + p, k] · W[k, q]. Entry (r, e) of the output therefore depends only on row r of x and on W,
  so the 25 blocks together are the one whole-array function `gProj x W`: row r is written by block r / 2000 and by no
  other. A change of float format is the identity on the extended reals and the zero accumulator of the product adds
  nothing, so no finiteness is used: the equation is between the same sums, term by term.
-/
import proofs.«148780_j25718264168627_2_alg».proof.Proof.Gen.KernelIdeal.Frame
import proofs.«148780_j25718264168627_2_alg».proof.Proof.RegionSpec
import proofs.«148780_j25718264168627_2_alg».proof.Proof.LibPlainMatmul
import Idealize.ShloMosaic.Lib.ValueIdx
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.ValueIdx Cert.Hyper
open Idealize.ShloMosaic.TcCoe
open Idealize.ShloMosaic.Pipeline (Dat)
open scoped BigOperators

/-! ## The region's arrays by name -/

theorem arr2_0 : Pipeline.arrRef spec2 0 = main_call0_v87 := rfl
theorem arr2_1 : Pipeline.arrRef spec2 1 = main_arg7 := rfl
theorem arr2_2 : Pipeline.arrRef spec2 2 = main_call0_v88 := rfl

/-! ## The body's arithmetic at one entry of a block -/

/-- Entry (p, q) of the block the body stores: row p of the block of x times column q of W. -/
theorem pay2_apply (x : Vec Ideal S2000x512 .f32) (w : Vec Ideal S512x256 .f32) (p : Fin 2000) (q : Fin 256) :
    k2_pay1 x w (ix2 p q) = ∑ k : Fin 512, x (ix2 p k) * w (ix2 k q) := by
  unfold k2_pay1
  rw [shapeCast_self x]
  exact matmul_plain_zero_apply dot_S2000x512_S512x256_S2000x256_1_0_0_1_n_n rfl none _ _ p q

/-! ## Which rows of the arrays a block holds -/

variable (V : (c : Dev nD) → (b : Ref sig .tc) → Buf (Elt Ideal) ((c : Thread nD τ).loc b)) (c : Dev nD)

private theorem zero_offsets : (![0, 0] : Fin 2 → Nat) = fun _ => 0 := funext fun a => by fin_cases a <;> rfl

/-- The printed index maps over the 25 points: the row-blocked windows (x and the output) sit at block (t, 0), the
    weight at block (0, 0). -/
private theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of block t of x is entry (2000 t + p, k) of x. -/
private theorem emb2_0 (t : Fin cfg2.N) (p : Fin 2000) (k : Fin 512) (R : Fin 50000) (hR : R.val = t.val * 2000 + p.val) :
    ((cfg2.win 0).blk t).view.emb (ix2 p k) = (ix2 R k : S50000x512.Idx) := by
  obtain ⟨e0, e1, -⟩ := idx2 t
  funext a; apply Fin.ext
  match a with
  | ⟨0, _⟩ => show win2_0.index t (0 : Fin 2) * 2000 + 1 * p.val = R.val; omega
  | ⟨1, _⟩ => show win2_0.index t (1 : Fin 2) * 512 + 1 * k.val = k.val; omega

/-- The weight's one block is the weight. -/
private theorem emb2_1 (t : Fin cfg2.N) (k : Fin 512) (q : Fin 256) :
    ((cfg2.win 1).blk t).view.emb (ix2 k q) = (ix2 k q : S512x256.Idx) := by
  obtain ⟨-, -, e0, e1, -⟩ := idx2 t
  funext a; apply Fin.ext
  match a with
  | ⟨0, _⟩ => show win2_1.index t (0 : Fin 2) * 512 + 1 * k.val = k.val; omega
  | ⟨1, _⟩ => show win2_1.index t (1 : Fin 2) * 256 + 1 * q.val = q.val; omega

/-- Entry (p, q) of block t of the output is entry (2000 t + p, q) of the output. -/
private theorem emb2_2 (t : Fin cfg2.N) (p : Fin 2000) (q : Fin 256) (R : Fin 50000) (hR : R.val = t.val * 2000 + p.val) :
    ((cfg2.win 2).blk t).view.emb (ix2 p q) = (ix2 R q : S50000x256.Idx) := by
  obtain ⟨-, -, -, -, e0, e1⟩ := idx2 t
  funext a; apply Fin.ext
  match a with
  | ⟨0, _⟩ => show win2_2.index t (0 : Fin 2) * 2000 + 1 * p.val = R.val; omega
  | ⟨1, _⟩ => show win2_2.index t (1 : Fin 2) * 256 + 1 * q.val = q.val; omega

theorem blk2_0_apply (t : Fin cfg2.N) (p : Fin 2000) (k : Fin 512) (R : Fin 50000) (hR : R.val = t.val * 2000 + p.val) :
    (iblk2 V c 0 t : Vec Ideal S2000x512 .f32) (ix2 p k) = (V c (Pipeline.arrRef spec2 0) : S50000x512.Idx → EReal) (ix2 R k) := by
  unfold iblk2
  rw [View.read_apply, emb2_0 t p k R hR]
  rfl

theorem blk2_1_apply (t : Fin cfg2.N) (k : Fin 512) (q : Fin 256) :
    (iblk2 V c 1 t : Vec Ideal S512x256 .f32) (ix2 k q) = (V c (Pipeline.arrRef spec2 1) : S512x256.Idx → EReal) (ix2 k q) := by
  unfold iblk2
  rw [View.read_apply, emb2_1 t k q]
  rfl

/-! ## What a point writes back, and the whole array -/

/-- Block t of the output, entry by entry: the body's arithmetic on the blocks is the whole-array function read at the
    block's rows. -/
theorem block2_eq (t : Fin cfg2.N) :
    (k2_pay1 (iblk2 V c 0 t) (iblk2 V c 1 t) : S2000x256.Idx → EReal)
      = fun j => gProj (M := 50000) (K := 512) (F := 256) (V c (Pipeline.arrRef spec2 0)) (V c (Pipeline.arrRef spec2 1))
          (((cfg2.win 2).blk t).view.emb j) := by
  funext j
  obtain ⟨p, q, rfl⟩ : ∃ (p : Fin 2000) (q : Fin 256), j = ix2 p q := ⟨j 0, j 1, eq_ix2 j⟩
  have ht : t.val < 25 := lt_of_lt_of_eq t.isLt N_2
  obtain ⟨R, hR⟩ : ∃ R : Fin 50000, R.val = t.val * 2000 + p.val := ⟨⟨t.val * 2000 + p.val, by have := p.isLt; omega⟩, rfl⟩
  show _ = gProj (M := 50000) (K := 512) (F := 256) (V c (Pipeline.arrRef spec2 0)) (V c (Pipeline.arrRef spec2 1))
        (((cfg2.win 2).blk t).view.emb (ix2 p q))
  rw [emb2_2 t p q R hR, gProj_apply]
  refine (pay2_apply (iblk2 V c 0 t) (iblk2 V c 1 t) p q).trans ?_
  refine Finset.sum_congr rfl fun k _ => ?_
  rw [blk2_0_apply V c t p k R hR, blk2_1_apply V c t k q]

/-- What point t writes back is block t of the whole-array function of the two input arrays. -/
theorem flushed2_eq (t : Fin cfg2.N) :
    (dat2 (F := Ideal) V c).flushed 2 t
      = ((cfg2.win 2).blk t).view.read (Elt Ideal)
          (gProj (M := 50000) (K := 512) (F := 256) (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S2000x512) zero_offsets, View.ld_unit_zero (S := S512x256) zero_offsets]
  exact block2_eq V c t

/-- An entry of the output is in point t's block iff each of its coordinates is in the block's range. -/
private theorem mem_blk2 (t : Fin cfg2.N) (i : S50000x256.Idx) :
    i ∈ ((cfg2.win 2).blk t).view.set
      ↔ ∀ a : Fin 2, win2_2.index t a * S2000x256.size a ≤ (i a).val ∧ (i a).val < win2_2.index t a * S2000x256.size a + S2000x256.size a := by
  show i ∈ ((View.whole main_call0_v88).slice (win2_2.rect t)).set ↔ _
  rw [View.set_slice_whole, Rect.mem_set_unit]
  exact Iff.rfl

/-- Row r of the output is written by point r / 2000. -/
private theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, lt_of_lt_of_eq (by omega : (i 0).val / 2000 < 25) N_2.symm⟩, rfl⟩
  obtain ⟨-, -, -, -, e0, e1⟩ := idx2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 256 ≤ (i 1).val ∧ (i 1).val < win2_2.index t (1 : Fin 2) * 256 + 256
    omega

/-- THE OUTPUT ARRAY of region 2 after its 25 points: the plain projection of the two input arrays as the region finds
    them. -/
theorem final2 :
    (dat2 (F := Ideal) V c).arrAt 2 cfg2.N
      = gProj (M := 50000) (K := 512) (F := 256) (V c (Pipeline.arrRef spec2 0)) (V c (Pipeline.arrRef spec2 1)) :=
  (dat2 (F := Ideal) V c).arrAt_eq_of_cover 2 _ (fun t _ => flushed2_eq V c t) cover2

end Cert.KernelIdeal.RegionValue

end
-- ==== Proof.Region3.lean ====
/-
  The scale-bias-relu kernel's output array as one function of its whole input arrays.

  The kernel runs over 25 row blocks of 2000 rows. At block t it reads rows 2000 t … 2000 t + 1999 of the
  [50000, 256] array x and of the [50000, 1] scale column s, and the whole [1, 256] bias row b, and writes the
  same rows of the output: entry (r, e) of the block is max (s[r] · x[r, e] + b[e], 0). Entry (R, e) of the output
  therefore depends only on row R of x and s and on b, the block that holds row R is block R / 2000, and the 25
  blocks tile the 50000 rows: the array ends holding max (s[R] · x[R, e] + b[e], 0) at every (R, e).
-/
import proofs.«148780_j25718264168627_2_alg».proof.Proof.Gen.KernelIdeal.Frame
import proofs.«148780_j25718264168627_2_alg».proof.Proof.RegionSpec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Cert.Hyper
open Idealize.ShloMosaic.Pipeline (Dat)

/-! ## The arrays the kernel's windows stage -/

theorem arr3_0 : Pipeline.arrRef spec3 0 = main_call0_v118 := rfl
theorem arr3_1 : Pipeline.arrRef spec3 1 = main_call0_v119 := rfl
theorem arr3_2 : Pipeline.arrRef spec3 2 = main_call0_v120 := rfl
theorem arr3_3 : Pipeline.arrRef spec3 3 = main_call0_v121 := rfl

/-! ## The body's arithmetic at one entry of a block -/

/-- An [a, 1] column spread over b columns reads, at (p, q), the column's entry of row p. -/
theorem column_spread_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem zeros2 : (![0, 0] : Fin 2 → Nat) = fun _ => 0 := funext fun a => by fin_cases a <;> rfl

/-- Entry (r, e) of what the body computes from a scale block s, a block x and the bias row b:
    max (s[r] · x[r, e] + b[e], 0). -/
theorem scale_bias_relu_entry (s : Vec Ideal S2000x1 .f32) (x : Vec Ideal S2000x256 .f32) (b : Vec Ideal S1x256 .f32)
    (r : Fin 2000) (e : Fin 256) :
    k3_pay1 (F := Ideal) s x b (ix2 r e) = max (s (ix2 r (0 : Fin 1)) * x (ix2 r e) + b (ix2 (0 : Fin 1) e)) 0 := by
  unfold k3_pay1
  show max (broadcastTo S2000x256 (shapeCast S2000x1 s _) _ (ix2 r e) * shapeCast S2000x256 x _ (ix2 r e)
      + broadcastTo S2000x256 (shapeCast S1x256 b _) _ (ix2 r e)) (Ideal.ofBits .f32 0x00000000#32) = _
  rw [column_spread_apply, broadcastTo_1b_ab_apply, shapeCast_self, shapeCast_self, shapeCast_self, Ideal.ofBits_zero_f32]

/-- The same, of the output window's staging buffer after the body (the blocks in window order: x, s, b). -/
theorem block_entry (x : Vec Ideal S2000x256 .f32) (s : Vec Ideal S2000x1 .f32) (b : Vec Ideal S1x256 .f32)
    (r : Fin 2000) (e : Fin 256) :
    out3_3 (F := Ideal) x s b (ix2 r e) = max (s (ix2 r (0 : Fin 1)) * x (ix2 r e) + b (ix2 (0 : Fin 1) e)) 0 := by
  unfold out3_3
  rw [View.canon_unit_zero zeros2]
  simp only [View.ld_unit_zero (S := S2000x256) zeros2, View.ld_unit_zero (S := S2000x1) zeros2, View.ld_unit_zero (S := S1x256) zeros2]
  exact scale_bias_relu_entry s x b r e

/-! ## From the blocks to the array -/

/-- The printed index maps over the grid: the three row-blocked windows are at block (t, 0) at point t, the bias row's
    window at block (0, 0). -/
theorem block_index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row r of block t is row 2000 t + r of the array. -/
def rowOf (t : Fin cfg3.N) (r : Fin 2000) : Fin 50000 :=
  ⟨t.val * 2000 + r.val, by have h := t.isLt; have hN : cfg3.N = 25 := N_3; have := r.isLt; omega⟩

section
variable (V : (c : Dev nD) → (b : Ref sig .tc) → Buf (Elt Ideal) ((c : Thread nD τ).loc b))

/-- Entry (r, e) of x's block at point t is entry (2000 t + r, e) of x. -/
theorem x_block_entry (c : Dev nD) (t : Fin cfg3.N) (r : Fin 2000) (e : Fin 256) :
    (iblk3 V c 0 t : Vec Ideal S2000x256 .f32) (ix2 r e)
      = (V c (Pipeline.arrRef spec3 0) : S50000x256.Idx → EReal) (ix2 (rowOf t r) e) := by
  obtain ⟨e0, e1, -⟩ := block_index3 t
  unfold iblk3
  rw [View.read_apply]
  refine congrArg (V c (Pipeline.arrRef spec3 0) : S50000x256.Idx → EReal) (funext fun a => Fin.ext ?_)
  match a with
  | ⟨0, _⟩ => show win3_0.index t (0 : Fin 2) * 2000 + 1 * r.val = t.val * 2000 + r.val; omega
  | ⟨1, _⟩ => show win3_0.index t (1 : Fin 2) * 256 + 1 * e.val = e.val; omega

/-- Entry (r, 0) of the scale column's block at point t is entry (2000 t + r, 0) of the column. -/
theorem s_block_entry (c : Dev nD) (t : Fin cfg3.N) (r : Fin 2000) :
    (iblk3 V c 1 t : Vec Ideal S2000x1 .f32) (ix2 r (0 : Fin 1))
      = (V c (Pipeline.arrRef spec3 1) : S50000x1.Idx → EReal) (ix2 (rowOf t r) (0 : Fin 1)) := by
  obtain ⟨-, -, e0, e1, -⟩ := block_index3 t
  unfold iblk3
  rw [View.read_apply]
  refine congrArg (V c (Pipeline.arrRef spec3 1) : S50000x1.Idx → EReal) (funext fun a => Fin.ext ?_)
  match a with
  | ⟨0, _⟩ => show win3_1.index t (0 : Fin 2) * 2000 + 1 * r.val = t.val * 2000 + r.val; omega
  | ⟨1, _⟩ => show win3_1.index t (1 : Fin 2) * 1 + 1 * 0 = 0; omega

/-- The bias row's block at every point is the bias row. -/
theorem b_block_entry (c : Dev nD) (t : Fin cfg3.N) (e : Fin 256) :
    (iblk3 V c 2 t : Vec Ideal S1x256 .f32) (ix2 (0 : Fin 1) e)
      = (V c (Pipeline.arrRef spec3 2) : S1x256.Idx → EReal) (ix2 (0 : Fin 1) e) := by
  obtain ⟨-, -, -, -, e0, e1, -⟩ := block_index3 t
  unfold iblk3
  rw [View.read_apply]
  refine congrArg (V c (Pipeline.arrRef spec3 2) : S1x256.Idx → EReal) (funext fun a => Fin.ext ?_)
  match a with
  | ⟨0, _⟩ => show win3_2.index t (0 : Fin 2) * 1 + 1 * 0 = 0; omega
  | ⟨1, _⟩ => show win3_2.index t (1 : Fin 2) * 256 + 1 * e.val = e.val; omega

/-- Entry (r, e) of the output's block at point t sits at (2000 t + r, e) of the output. -/
theorem out_block_pos (t : Fin cfg3.N) (r : Fin 2000) (e : Fin 256) :
    ((cfg3.win 3).blk t).view.emb (ix2 r e) = (ix2 (rowOf t r) e : S50000x256.Idx) := by
  obtain ⟨-, -, -, -, -, -, e0, e1⟩ := block_index3 t
  refine funext fun a => Fin.ext ?_
  match a with
  | ⟨0, _⟩ => show win3_3.index t (0 : Fin 2) * 2000 + 1 * r.val = t.val * 2000 + r.val; omega
  | ⟨1, _⟩ => show win3_3.index t (1 : Fin 2) * 256 + 1 * e.val = e.val; omega

/-- What point t writes back is block t of the whole-array function. -/
theorem flushed3_eq (c : Dev nD) (t : Fin cfg3.N) :
    (dat3 (F := Ideal) V c).flushed 3 t = ((cfg3.win 3).blk t).view.read (Elt Ideal)
      (gScaleBias (M := 50000) (F := 256) (V c (Pipeline.arrRef spec3 0)) (V c (Pipeline.arrRef spec3 1)) (V c (Pipeline.arrRef spec3 2))) := by
  show (cfg3.win 3).cut (grid3.coords t) ((dat3 V c).after 3 t) = _
  rw [after3_3]
  funext j
  obtain ⟨r, e, rfl⟩ : ∃ (r : Fin 2000) (e : Fin 256), j = ix2 r e := ⟨j 0, j 1, eq_ix2 j⟩
  rw [View.read_apply, out_block_pos t r e, gScaleBias_apply]
  refine (block_entry (iblk3 V c 0 t) (iblk3 V c 1 t) (iblk3 V c 2 t) r e).trans ?_
  rw [x_block_entry V c t r e, s_block_entry V c t r, b_block_entry V c t e]
  rfl

/-- An index of the output is in point t's block iff each coordinate is in the block's range on its axis. -/
theorem mem_block3 (t : Fin cfg3.N) (i : S50000x256.Idx) :
    i ∈ ((cfg3.win 3).blk t).view.set ↔ ∀ a : Fin 2, win3_3.index t a * S2000x256.size a ≤ (i a).val
      ∧ (i a).val < win3_3.index t a * S2000x256.size a + S2000x256.size a := by
  show i ∈ ((View.whole main_call0_v121).slice (win3_3.rect t)).set ↔ _
  rw [View.set_slice_whole, Rect.mem_set_unit]
  exact Iff.rfl

/-- Every index of the output is in the block of the point its row falls in: row R is in block R / 2000. -/
theorem cover3 (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  have hN : cfg3.N = 25 := N_3
  let t : Fin cfg3.N := ⟨(i 0).val / 2000, by omega⟩
  have ht : t.val = (i 0).val / 2000 := rfl
  obtain ⟨-, -, -, -, -, -, e0, e1⟩ := block_index3 t
  refine ⟨t, flush3_3 t, ?_⟩
  rw [mem_block3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- THE OUTPUT ARRAY after the run: max (s[R] · x[R, e] + b[e], 0) at every entry, of the arrays as the kernel finds them. -/
theorem final3 (c : Dev nD) :
    (dat3 (F := Ideal) V c).arrAt 3 cfg3.N
      = gScaleBias (M := 50000) (F := 256) (V c (Pipeline.arrRef spec3 0)) (V c (Pipeline.arrRef spec3 1)) (V c (Pipeline.arrRef spec3 2)) :=
  (dat3 (F := Ideal) V c).arrAt_eq_of_cover 3 _ (fun t _ => flushed3_eq V c t) cover3

end

end Cert.KernelIdeal.RegionValue

end
-- ==== Proof.Region4.lean ====
/-
  The two-layer head kernel's output array as one function of its whole input arrays.

  The kernel has one grid point and every window's block is its whole array: the [1024, 256] array g, the [256, 128]
  weights A, the [1, 128] bias row a, the [128, 1] weights B and the [1, 1] bias c. Its body computes the hidden layer
  h[r, j] = max ((∑ k, g[r, k] · A[k, j]) + a[j], 0) (a plain matrix product into the zero matrix, the bias row spread
  over the rows, the maximum with 0) and from it the output (∑ j, h[r, j] · B[j, e]) + c[e]; the changes of float format
  in between are the identity on the extended reals. The one write-back covers the whole [1024, 1] output.
-/
import proofs.«148780_j25718264168627_2_alg».proof.Proof.Gen.KernelIdeal.Frame
import proofs.«148780_j25718264168627_2_alg».proof.Proof.RegionSpec
import proofs.«148780_j25718264168627_2_alg».proof.Proof.LibPlainMatmul
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Cert.Hyper
open Idealize.ShloMosaic.Pipeline (Dat)
open scoped BigOperators

/-! ## The arrays the kernel's windows stage -/

theorem arr4_0 : Pipeline.arrRef spec4 0 = main_call0_v133 := rfl
theorem arr4_1 : Pipeline.arrRef spec4 1 = main_arg9 := rfl
theorem arr4_2 : Pipeline.arrRef spec4 2 = main_call0_v134 := rfl
theorem arr4_3 : Pipeline.arrRef spec4 3 = main_arg11 := rfl
theorem arr4_4 : Pipeline.arrRef spec4 4 = main_call0_v135 := rfl
theorem arr4_5 : Pipeline.arrRef spec4 5 = main_v0 := rfl

/-! ## The body's arithmetic at one entry -/

theorem origin2 : (![0, 0] : Fin 2 → Nat) = fun _ => 0 := funext fun a => by fin_cases a <;> rfl

/-- Entry (r, e) of what the body computes: (∑ j, max ((∑ k, g[r, k] · A[k, j]) + a[j], 0) · B[j, e]) + c[e]. -/
theorem head_entry (g : Vec Ideal S1024x256 .f32) (A : Vec Ideal S256x128 .f32) (a : Vec Ideal S1x128 .f32)
    (B : Vec Ideal S128x1 .f32) (c : Vec Ideal S1x1 .f32) (r : Fin 1024) (e : Fin 1) :
    k4_pay1 (F := Ideal) g A a B c (ix2 r e)
      = (∑ j : Fin 128, max ((∑ k : Fin 256, g (ix2 r k) * A (ix2 k j)) + a (ix2 (0 : Fin 1) j)) 0 * B (ix2 j e))
        + c (ix2 (0 : Fin 1) e) := by
  unfold k4_pay1
  show matmul (F := Ideal) dot_S1024x128_S128x1_S1024x1_1_0_0_1_n_n none _ _ (constant (F := Ideal) S1024x1 .f32 0x00000000#32) (ix2 r e)
      + broadcastTo S1024x1 (shapeCast S1x1 c _) _ (ix2 r e) = _
  rw [broadcastTo_1b_ab_apply, shapeCast_self c]
  refine congrArg (· + c (ix2 (0 : Fin 1) e)) ?_
  refine (matmul_plain_zero_apply dot_S1024x128_S128x1_S1024x1_1_0_0_1_n_n rfl none _ _ r e).trans ?_
  refine Finset.sum_congr rfl fun j _ => ?_
  show max (matmul (F := Ideal) dot_S1024x256_S256x128_S1024x128_1_0_0_1_n_n none _ _ (constant (F := Ideal) S1024x128 .f32 0x00000000#32) (ix2 r j)
      + broadcastTo S1024x128 (shapeCast S1x128 a _) _ (ix2 r j)) (Ideal.ofBits .f32 0x00000000#32) * B (ix2 j e) = _
  rw [broadcastTo_1b_ab_apply, shapeCast_self a, Ideal.ofBits_zero_f32]
  refine congrArg (fun z => max (z + a (ix2 (0 : Fin 1) j)) 0 * B (ix2 j e)) ?_
  refine (matmul_plain_zero_apply dot_S1024x256_S256x128_S1024x128_1_0_0_1_n_n rfl none _ _ r j).trans ?_
  refine Finset.sum_congr rfl fun k _ => ?_
  show shapeCast S1024x256 g _ (ix2 r k) * A (ix2 k j) = _
  rw [shapeCast_self g]

/-- The same, of the output window's staging buffer after the body. -/
theorem block_entry4 (g : Vec Ideal S1024x256 .f32) (A : Vec Ideal S256x128 .f32) (a : Vec Ideal S1x128 .f32)
    (B : Vec Ideal S128x1 .f32) (c : Vec Ideal S1x1 .f32) (r : Fin 1024) (e : Fin 1) :
    out4_5 (F := Ideal) g A a B c (ix2 r e)
      = (∑ j : Fin 128, max ((∑ k : Fin 256, g (ix2 r k) * A (ix2 k j)) + a (ix2 (0 : Fin 1) j)) 0 * B (ix2 j e))
        + c (ix2 (0 : Fin 1) e) := by
  unfold out4_5
  rw [View.canon_unit_zero origin2]
  simp only [View.ld_unit_zero (S := S1024x256) origin2, View.ld_unit_zero (S := S256x128) origin2, View.ld_unit_zero (S := S1x128) origin2,
    View.ld_unit_zero (S := S128x1) origin2, View.ld_unit_zero (S := S1x1) origin2]
  exact head_entry g A a B c r e

/-! ## From the one block to the array -/

/-- The printed index maps at the grid's one point: every window is at block (0, 0). -/
theorem block_index4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

section
variable (V : (c : Dev nD) → (b : Ref sig .tc) → Buf (Elt Ideal) ((c : Thread nD τ).loc b))

/-- Each input window's block is its whole array: an entry of the block at (0, 0) of a block as large as the array
    sits at its own coordinates. -/
theorem whole_block4_0 (c : Dev nD) (t : Fin cfg4.N) :
    (iblk4 V c 0 t : Vec Ideal S1024x256 .f32) = (V c (Pipeline.arrRef spec4 0) : S1024x256.Idx → EReal) := by
  obtain ⟨e0, e1, -⟩ := block_index4 t
  funext y
  unfold iblk4
  rw [View.read_apply]
  refine congrArg (V c (Pipeline.arrRef spec4 0) : S1024x256.Idx → EReal) (funext fun a => Fin.ext ?_)
  match a with
  | ⟨0, _⟩ => show win4_0.index t (0 : Fin 2) * 1024 + 1 * (y 0).val = (y 0).val; omega
  | ⟨1, _⟩ => show win4_0.index t (1 : Fin 2) * 256 + 1 * (y 1).val = (y 1).val; omega

theorem whole_block4_1 (c : Dev nD) (t : Fin cfg4.N) :
    (iblk4 V c 1 t : Vec Ideal S256x128 .f32) = (V c (Pipeline.arrRef spec4 1) : S256x128.Idx → EReal) := by
  obtain ⟨-, -, e0, e1, -⟩ := block_index4 t
  funext y
  unfold iblk4
  rw [View.read_apply]
  refine congrArg (V c (Pipeline.arrRef spec4 1) : S256x128.Idx → EReal) (funext fun a => Fin.ext ?_)
  match a with
  | ⟨0, _⟩ => show win4_1.index t (0 : Fin 2) * 256 + 1 * (y 0).val = (y 0).val; omega
  | ⟨1, _⟩ => show win4_1.index t (1 : Fin 2) * 128 + 1 * (y 1).val = (y 1).val; omega

theorem whole_block4_2 (c : Dev nD) (t : Fin cfg4.N) :
    (iblk4 V c 2 t : Vec Ideal S1x128 .f32) = (V c (Pipeline.arrRef spec4 2) : S1x128.Idx → EReal) := by
  obtain ⟨-, -, -, -, e0, e1, -⟩ := block_index4 t
  funext y
  unfold iblk4
  rw [View.read_apply]
  refine congrArg (V c (Pipeline.arrRef spec4 2) : S1x128.Idx → EReal) (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

theorem whole_block4_3 (c : Dev nD) (t : Fin cfg4.N) :
    (iblk4 V c 3 t : Vec Ideal S128x1 .f32) = (V c (Pipeline.arrRef spec4 3) : S128x1.Idx → EReal) := by
  obtain ⟨-, -, -, -, -, -, e0, e1, -⟩ := block_index4 t
  funext y
  unfold iblk4
  rw [View.read_apply]
  refine congrArg (V c (Pipeline.arrRef spec4 3) : S128x1.Idx → EReal) (funext fun a => Fin.ext ?_)
  match a with
  | ⟨0, _⟩ => show win4_3.index t (0 : Fin 2) * 128 + 1 * (y 0).val = (y 0).val; omega
  | ⟨1, _⟩ => show win4_3.index t (1 : Fin 2) * 1 + 1 * (y 1).val = (y 1).val; omega

theorem whole_block4_4 (c : Dev nD) (t : Fin cfg4.N) :
    (iblk4 V c 4 t : Vec Ideal S1x1 .f32) = (V c (Pipeline.arrRef spec4 4) : S1x1.Idx → EReal) := by
  obtain ⟨-, -, -, -, -, -, -, -, e0, e1, -⟩ := block_index4 t
  funext y
  unfold iblk4
  rw [View.read_apply]
  refine congrArg (V c (Pipeline.arrRef spec4 4) : S1x1.Idx → EReal) (funext fun a => Fin.ext ?_)
  match a with
  | ⟨0, _⟩ => show win4_4.index t (0 : Fin 2) * 1 + 1 * (y 0).val = (y 0).val; omega
  | ⟨1, _⟩ => show win4_4.index t (1 : Fin 2) * 1 + 1 * (y 1).val = (y 1).val; omega

/-- Entry (r, e) of the output's one block sits at (r, e) of the output. -/
theorem out_block_pos4 (t : Fin cfg4.N) (r : Fin 1024) (e : Fin 1) :
    ((cfg4.win 5).blk t).view.emb (ix2 r e) = (ix2 r e : S1024x1.Idx) := by
  obtain ⟨-, -, -, -, -, -, -, -, -, -, e0, e1⟩ := block_index4 t
  refine funext fun a => Fin.ext ?_
  match a with
  | ⟨0, _⟩ => show win4_5.index t (0 : Fin 2) * 1024 + 1 * r.val = r.val; omega
  | ⟨1, _⟩ => show win4_5.index t (1 : Fin 2) * 1 + 1 * e.val = e.val; omega

/-- What the one point writes back is the one block of the whole-array function. -/
theorem flushed4_eq (c : Dev nD) (t : Fin cfg4.N) :
    (dat4 (F := Ideal) V c).flushed 5 t = ((cfg4.win 5).blk t).view.read (Elt Ideal)
      (gHead (M := 1024) (K := 256) (J := 128) (F := 1) (V c (Pipeline.arrRef spec4 0)) (V c (Pipeline.arrRef spec4 1))
        (V c (Pipeline.arrRef spec4 2)) (V c (Pipeline.arrRef spec4 3)) (V c (Pipeline.arrRef spec4 4))) := by
  show (cfg4.win 5).cut (grid4.coords t) ((dat4 V c).after 5 t) = _
  rw [after4_5]
  funext j
  obtain ⟨r, e, rfl⟩ : ∃ (r : Fin 1024) (e : Fin 1), j = ix2 r e := ⟨j 0, j 1, eq_ix2 j⟩
  rw [View.read_apply, out_block_pos4 t r e, gHead_apply]
  refine (block_entry4 (iblk4 V c 0 t) (iblk4 V c 1 t) (iblk4 V c 2 t) (iblk4 V c 3 t) (iblk4 V c 4 t) r e).trans ?_
  rw [whole_block4_0 V c t, whole_block4_1 V c t, whole_block4_2 V c t, whole_block4_3 V c t, whole_block4_4 V c t]
  rfl

/-- An index of the output is in the point's block iff each coordinate is in the block's range on its axis. -/
theorem mem_block4 (t : Fin cfg4.N) (i : S1024x1.Idx) :
    i ∈ ((cfg4.win 5).blk t).view.set ↔ ∀ a : Fin 2, win4_5.index t a * S1024x1.size a ≤ (i a).val
      ∧ (i a).val < win4_5.index t a * S1024x1.size a + S1024x1.size a := by
  show i ∈ ((View.whole main_v0).slice (win4_5.rect t)).set ↔ _
  rw [View.set_slice_whole, Rect.mem_set_unit]
  exact Iff.rfl

/-- Every index of the output is in the one point's block. -/
theorem cover4 (i : S1024x1.Idx) :
    ∃ t : Fin cfg4.N, (cfg4.win 5).flush t = true ∧ i ∈ ((cfg4.win 5).blk t).view.set := by
  have hi0 : (i 0).val < 1024 := (i 0).isLt
  have hi1 : (i 1).val < 1 := (i 1).isLt
  obtain ⟨-, -, -, -, -, -, -, -, -, -, e0, e1⟩ := block_index4 t4_0
  refine ⟨t4_0, flush4_5 t4_0, ?_⟩
  rw [mem_block4]
  intro a
  match a with
  | ⟨0, _⟩ => show win4_5.index t4_0 (0 : Fin 2) * 1024 ≤ (i 0).val ∧ (i 0).val < win4_5.index t4_0 (0 : Fin 2) * 1024 + 1024; omega
  | ⟨1, _⟩ => show win4_5.index t4_0 (1 : Fin 2) * 1 ≤ (i 1).val ∧ (i 1).val < win4_5.index t4_0 (1 : Fin 2) * 1 + 1; omega

/-- THE OUTPUT ARRAY after the run: (∑ j, max ((∑ k, g[r, k] · A[k, j]) + a[j], 0) · B[j, e]) + c[e] at every entry, of
    the arrays as the kernel finds them. -/
theorem final4 (c : Dev nD) :
    (dat4 (F := Ideal) V c).arrAt 5 cfg4.N
      = gHead (M := 1024) (K := 256) (J := 128) (F := 1) (V c (Pipeline.arrRef spec4 0)) (V c (Pipeline.arrRef spec4 1))
          (V c (Pipeline.arrRef spec4 2)) (V c (Pipeline.arrRef spec4 3)) (V c (Pipeline.arrRef spec4 4)) :=
  (dat4 (F := Ideal) V c).arrAt_eq_of_cover 5 _ (fun t _ => flushed4_eq V c t) cover4

end

end Cert.KernelIdeal.RegionValue

end
-- ==== Proof.KValue.lean ====
/-
  The kernel program's result as one term of its arguments.

  The program is five launches among four stretches of host operations. Walking from the last boundary back to the
  launch memory: the result array is the last launch's whole-array function (the head) of what the fourth stretch
  left (the pooled third layer, two bias rows) and two weight arguments; the third layer is the fourth launch's
  function (scale, bias, relu) of what the third stretch left (the propagated projection, the per-node factor, a bias
  row); the projection is the third launch's function of the second layer and a weight argument; the second and first
  layers are the second and first launches' function (scale, project, bias, relu) of a propagation, the per-node
  factor, weights and a bias row. The index rows and the inverse degrees are computed once, by the first stretch, and
  ride through every later boundary untouched, as the argument arrays do.
-/
import proofs.«148780_j25718264168627_2_alg».proof.Proof.KStretch
import proofs.«148780_j25718264168627_2_alg».proof.Proof.KStretch0
import proofs.«148780_j25718264168627_2_alg».proof.Proof.KWalk
import proofs.«148780_j25718264168627_2_alg».proof.Proof.KOutDefs
import proofs.«148780_j25718264168627_2_alg».proof.Proof.Region0
import proofs.«148780_j25718264168627_2_alg».proof.Proof.Region1
import proofs.«148780_j25718264168627_2_alg».proof.Proof.Region2
import proofs.«148780_j25718264168627_2_alg».proof.Proof.Region3
import proofs.«148780_j25718264168627_2_alg».proof.Proof.Region4

set_option maxRecDepth 16384

noncomputable section

namespace Cert.KernelIdeal.Value

open Cert.KernelIdeal Cert.KernelIdeal.Gen Cert.KernelIdeal.Terms Cert.KernelIdeal.Walk Cert.Hyper
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What the first stretch leaves, over the launch memory -/

theorem r1_v1 : W1 (F := Ideal) m ρ c (Proc.devRef .tc main_call0_v1) = nI (m ((c.tc : Thread nD τ).loc main_arg1)) := s0_nI (W0 m ρ c)
theorem r1_v3 : W1 (F := Ideal) m ρ c (Proc.devRef .tc main_call0_v3) = eI (m ((c.tc : Thread nD τ).loc main_arg1)) := s0_eI (W0 m ρ c)
theorem r1_v12 : W1 (F := Ideal) m ρ c (Proc.devRef .tc main_call0_v12) = invD (colI (nI (m ((c.tc : Thread nD τ).loc main_arg1)))) := s0_d (W0 m ρ c)
theorem r1_v21 : W1 (F := Ideal) m ρ c (Proc.devRef .tc main_call0_v21) = invD (colI (eI (m ((c.tc : Thread nD τ).loc main_arg1)))) := s0_bd (W0 m ρ c)
theorem r1_v51 : W1 (F := Ideal) m ρ c (Proc.devRef .tc main_call0_v51)
    = propKf128 (m ((c.tc : Thread nD τ).loc main_arg0)) (nI (m ((c.tc : Thread nD τ).loc main_arg1))) (eI (m ((c.tc : Thread nD τ).loc main_arg1))) (invD (colI (eI (m ((c.tc : Thread nD τ).loc main_arg1))))) := s0_ns (W0 m ρ c)
theorem r1_v52 : W1 (F := Ideal) m ρ c (Proc.devRef .tc main_call0_v52) = colF (invD (colI (nI (m ((c.tc : Thread nD τ).loc main_arg1))))) := s0_dcol (W0 m ρ c)
theorem r1_v53 : W1 (F := Ideal) m ρ c (Proc.devRef .tc main_call0_v53) = row256 (m ((c.tc : Thread nD τ).loc main_arg4)) := s0_brow (W0 m ρ c)

/-! ## The first launch: the first layer -/

theorem v54_eq : W2 (F := Ideal) m ρ c (Proc.devRef .tc main_call0_v54)
    = K1 (m ((c.tc : Thread nD τ).loc main_arg0)) (m ((c.tc : Thread nD τ).loc main_arg1)) (m ((c.tc : Thread nD τ).loc main_arg3)) (m ((c.tc : Thread nD τ).loc main_arg4)) := by
  have e : W2 (F := Ideal) m ρ c (Proc.devRef .tc main_call0_v54)
      = gScaleProj (M := 50000) (K := 128) (F := 256) (W1 m ρ c (Proc.devRef .tc main_call0_v51)) (W1 m ρ c (Proc.devRef .tc main_call0_v52))
          (W1 m ρ c (Proc.devRef .tc main_arg3)) (W1 m ρ c (Proc.devRef .tc main_call0_v53)) :=
    (W2_arr m ρ c 4).trans (RegionValue.final0 (V1 m ρ) c)
  rw [e, r1_v51, r1_v52, w1_arg3, r1_v53]
  rfl

/-! ## The second stretch and launch: the second layer -/

theorem v84_eq : W3 (F := Ideal) m ρ c (Proc.devRef .tc main_call0_v84)
    = propKf256 (K1 (m ((c.tc : Thread nD τ).loc main_arg0)) (m ((c.tc : Thread nD τ).loc main_arg1)) (m ((c.tc : Thread nD τ).loc main_arg3)) (m ((c.tc : Thread nD τ).loc main_arg4))) (nI (m ((c.tc : Thread nD τ).loc main_arg1))) (eI (m ((c.tc : Thread nD τ).loc main_arg1))) (invD (colI (eI (m ((c.tc : Thread nD τ).loc main_arg1))))) := by
  refine (s1_ns (W2 m ρ c)).trans ?_
  rw [v54_eq, w2_v1, w2_v3, w2_v21, r1_v1, r1_v3, r1_v21]

theorem v85_eq : W3 (F := Ideal) m ρ c (Proc.devRef .tc main_call0_v85) = colF (invD (colI (nI (m ((c.tc : Thread nD τ).loc main_arg1))))) := by
  refine (s1_dcol (W2 m ρ c)).trans ?_
  rw [w2_v12, r1_v12]

theorem v86_eq : W3 (F := Ideal) m ρ c (Proc.devRef .tc main_call0_v86) = row512 (m ((c.tc : Thread nD τ).loc main_arg6)) := by
  refine (s1_brow (W2 m ρ c)).trans ?_
  rw [w2_arg6]

theorem v87_eq : W4 (F := Ideal) m ρ c (Proc.devRef .tc main_call0_v87)
    = K2 (K1 (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) := by
  have e : W4 (F := Ideal) m ρ c (Proc.devRef .tc main_call0_v87)
      = gScaleProj (M := 50000) (K := 256) (F := 512) (W3 m ρ c (Proc.devRef .tc main_call0_v84)) (W3 m ρ c (Proc.devRef .tc main_call0_v85))
          (W3 m ρ c (Proc.devRef .tc main_arg5)) (W3 m ρ c (Proc.devRef .tc main_call0_v86)) :=
    (W4_arr m ρ c 4).trans (RegionValue.final1 (V3 m ρ) c)
  rw [e, v84_eq, v85_eq, w3_arg5, v86_eq]
  rfl

/-! ## The third launch: the projection -/

theorem v88_eq : W5 (F := Ideal) m ρ c (Proc.devRef .tc main_call0_v88)
    = gProj (M := 50000) (K := 512) (F := 256)
        (K2 (K1 (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) (m ((c.tc : Thread nD τ).loc main_arg7)) := by
  have e : W5 (F := Ideal) m ρ c (Proc.devRef .tc main_call0_v88)
      = gProj (M := 50000) (K := 512) (F := 256) (W4 m ρ c (Proc.devRef .tc main_call0_v87)) (W4 m ρ c (Proc.devRef .tc main_arg7)) :=
    (W5_arr m ρ c 2).trans (RegionValue.final2 (V4 m ρ) c)
  rw [e, v87_eq, w4_arg7]

/-! ## The third stretch and the fourth launch: the third layer -/

theorem v118_eq : W6 (F := Ideal) m ρ c (Proc.devRef .tc main_call0_v118)
    = propKf256 (gProj (M := 50000) (K := 512) (F := 256)
        (K2 (K1 (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) (m ((c.tc : Thread nD τ).loc main_arg7)))
        (nI (m ((c.tc : Thread nD τ).loc main_arg1))) (eI (m ((c.tc : Thread nD τ).loc main_arg1))) (invD (colI (eI (m ((c.tc : Thread nD τ).loc main_arg1))))) := by
  refine (s3_ns (W5 m ρ c)).trans ?_
  rw [v88_eq, w5_v1, w5_v3, w5_v21, r1_v1, r1_v3, r1_v21]

theorem v119_eq : W6 (F := Ideal) m ρ c (Proc.devRef .tc main_call0_v119) = colF (invD (colI (nI (m ((c.tc : Thread nD τ).loc main_arg1))))) := by
  refine (s3_dcol (W5 m ρ c)).trans ?_
  rw [w5_v12, r1_v12]

theorem v120_eq : W6 (F := Ideal) m ρ c (Proc.devRef .tc main_call0_v120) = row256 (m ((c.tc : Thread nD τ).loc main_arg8)) := by
  refine (s3_brow (W5 m ρ c)).trans ?_
  rw [w5_arg8]

theorem v121_eq : W7 (F := Ideal) m ρ c (Proc.devRef .tc main_call0_v121)
    = K3 (K2 (K1 (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) (m ((c.tc : Thread nD τ).loc main_arg1)) (m ((c.tc : Thread nD τ).loc main_arg7)) (m ((c.tc : Thread nD τ).loc main_arg8)) := by
  have e : W7 (F := Ideal) m ρ c (Proc.devRef .tc main_call0_v121)
      = gScaleBias (M := 50000) (F := 256) (W6 m ρ c (Proc.devRef .tc main_call0_v118)) (W6 m ρ c (Proc.devRef .tc main_call0_v119))
          (W6 m ρ c (Proc.devRef .tc main_call0_v120)) :=
    (W7_arr m ρ c 3).trans (RegionValue.final3 (V6 m ρ) c)
  rw [e, v118_eq, v119_eq, v120_eq]
  rfl

/-! ## The fourth stretch and the last launch: pooling and the head -/

theorem v133_eq : W8 (F := Ideal) m ρ c (Proc.devRef .tc main_call0_v133)
    = poolK (K3 (K2 (K1 (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6))) (m ((c.tc : Thread nD τ).loc main_arg1)) (m ((c.tc : Thread nD τ).loc main_arg7)) (m ((c.tc : Thread nD τ).loc main_arg8))) (m ((c.tc : Thread nD τ).loc main_arg2)) := by
  refine (s4_pool (W7 m ρ c)).trans ?_
  rw [v121_eq, w7_arg2]

theorem v134_eq : W8 (F := Ideal) m ρ c (Proc.devRef .tc main_call0_v134) = row128 (m ((c.tc : Thread nD τ).loc main_arg10)) := by
  refine (s4_brow1 (W7 m ρ c)).trans ?_
  rw [w7_arg10]

theorem v135_eq : W8 (F := Ideal) m ρ c (Proc.devRef .tc main_call0_v135) = row1 (m ((c.tc : Thread nD τ).loc main_arg12)) := by
  refine (s4_brow2 (W7 m ρ c)).trans ?_
  rw [w7_arg12]

/-- THE RESULT: the result buffer at the last boundary is the head over the pooled third layer, every piece a term
    of the argument arrays. -/
theorem kernel_value : W9 (F := Ideal) m ρ c (Proc.devRef .tc main_v0)
    = KOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have e : W9 (F := Ideal) m ρ c (Proc.devRef .tc main_v0)
      = gHead (M := 1024) (K := 256) (J := 128) (F := 1) (W8 m ρ c (Proc.devRef .tc main_call0_v133)) (W8 m ρ c (Proc.devRef .tc main_arg9))
          (W8 m ρ c (Proc.devRef .tc main_call0_v134)) (W8 m ρ c (Proc.devRef .tc main_arg11)) (W8 m ρ c (Proc.devRef .tc main_call0_v135)) :=
    (W9_arr m ρ c 5).trans (RegionValue.final4 (V8 m ρ) c)
  rw [e, v133_eq, w8_arg9, v134_eq, w8_arg11, v135_eq]
  rfl

end Cert.KernelIdeal.Value

end
-- ==== Proof.RDefs.lean ====
/-
  The reference program, taken apart into the pieces of the mathematics: the two index rows of the incidence array,
  an index row as a column, an index row wrapped for gathering, the inverse degree of an index column, one
  propagation at width 256 and at width 512 (gather the projected rows at the nodes, sum them per hyperedge, scale by
  the hyperedge's inverse degree, gather at the hyperedges, sum per node), one layer (the propagation scaled by the
  node's inverse degree, plus the bias, maximum with zero), the mean pooling over graphs, the two-layer head, and
  `ROut`, their composition as the program composes them.
-/
import proofs.«148780_j25718264168627_2_alg».proof.ReferenceIdeal
import proofs.«148780_j25718264168627_2_alg».proof.Proof.Gen.ReferenceIdeal
import Idealize.ShloMosaic.PureOps.Ideal

noncomputable section

namespace Cert.ReferenceIdeal.Terms

open Cert.ReferenceIdeal Cert.ReferenceIdeal.Facts₀ Cert.ReferenceIdeal.Facts Idealize.ShloMosaic

/-- A float array of shape `s` on the extended reals, and an index array. -/
abbrev FA (s : Shape) := FVec Ideal s .f32
abbrev IA (s : Shape) := IVec s 32

/-- Row 0 of the incidence array: the node words. -/
def nI (a1 : IA S2x400000) : IA S400000 :=
  shapeCast _ (extractStridedSlice S1x400000 ![0, 0] a1 slices_S2x400000_S1x400000_0_0) shapeCasts_S1x400000_S400000
/-- Row 1 of the incidence array: the hyperedge words. -/
def eI (a1 : IA S2x400000) : IA S400000 :=
  shapeCast _ (extractStridedSlice S1x400000 ![1, 0] a1 slices_S2x400000_S1x400000_1_0) shapeCasts_S1x400000_S400000
/-- An index row as a column of start indices. -/
def colI (v : IA S400000) : IA S400000x1 := broadcastInDim S400000x1 ![0] bcast_S400000_S400000x1_0 v
/-- An index row with its negative words wrapped by the extent. -/
def wrapI (v : IA S400000) : IA S400000 := select (cmpi .slt v (broadcastInDim S400000 ![] bcast_S_S400000 (constantI S_ 32 0#32))) (addi v (broadcastInDim S400000 ![] bcast_S_S400000 (constantI S_ 32 50000#32))) v
/-- The inverse degree of an index column: the count of ones scattered by it, inverted where positive, else 0. -/
def invD (col : IA S400000x1) : FA S50000 := select (cmpf (F := Ideal) .ogt (Host.scatterAdd scatter_S50000_S400000x1_S400000_n_0_0_1 (broadcastInDim S50000 ![] bcast_S_S50000 (constant S_ .f32 0x00000000#32)) col (broadcastInDim S400000 ![] bcast_S_S400000 (constant S_ .f32 0x3F800000#32))) (broadcastInDim S50000 ![] bcast_S_S50000 (constant S_ .f32 0x00000000#32))) (Host.divf (broadcastInDim S50000 ![] bcast_S_S50000 (constant S_ .f32 0x3F800000#32)) (Host.scatterAdd scatter_S50000_S400000x1_S400000_n_0_0_1 (broadcastInDim S50000 ![] bcast_S_S50000 (constant S_ .f32 0x00000000#32)) col (broadcastInDim S400000 ![] bcast_S_S400000 (constant S_ .f32 0x3F800000#32)))) (broadcastInDim S50000 ![] bcast_S_S50000 (id (constant (F := Ideal) S_ .f32 0x00000000#32)))
/-- One propagation at width 256, the hyperedge factor on the left. -/
def propR256 (V : FA S50000x256) (a1 : IA S2x400000) : FA S50000x256 := Host.scatterAdd scatter_S50000x256_S400000x1_S400000x256_1_0_0_1 (broadcastInDim S50000x256 ![] bcast_S_S50000x256 (constant S_ .f32 0x00000000#32)) (colI (nI a1)) (Host.gather gather_S50000x256_S400000x1_S400000x256_1_0_n_n_0_1_1256 (mulf (broadcastInDim S50000x256 ![0, 1] bcast_S50000x1_S50000x256_0_1 (broadcastInDim S50000x1 ![0] bcast_S50000_S50000x1_0 (invD (colI (eI a1))))) (Host.scatterAdd scatter_S50000x256_S400000x1_S400000x256_1_0_0_1 (broadcastInDim S50000x256 ![] bcast_S_S50000x256 (constant S_ .f32 0x00000000#32)) (colI (eI a1)) (Host.gather gather_S50000x256_S400000x1_S400000x256_1_0_n_n_0_1_1256 V (colI (wrapI (nI a1)))))) (colI (wrapI (eI a1))))
/-- One propagation at width 512. -/
def propR512 (V : FA S50000x512) (a1 : IA S2x400000) : FA S50000x512 := Host.scatterAdd scatter_S50000x512_S400000x1_S400000x512_1_0_0_1 (broadcastInDim S50000x512 ![] bcast_S_S50000x512 (constant S_ .f32 0x00000000#32)) (colI (nI a1)) (Host.gather gather_S50000x512_S400000x1_S400000x512_1_0_n_n_0_1_1512 (mulf (broadcastInDim S50000x512 ![0, 1] bcast_S50000x1_S50000x512_0_1 (broadcastInDim S50000x1 ![0] bcast_S50000_S50000x1_0 (invD (colI (eI a1))))) (Host.scatterAdd scatter_S50000x512_S400000x1_S400000x512_1_0_0_1 (broadcastInDim S50000x512 ![] bcast_S_S50000x512 (constant S_ .f32 0x00000000#32)) (colI (eI a1)) (Host.gather gather_S50000x512_S400000x1_S400000x512_1_0_n_n_0_1_1512 V (colI (wrapI (nI a1)))))) (colI (wrapI (eI a1))))
/-- A layer after its projection, at width 256. -/
def layR256 (xl : FA S50000x256) (a1 : IA S2x400000) (b : FA S256) : FA S50000x256 := maximumf (addf (mulf (broadcastInDim S50000x256 ![0, 1] bcast_S50000x1_S50000x256_0_1 (broadcastInDim S50000x1 ![0] bcast_S50000_S50000x1_0 (invD (colI (nI a1))))) (propR256 xl a1)) (broadcastInDim S50000x256 ![0, 1] bcast_S1x256_S50000x256_0_1 (broadcastInDim S1x256 ![1] bcast_S256_S1x256_1 b))) (broadcastInDim S50000x256 ![] bcast_S_S50000x256 (constant S_ .f32 0x00000000#32))
/-- A layer after its projection, at width 512. -/
def layR512 (xl : FA S50000x512) (a1 : IA S2x400000) (b : FA S512) : FA S50000x512 := maximumf (addf (mulf (broadcastInDim S50000x512 ![0, 1] bcast_S50000x1_S50000x512_0_1 (broadcastInDim S50000x1 ![0] bcast_S50000_S50000x1_0 (invD (colI (nI a1))))) (propR512 xl a1)) (broadcastInDim S50000x512 ![0, 1] bcast_S1x512_S50000x512_0_1 (broadcastInDim S1x512 ![1] bcast_S512_S1x512_1 b))) (broadcastInDim S50000x512 ![] bcast_S_S50000x512 (constant S_ .f32 0x00000000#32))
/-- The mean of the node rows of each graph (an empty graph's count read as 1). -/
def poolR (h : FA S50000x256) (a2 : IA S50000) : FA S1024x256 := Host.divf (Host.scatterAdd scatter_S1024x256_S50000x1_S50000x256_1_0_0_1 (broadcastInDim S1024x256 ![] bcast_S_S1024x256 (constant S_ .f32 0x00000000#32)) (broadcastInDim S50000x1 ![0] bcast_S50000_S50000x1_0 a2) h) (broadcastInDim S1024x256 ![0, 1] bcast_S1024x1_S1024x256_0_1 (broadcastInDim S1024x1 ![0] bcast_S1024_S1024x1_0 (maximumf (Host.scatterAdd scatter_S1024_S50000x1_S50000_n_0_0_1 (broadcastInDim S1024 ![] bcast_S_S1024 (constant S_ .f32 0x00000000#32)) (broadcastInDim S50000x1 ![0] bcast_S50000_S50000x1_0 a2) (broadcastInDim S50000 ![] bcast_S_S50000 (constant S_ .f32 0x3F800000#32))) (broadcastInDim S1024 ![] bcast_S_S1024 (constant S_ .f32 0x3F800000#32)))))
/-- The two-layer head. -/
def headR (g : FA S1024x256) (a9 : FA S256x128) (a10 : FA S128) (a11 : FA S128x1) (a12 : FA S1) : FA S1024x1 := addf (Host.dotGeneral dot_S1024x128_S128x1_S1024x1_1_0_0_1_n_n none (maximumf (addf (Host.dotGeneral dot_S1024x256_S256x128_S1024x128_1_0_0_1_n_n none g a9) (broadcastInDim S1024x128 ![0, 1] bcast_S1x128_S1024x128_0_1 (broadcastInDim S1x128 ![1] bcast_S128_S1x128_1 a10))) (broadcastInDim S1024x128 ![] bcast_S_S1024x128 (constant S_ .f32 0x00000000#32))) a11) (broadcastInDim S1024x1 ![0, 1] bcast_S1x1_S1024x1_0_1 (broadcastInDim S1x1 ![1] bcast_S1_S1x1_1 a12))

def dot1 (a0 : FA S50000x128) (a3 : FA S128x256) : FA S50000x256 := Host.dotGeneral dot_S50000x128_S128x256_S50000x256_1_0_0_1_n_n none a0 a3
def dot2 (h : FA S50000x256) (a5 : FA S256x512) : FA S50000x512 := Host.dotGeneral dot_S50000x256_S256x512_S50000x512_1_0_0_1_n_n none h a5
def dot3 (h : FA S50000x512) (a7 : FA S512x256) : FA S50000x256 := Host.dotGeneral dot_S50000x512_S512x256_S50000x256_1_0_0_1_n_n none h a7

/-- The whole reference, as the composition of its pieces. -/
def ROut (a0 : FA S50000x128) (a1 : IA S2x400000) (a2 : IA S50000) (a3 : FA S128x256) (a4 : FA S256) (a5 : FA S256x512)
    (a6 : FA S512) (a7 : FA S512x256) (a8 : FA S256) (a9 : FA S256x128) (a10 : FA S128) (a11 : FA S128x1) (a12 : FA S1) :
    FA S1024x1 :=
  headR (poolR (layR256 (dot3 (layR512 (dot2 (layR256 (dot1 a0 a3) a1 a4) a5) a1 a6) a7) a1 a8) a2) a9 a10 a11 a12

end Cert.ReferenceIdeal.Terms

end
-- ==== Proof.RefTerms.lean ====
/-
  The reference program's run ends with its result buffer at the composition of the named pieces: the run's result
  term, written out operation by operation, is that composition once the names are unfolded.
-/
import proofs.«148780_j25718264168627_2_alg».proof.Proof.RefRunP
import proofs.«148780_j25718264168627_2_alg».proof.Proof.RDefs

set_option maxRecDepth 16384

noncomputable section

namespace Cert.ReferenceIdeal.Terms

open Cert.ReferenceIdeal Idealize.ShloMosaic Idealize.ShloMosaic.TcCoe Idealize.SL.Sem Idealize.ShloMosaic.StableHlo

/-- The run's result term is the composition of the pieces. -/
theorem res_eq (m : (ℓ : Loc nD τ sig) → Buf (Elt Ideal) ℓ) (c : Dev nD) :
    Cert.ReferenceIdeal.ValueP.res_main_v171 (F := Ideal) m c
      = ROut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v171 ROut headR poolR layR256 layR512 propR256 propR512 dot1 dot2 dot3 invD wrapI colI nI eI
  rfl

end Cert.ReferenceIdeal.Terms

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.LibCountScatter.lean ====
/-
  Counting by scatter: a row-indexed count and a column count agree.

  Two ways to count, for each row r < n, the updates q < e whose index word reads r. One accumulates updates of
  shape [e] into an operand of shape [n] (no window axis); the other accumulates updates of shape [e, 1] into an
  operand of shape [n, 1] (a window axis of extent one). Both read the landing row, signed and unclamped, from
  column 0 of the same [e, 1] index array, and both drop an update whose row falls outside [0, n).

  On the extended reals the accumulating scatter is the operand entry plus the sum of the updates landing on it, so
  it suffices that update q lands on r in one exactly when (q, 0) lands on (r, 0) in the other: the extra axis
  contributes start 0 and window coordinate 0, always in range. The sums then run over corresponding index sets
  (q ↦ (q, 0) is a bijection of [e] with [e, 1]) with equal terms. Only re-indexing of a finite sum is used; nothing
  needs the entries to be finite.
-/
import Idealize.ShloMosaic.Lib.ValueIdx
import Idealize.ShloMosaic.PureOps.Ideal.Laws

noncomputable section

namespace Cert.LibCountScatter

open Idealize.ShloMosaic Idealize.ShloMosaic.ValueIdx

variable {n e w : ℕ}

/-- The record of the row-indexed scatter: updates [e] into an operand [n], the row read off index column 0. -/
abbrev dRow (wf : ScatterDims.WF ⟨1, ![n]⟩ ⟨2, ![e, 1]⟩ ⟨1, ![e]⟩ [] [0] [0] 1) :
    ScatterDims ⟨1, ![n]⟩ ⟨2, ![e, 1]⟩ ⟨1, ![e]⟩ := ⟨[], [0], [0], 1, wf⟩

/-- The record of the column scatter: updates [e, 1] into an operand [n, 1], axis 1 a window axis of extent one. -/
abbrev dCol (wf : ScatterDims.WF ⟨2, ![n, 1]⟩ ⟨2, ![e, 1]⟩ ⟨2, ![e, 1]⟩ [1] [0] [0] 1) :
    ScatterDims ⟨2, ![n, 1]⟩ ⟨2, ![e, 1]⟩ ⟨2, ![e, 1]⟩ := ⟨[1], [0], [0], 1, wf⟩

/-- The row record's start on axis 0 is the index word of update q. -/
theorem row_start (wf) (idx : IVec ⟨2, ![e, 1]⟩ w) (q : Fin e) :
    (dRow (n := n) wf).start (ix1 q) idx 0 = (idx (ix2 q (0 : Fin 1))).toInt := by
  unfold ScatterDims.start
  rw [dif_pos (show (0 : Fin 1) ∈ ([0] : List (Fin 1)) by decide)]
  congr 2
  funext b
  match b with
  | ⟨0, _⟩ => rfl
  | ⟨1, _⟩ => rfl

/-- The row record has no window axis: the window coordinate is 0. -/
theorem row_window (wf) (q : Fin e) : (dRow (n := n) wf).window (ix1 q) 0 = 0 := by
  unfold ScatterDims.window
  have h : (0 : Fin 1) ∉ (dRow (n := n) (e := e) wf).sKept := by
    show (0 : Fin 1) ∉ ((List.finRange 1).filter (· ∉ ([0] : List (Fin 1)))); decide
  rw [dif_neg h]

/-- The column record's start on axis 0 is the same index word. -/
theorem col_start0 (wf) (idx : IVec ⟨2, ![e, 1]⟩ w) (q : Fin e) :
    (dCol (n := n) wf).start (ix2 q (0 : Fin 1)) idx 0 = (idx (ix2 q (0 : Fin 1))).toInt := by
  unfold ScatterDims.start
  rw [dif_pos (show (0 : Fin 2) ∈ ([0] : List (Fin 2)) by decide)]
  congr 2
  funext b
  match b with
  | ⟨0, _⟩ => rfl
  | ⟨1, _⟩ => rfl

/-- Axis 1 is not named by the index vector: its start is 0. -/
theorem col_start1 (wf) (idx : IVec ⟨2, ![e, 1]⟩ w) (q : Fin e) :
    (dCol (n := n) wf).start (ix2 q (0 : Fin 1)) idx 1 = 0 := by
  unfold ScatterDims.start
  rw [dif_neg (show (1 : Fin 2) ∉ ([0] : List (Fin 2)) by decide)]

/-- Axis 0 is an inserted axis: no window coordinate. -/
theorem col_window0 (wf) (q : Fin e) : (dCol (n := n) wf).window (ix2 q (0 : Fin 1)) 0 = 0 := by
  unfold ScatterDims.window
  have h : (0 : Fin 2) ∉ (dCol (n := n) (e := e) wf).sKept := by
    show (0 : Fin 2) ∉ ((List.finRange 2).filter (· ∉ ([0] : List (Fin 2)))); decide
  rw [dif_neg h]

/-- Axis 1's window coordinate is the update's coordinate on its unit axis, which is 0. -/
theorem col_window1 (wf) (q : Fin e) : (dCol (n := n) wf).window (ix2 q (0 : Fin 1)) 1 = 0 := by
  unfold ScatterDims.window
  have h : (1 : Fin 2) ∈ (dCol (n := n) (e := e) wf).sKept := by
    show (1 : Fin 2) ∈ ((List.finRange 2).filter (· ∉ ([0] : List (Fin 2)))); decide
  rw [dif_pos h]
  rfl

/-- A row update lands on row r exactly when its index word reads r. -/
theorem row_lands (wf) (idx : IVec ⟨2, ![e, 1]⟩ w) (q : Fin e) (r : Fin n) :
    (dRow (n := n) wf).resultIdx? (ix1 q) idx = some (ix1 r) ↔ (idx (ix2 q (0 : Fin 1))).toInt = (r.val : Int) := by
  unfold ScatterDims.resultIdx?
  split
  · rename_i h
    rw [Option.some.injEq]
    have h0 := h 0
    rw [row_start, row_window] at h0
    constructor
    · intro heq
      have hv : ((dRow (n := n) wf).start (ix1 q) idx 0 + ((dRow (n := n) wf).window (ix1 q) 0 : ℕ)).toNat = r.val :=
        congrArg (fun f : (⟨1, ![n]⟩ : Shape).Idx => (f 0).val) heq
      rw [row_start, row_window] at hv
      omega
    · intro heq
      funext a
      match a with
      | ⟨0, _⟩ =>
        apply Fin.ext
        show ((dRow (n := n) wf).start (ix1 q) idx 0 + ((dRow (n := n) wf).window (ix1 q) 0 : ℕ)).toNat = r.val
        rw [row_start, row_window, heq]
        omega
  · rename_i h
    constructor
    · intro hh; cases hh
    · intro heq
      exfalso
      apply h
      intro a
      match a with
      | ⟨0, _⟩ =>
        show 0 ≤ (dRow (n := n) wf).start (ix1 q) idx 0 + ((dRow (n := n) wf).window (ix1 q) 0 : ℕ)
          ∧ (dRow (n := n) wf).start (ix1 q) idx 0 + ((dRow (n := n) wf).window (ix1 q) 0 : ℕ) < (n : ℤ)
        rw [row_start, row_window, heq]
        have := r.isLt
        omega

/-- A column update lands on (r, 0) exactly when its index word reads r. -/
theorem col_lands (wf) (idx : IVec ⟨2, ![e, 1]⟩ w) (q : Fin e) (r : Fin n) :
    (dCol (n := n) wf).resultIdx? (ix2 q (0 : Fin 1)) idx = some (ix2 r (0 : Fin 1))
      ↔ (idx (ix2 q (0 : Fin 1))).toInt = (r.val : Int) := by
  unfold ScatterDims.resultIdx?
  split
  · rename_i h
    rw [Option.some.injEq]
    have h0 := h 0
    rw [col_start0, col_window0] at h0
    constructor
    · intro heq
      have hv : ((dCol (n := n) wf).start (ix2 q (0 : Fin 1)) idx 0 + ((dCol (n := n) wf).window (ix2 q (0 : Fin 1)) 0 : ℕ)).toNat = r.val :=
        congrArg (fun f : (⟨2, ![n, 1]⟩ : Shape).Idx => (f 0).val) heq
      rw [col_start0, col_window0] at hv
      omega
    · intro heq
      funext a
      match a with
      | ⟨0, _⟩ =>
        apply Fin.ext
        show ((dCol (n := n) wf).start (ix2 q (0 : Fin 1)) idx 0 + ((dCol (n := n) wf).window (ix2 q (0 : Fin 1)) 0 : ℕ)).toNat = r.val
        rw [col_start0, col_window0, heq]
        omega
      | ⟨1, _⟩ =>
        apply Fin.ext
        show ((dCol (n := n) wf).start (ix2 q (0 : Fin 1)) idx 1 + ((dCol (n := n) wf).window (ix2 q (0 : Fin 1)) 1 : ℕ)).toNat = 0
        rw [col_start1, col_window1]
        rfl
  · rename_i h
    constructor
    · intro hh; cases hh
    · intro heq
      exfalso
      apply h
      intro a
      match a with
      | ⟨0, _⟩ =>
        show 0 ≤ (dCol (n := n) wf).start (ix2 q (0 : Fin 1)) idx 0 + ((dCol (n := n) wf).window (ix2 q (0 : Fin 1)) 0 : ℕ)
          ∧ (dCol (n := n) wf).start (ix2 q (0 : Fin 1)) idx 0 + ((dCol (n := n) wf).window (ix2 q (0 : Fin 1)) 0 : ℕ) < (n : ℤ)
        rw [col_start0, col_window0, heq]
        have := r.isLt
        omega
      | ⟨1, _⟩ =>
        show 0 ≤ (dCol (n := n) wf).start (ix2 q (0 : Fin 1)) idx 1 + ((dCol (n := n) wf).window (ix2 q (0 : Fin 1)) 1 : ℕ)
          ∧ (dCol (n := n) wf).start (ix2 q (0 : Fin 1)) idx 1 + ((dCol (n := n) wf).window (ix2 q (0 : Fin 1)) 1 : ℕ) < ((1 : ℕ) : ℤ)
        rw [col_start1, col_window1]
        omega

/-- The update indices [e] and [e, 1] correspond: q and (q, 0). -/
def liftIdx : (⟨1, ![e]⟩ : Shape).Idx ≃ (⟨2, ![e, 1]⟩ : Shape).Idx where
  toFun j := ix2 (j 0) (0 : Fin 1)
  invFun k := ix1 (k 0)
  left_inv j := (eq_ix1 j).symm
  right_inv k := by
    funext a
    match a with
    | ⟨0, _⟩ => rfl
    | ⟨1, _⟩ =>
      apply Fin.ext
      have h : (k 1).val < 1 := (k 1).isLt
      show 0 = (k 1).val
      omega

/-- An accumulating scatter of updates [e, 1] into a column [n, 1] and the same updates as [e] into a row-indexed [n],
    both reading the landing row off column 0 of one index array, agree entry by entry: update q lands on row r in one
    exactly when it does in the other, so the two sums run over corresponding index sets. No finiteness is used. -/
theorem scatterAdd_col_eq_row {φ : FTy}
    (d1 : ScatterDims ⟨1, ![n]⟩ ⟨2, ![e, 1]⟩ ⟨1, ![e]⟩) (d2 : ScatterDims ⟨2, ![n, 1]⟩ ⟨2, ![e, 1]⟩ ⟨2, ![e, 1]⟩)
    (wf1) (wf2) (h1 : d1 = ⟨[], [0], [0], 1, wf1⟩) (h2 : d2 = ⟨[1], [0], [0], 1, wf2⟩)
    (x1 : FVec Ideal ⟨1, ![n]⟩ φ) (x2 : FVec Ideal ⟨2, ![n, 1]⟩ φ) (idx : IVec ⟨2, ![e, 1]⟩ w)
    (u1 : FVec Ideal ⟨1, ![e]⟩ φ) (u2 : FVec Ideal ⟨2, ![e, 1]⟩ φ) (r : Fin n)
    (hx : x2 (ix2 r (0 : Fin 1)) = x1 (ix1 r)) (hu : ∀ q : Fin e, u2 (ix2 q (0 : Fin 1)) = u1 (ix1 q)) :
    Host.scatterAdd d2 x2 idx u2 (ix2 r (0 : Fin 1)) = Host.scatterAdd d1 x1 idx u1 (ix1 r) := by
  subst h1 h2
  show x2 (ix2 r (0 : Fin 1)) + _ = x1 (ix1 r) + _
  rw [hx]
  congr 1
  symm
  refine Finset.sum_equiv liftIdx (fun j => ?_) (fun j _ => ?_)
  · obtain ⟨q, rfl⟩ : ∃ q : Fin e, j = ix1 q := ⟨j 0, eq_ix1 j⟩
    rw [Finset.mem_filter, Finset.mem_filter]
    simp only [Finset.mem_univ, true_and]
    exact (row_lands wf1 idx q r).trans (col_lands wf2 idx q r).symm
  · obtain ⟨q, rfl⟩ : ∃ q : Fin e, j = ix1 q := ⟨j 0, eq_ix1 j⟩
    exact (hu q).symm

end Cert.LibCountScatter

end
-- ==== Proof.LibPaddedScatter.lean ====
/-
  An accumulating scatter does not see rows of zeros appended to its updates.

  On the extended reals the host's accumulating scatter gives, at each operand index i, the operand entry plus the
  sum of the update entries landing on i. Take an update array with T rows whose first E ≤ T rows are a given update
  array with E rows and whose remaining T − E rows are all zero, and an index column with T entries whose first E
  entries are the index column of the short array. Then the long scatter and the short scatter into one operand agree:
  wherever a row of zeros lands, or whether it lands at all, it adds 0, and x + 0 = x. Nothing needs the entries to
  be finite: the extended reals are a commutative additive monoid, and only a finite sum is split into the part over
  the first E rows, re-indexed, and the rest, every term of which is 0.

  Two shapes are covered, for ANY extents: element updates [T] into an operand [N] (no window axis), and row updates
  [T, C] into an operand [N, C] (axis 1 the one window axis). Both read the landing row, signed and not clamped, off
  column 0 of a [T, 1] index array, and drop an update whose row leaves the operand. The landing condition of the
  first is that the index word reads the row; of the second, that the index word reads the row and the columns agree.
  No axis is enumerated: every step is over the variables N, E, T, C.
-/
import Idealize.ShloMosaic.Lib.ValueIdx
import Idealize.ShloMosaic.PureOps.Ideal.Laws
import proofs.«148780_j25718264168627_2_alg».proof.Proof.LibCountScatter

noncomputable section

namespace Cert.LibPaddedScatter

open Idealize.ShloMosaic Idealize.ShloMosaic.ValueIdx

/-- A filtered finite sum over a larger index set equals the filtered sum over a smaller one embedded in it, when the
    filters and the terms correspond along the embedding and every term off its image is zero. -/
theorem sum_filter_pad {α β M : Type*} [Fintype α] [Fintype β] [AddCommMonoid M] (ι : α ↪ β)
    (p : α → Prop) (q : β → Prop) [DecidablePred p] [DecidablePred q] (f : α → M) (g : β → M)
    (hq : ∀ a, q (ι a) ↔ p a) (hg : ∀ a, g (ι a) = f a) (h0 : ∀ b, b ∉ Set.range ι → g b = 0) :
    ∑ b ∈ Finset.univ.filter q, g b = ∑ a ∈ Finset.univ.filter p, f a := by
  have h1 : ∑ a ∈ Finset.univ.filter p, f a = ∑ b ∈ (Finset.univ.filter p).map ι, g b := by
    rw [Finset.sum_map]
    exact Finset.sum_congr rfl (fun a _ => (hg a).symm)
  rw [h1]
  symm
  apply Finset.sum_subset
  · intro b hb
    obtain ⟨a, ha, rfl⟩ := Finset.mem_map.mp hb
    rw [Finset.mem_filter] at ha ⊢
    exact ⟨Finset.mem_univ _, (hq a).mpr ha.2⟩
  · intro b hb hnb
    apply h0
    rintro ⟨a, rfl⟩
    apply hnb
    rw [Finset.mem_filter] at hb
    exact Finset.mem_map.mpr ⟨a, Finset.mem_filter.mpr ⟨Finset.mem_univ _, (hq a).mp hb.2⟩, rfl⟩

/-! ## Where a row update with one window axis lands -/

section RowsLands
variable {n e c w : ℕ}

/-- The record of the row scatter: updates [e, c] into an operand [n, c], the row read off index column 0, axis 1 the
    one window axis. -/
abbrev dRows (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ := ⟨[1], [0], [0], 1, wf⟩

/-- The start on axis 0 is the index word of update row q. -/
theorem rows_start0 (wf) (idx : IVec ⟨2, ![e, 1]⟩ w) (q : Fin e) (k : Fin c) :
    (dRows (n := n) wf).start (ix2 q k) idx 0 = (idx (ix2 q (0 : Fin 1))).toInt := by
  unfold ScatterDims.start
  rw [dif_pos (show (0 : Fin 2) ∈ ([0] : List (Fin 2)) by decide)]
  congr 2
  funext b
  match b with
  | ⟨0, _⟩ => rfl
  | ⟨1, _⟩ => rfl

/-- Axis 1 is not named by the index vector: its start is 0. -/
theorem rows_start1 (wf) (idx : IVec ⟨2, ![e, 1]⟩ w) (q : Fin e) (k : Fin c) :
    (dRows (n := n) wf).start (ix2 q k) idx 1 = 0 := by
  unfold ScatterDims.start
  rw [dif_neg (show (1 : Fin 2) ∉ ([0] : List (Fin 2)) by decide)]

/-- Axis 0 is an inserted axis: no window coordinate. -/
theorem rows_window0 (wf) (q : Fin e) (k : Fin c) : (dRows (n := n) wf).window (ix2 q k) 0 = 0 := by
  unfold ScatterDims.window
  have h : (0 : Fin 2) ∉ (dRows (n := n) (e := e) (c := c) wf).sKept := by
    show (0 : Fin 2) ∉ ((List.finRange 2).filter (· ∉ ([0] : List (Fin 2)))); decide
  rw [dif_neg h]

/-- Axis 1's window coordinate is the update's column. -/
theorem rows_window1 (wf) (q : Fin e) (k : Fin c) : (dRows (n := n) wf).window (ix2 q k) 1 = k.val := by
  unfold ScatterDims.window
  have h : (1 : Fin 2) ∈ (dRows (n := n) (e := e) (c := c) wf).sKept := by
    show (1 : Fin 2) ∈ ((List.finRange 2).filter (· ∉ ([0] : List (Fin 2)))); decide
  rw [dif_pos h]
  rfl

/-- Update (q, k) lands on (r, k') exactly when its index word reads r and the columns agree. -/
theorem rows_lands (wf) (idx : IVec ⟨2, ![e, 1]⟩ w) (q : Fin e) (k : Fin c) (r : Fin n) (k' : Fin c) :
    (dRows (n := n) wf).resultIdx? (ix2 q k) idx = some (ix2 r k')
      ↔ (idx (ix2 q (0 : Fin 1))).toInt = (r.val : Int) ∧ k = k' := by
  unfold ScatterDims.resultIdx?
  split
  · rename_i h
    rw [Option.some.injEq]
    have h0 := h 0
    rw [rows_start0, rows_window0] at h0
    constructor
    · intro heq
      have hv0 : ((dRows (n := n) wf).start (ix2 q k) idx 0 + ((dRows (n := n) wf).window (ix2 q k) 0 : ℕ)).toNat = r.val :=
        congrArg (fun f : (⟨2, ![n, c]⟩ : Shape).Idx => (f 0).val) heq
      have hv1 : ((dRows (n := n) wf).start (ix2 q k) idx 1 + ((dRows (n := n) wf).window (ix2 q k) 1 : ℕ)).toNat = k'.val :=
        congrArg (fun f : (⟨2, ![n, c]⟩ : Shape).Idx => (f 1).val) heq
      rw [rows_start0, rows_window0] at hv0
      rw [rows_start1, rows_window1] at hv1
      exact ⟨by omega, Fin.ext (by omega)⟩
    · rintro ⟨heq, rfl⟩
      funext a
      match a with
      | ⟨0, _⟩ =>
        apply Fin.ext
        show ((dRows (n := n) wf).start (ix2 q k) idx 0 + ((dRows (n := n) wf).window (ix2 q k) 0 : ℕ)).toNat = r.val
        rw [rows_start0, rows_window0, heq]
        omega
      | ⟨1, _⟩ =>
        apply Fin.ext
        show ((dRows (n := n) wf).start (ix2 q k) idx 1 + ((dRows (n := n) wf).window (ix2 q k) 1 : ℕ)).toNat = k.val
        rw [rows_start1, rows_window1]
        omega
  · rename_i h
    constructor
    · intro hh; cases hh
    · rintro ⟨heq, rfl⟩
      exfalso
      apply h
      intro a
      match a with
      | ⟨0, _⟩ =>
        show 0 ≤ (dRows (n := n) wf).start (ix2 q k) idx 0 + ((dRows (n := n) wf).window (ix2 q k) 0 : ℕ)
          ∧ (dRows (n := n) wf).start (ix2 q k) idx 0 + ((dRows (n := n) wf).window (ix2 q k) 0 : ℕ) < (n : ℤ)
        rw [rows_start0, rows_window0, heq]
        have := r.isLt
        omega
      | ⟨1, _⟩ =>
        show 0 ≤ (dRows (n := n) wf).start (ix2 q k) idx 1 + ((dRows (n := n) wf).window (ix2 q k) 1 : ℕ)
          ∧ (dRows (n := n) wf).start (ix2 q k) idx 1 + ((dRows (n := n) wf).window (ix2 q k) 1 : ℕ) < (c : ℤ)
        rw [rows_start1, rows_window1]
        have := k.isLt
        omega

end RowsLands

/-! ## The embeddings of the short update index sets into the long ones -/

/-- Element updates: q ↦ q, read as one of the first E of T rows. -/
def embElt {E T : ℕ} (hle : E ≤ T) : (⟨1, ![E]⟩ : Shape).Idx ↪ (⟨1, ![T]⟩ : Shape).Idx where
  toFun j := ix1 (Fin.castLE hle (j 0))
  inj' j j' h := by
    obtain ⟨q, rfl⟩ : ∃ q : Fin E, j = ix1 q := ⟨j 0, eq_ix1 j⟩
    obtain ⟨q', rfl⟩ : ∃ q' : Fin E, j' = ix1 q' := ⟨j' 0, eq_ix1 j'⟩
    have hv : (Fin.castLE hle q).val = (Fin.castLE hle q').val :=
      congrArg (fun f : (⟨1, ![T]⟩ : Shape).Idx => (f 0).val) h
    have : q = q' := Fin.ext hv
    rw [this]

/-- Row updates: (q, k) ↦ (q, k), the row read as one of the first E of T rows. -/
def embRow {E T C : ℕ} (hle : E ≤ T) : (⟨2, ![E, C]⟩ : Shape).Idx ↪ (⟨2, ![T, C]⟩ : Shape).Idx where
  toFun j := ix2 (Fin.castLE hle (j 0)) (j 1)
  inj' j j' h := by
    obtain ⟨q, k, rfl⟩ : ∃ (q : Fin E) (k : Fin C), j = ix2 q k := ⟨j 0, j 1, eq_ix2 j⟩
    obtain ⟨q', k', rfl⟩ : ∃ (q' : Fin E) (k' : Fin C), j' = ix2 q' k' := ⟨j' 0, j' 1, eq_ix2 j'⟩
    have hv : (Fin.castLE hle q).val = (Fin.castLE hle q').val :=
      congrArg (fun f : (⟨2, ![T, C]⟩ : Shape).Idx => (f 0).val) h
    have hk : k.val = k'.val := congrArg (fun f : (⟨2, ![T, C]⟩ : Shape).Idx => (f 1).val) h
    have h1 : q = q' := Fin.ext hv
    have h2 : k = k' := Fin.ext hk
    rw [h1, h2]

/-! ## The two scatters -/

/-- Element updates [T] whose first E entries are the updates [E] and whose other entries are zero, scattered through
    an index column whose first E entries are the short one's, give the short scatter. -/
theorem scatterAdd_elts_pad {N E T w : ℕ} {φ : FTy} (hle : E ≤ T)
    (dK : ScatterDims ⟨1, ![N]⟩ ⟨2, ![T, 1]⟩ ⟨1, ![T]⟩) (dR : ScatterDims ⟨1, ![N]⟩ ⟨2, ![E, 1]⟩ ⟨1, ![E]⟩)
    (wfK) (wfR) (hK : dK = ⟨[], [0], [0], 1, wfK⟩) (hR : dR = ⟨[], [0], [0], 1, wfR⟩)
    (x : FVec Ideal ⟨1, ![N]⟩ φ) (idxK : IVec ⟨2, ![T, 1]⟩ w) (idxR : IVec ⟨2, ![E, 1]⟩ w)
    (uK : FVec Ideal ⟨1, ![T]⟩ φ) (uR : FVec Ideal ⟨1, ![E]⟩ φ)
    (hidx : ∀ e : Fin E, idxK (ix2 (Fin.castLE hle e) (0 : Fin 1)) = idxR (ix2 e (0 : Fin 1)))
    (hu : ∀ e : Fin E, uK (ix1 (Fin.castLE hle e)) = uR (ix1 e))
    (hpad : ∀ t : Fin T, E ≤ t.val → uK (ix1 t) = 0) :
    Host.scatterAdd dK x idxK uK = Host.scatterAdd dR x idxR uR := by
  subst hK hR
  funext i
  obtain ⟨r, rfl⟩ : ∃ r : Fin N, i = ix1 r := ⟨i 0, eq_ix1 i⟩
  show x (ix1 r) + _ = x (ix1 r) + _
  congr 1
  refine sum_filter_pad (embElt hle) _ _ _ _ (fun j => ?_) (fun j => ?_) (fun j hj => ?_)
  · obtain ⟨q, rfl⟩ : ∃ q : Fin E, j = ix1 q := ⟨j 0, eq_ix1 j⟩
    show (LibCountScatter.dRow wfK).resultIdx? (ix1 (Fin.castLE hle q)) idxK = some (ix1 r)
      ↔ (LibCountScatter.dRow wfR).resultIdx? (ix1 q) idxR = some (ix1 r)
    rw [LibCountScatter.row_lands, LibCountScatter.row_lands, hidx]
  · obtain ⟨q, rfl⟩ : ∃ q : Fin E, j = ix1 q := ⟨j 0, eq_ix1 j⟩
    exact hu q
  · obtain ⟨t, rfl⟩ : ∃ t : Fin T, j = ix1 t := ⟨j 0, eq_ix1 j⟩
    refine hpad t (Nat.le_of_not_lt fun hlt => hj ⟨ix1 ⟨t.val, hlt⟩, ?_⟩)
    show ix1 (Fin.castLE hle ⟨t.val, hlt⟩) = ix1 t
    rfl

/-- Row updates [T, C] whose first E rows are the updates [E, C] and whose other rows are zero, scattered through an
    index column whose first E entries are the short one's, give the short scatter. -/
theorem scatterAdd_rows_pad {N E T C w : ℕ} {φ : FTy} (hle : E ≤ T)
    (dK : ScatterDims ⟨2, ![N, C]⟩ ⟨2, ![T, 1]⟩ ⟨2, ![T, C]⟩) (dR : ScatterDims ⟨2, ![N, C]⟩ ⟨2, ![E, 1]⟩ ⟨2, ![E, C]⟩)
    (wfK) (wfR) (hK : dK = ⟨[1], [0], [0], 1, wfK⟩) (hR : dR = ⟨[1], [0], [0], 1, wfR⟩)
    (x : FVec Ideal ⟨2, ![N, C]⟩ φ) (idxK : IVec ⟨2, ![T, 1]⟩ w) (idxR : IVec ⟨2, ![E, 1]⟩ w)
    (uK : FVec Ideal ⟨2, ![T, C]⟩ φ) (uR : FVec Ideal ⟨2, ![E, C]⟩ φ)
    (hidx : ∀ e : Fin E, idxK (ix2 (Fin.castLE hle e) (0 : Fin 1)) = idxR (ix2 e (0 : Fin 1)))
    (hu : ∀ (e : Fin E) (c : Fin C), uK (ix2 (Fin.castLE hle e) c) = uR (ix2 e c))
    (hpad : ∀ (t : Fin T) (c : Fin C), E ≤ t.val → uK (ix2 t c) = 0) :
    Host.scatterAdd dK x idxK uK = Host.scatterAdd dR x idxR uR := by
  subst hK hR
  funext i
  obtain ⟨r, k', rfl⟩ : ∃ (r : Fin N) (k' : Fin C), i = ix2 r k' := ⟨i 0, i 1, eq_ix2 i⟩
  show x (ix2 r k') + _ = x (ix2 r k') + _
  congr 1
  refine sum_filter_pad (embRow hle) _ _ _ _ (fun j => ?_) (fun j => ?_) (fun j hj => ?_)
  · obtain ⟨q, k, rfl⟩ : ∃ (q : Fin E) (k : Fin C), j = ix2 q k := ⟨j 0, j 1, eq_ix2 j⟩
    show (dRows wfK).resultIdx? (ix2 (Fin.castLE hle q) k) idxK = some (ix2 r k')
      ↔ (dRows wfR).resultIdx? (ix2 q k) idxR = some (ix2 r k')
    rw [rows_lands, rows_lands, hidx]
  · obtain ⟨q, k, rfl⟩ : ∃ (q : Fin E) (k : Fin C), j = ix2 q k := ⟨j 0, j 1, eq_ix2 j⟩
    exact hu q k
  · obtain ⟨t, k, rfl⟩ : ∃ (t : Fin T) (k : Fin C), j = ix2 t k := ⟨j 0, j 1, eq_ix2 j⟩
    refine hpad t k (Nat.le_of_not_lt fun hlt => hj ⟨ix2 ⟨t.val, hlt⟩ k, ?_⟩)
    show ix2 (Fin.castLE hle ⟨t.val, hlt⟩) k = ix2 t k
    rfl

end Cert.LibPaddedScatter

end
-- ==== Proof.HyperSpec.lean ====
/-
  The mathematics of a hypergraph convolution, stated once, free of any program.

  A hypergraph with N nodes and N hyperedges is given by E incidences; incidence q names a node by the index word
  `ni q` and a hyperedge by the index word `ei q`. A word is read in two ways. As a SCATTER index it is read signed
  and not clamped: an update lands on row r exactly when the word reads r, and is dropped when the word leaves
  [0, N). As a GATHER index a negative word is first wrapped by the extent N and the result is read signed and
  clamped into [0, N − 1] (`src`).

  One propagation sends a node array v : [N, C] to the hyperedges (each hyperedge sums the rows of its incident
  nodes, `edgeSum`), scales every hyperedge sum by a per-hyperedge factor β, and sends the scaled sums back to the
  nodes (each node sums over its incidences). The two programs this certificate compares spell the scaled product in
  the two orders (`propK`, `propR`). A layer is the propagation, a per-node factor δ, a dense projection by W, a
  bias and the maximum with 0. The reference projects first (`layerRef`); the kernel projects LAST in two of its three
  layers (`layerPF`: the projection of the propagated and δ-scaled rows) and first in the third (`layerPJ`).
-/
import Mathlib.Data.EReal.Basic
import Mathlib.Algebra.BigOperators.Group.Finset.Basic
import Idealize.ShloMosaic.PureOps.Ideal

noncomputable section

namespace Cert.Hyper

open Idealize.ShloMosaic
open scoped BigOperators

variable {N E C K F : ℕ}

/-- A gather index word with a negative value wrapped once by the extent (what array indexing does before the
    gather clamps). -/
def wrapW (N : ℕ) (w : BitVec 32) : BitVec 32 := if w.slt 0#32 then w + BitVec.ofNat 32 N else w

/-- A word read signed and clamped into [0, N − 1]. -/
def rowOf (hN : 0 < N) (w : BitVec 32) : Fin N := ⟨min w.toInt.toNat (N - 1), by omega⟩

/-- The row a gather reads for the index word w: wrapped, then clamped. -/
def src (hN : 0 < N) (w : BitVec 32) : Fin N := rowOf hN (wrapW N w)

/-- The number of incidences whose word reads r, as an extended real. -/
def deg (idx : Fin E → BitVec 32) (r : Fin N) : EReal :=
  ∑ q ∈ Finset.univ.filter (fun q : Fin E => (idx q).toInt = (r.val : ℤ)), (1 : EReal)

/-- The inverse degree, 0 where the degree is 0. -/
def invDeg (idx : Fin E → BitVec 32) (r : Fin N) : EReal :=
  if 0 < deg idx r then Ideal.div 1 (deg idx r) else 0

/-- Hyperedge j's sum of the rows of its incident nodes. -/
def edgeSum (hN : 0 < N) (ni ei : Fin E → BitVec 32) (v : Fin N → Fin C → EReal) (j : Fin N) (k : Fin C) : EReal :=
  ∑ q ∈ Finset.univ.filter (fun q : Fin E => (ei q).toInt = (j.val : ℤ)), v (src hN (ni q)) k

/-- Node p's sum over its incidences of the hyperedge sums, each TIMES its hyperedge's factor on the right. -/
def propK (hN : 0 < N) (ni ei : Fin E → BitVec 32) (β : Fin N → EReal) (v : Fin N → Fin C → EReal)
    (p : Fin N) (k : Fin C) : EReal :=
  ∑ q ∈ Finset.univ.filter (fun q : Fin E => (ni q).toInt = (p.val : ℤ)),
    edgeSum hN ni ei v (src hN (ei q)) k * β (src hN (ei q))

/-- The same with the factor on the left. -/
def propR (hN : 0 < N) (ni ei : Fin E → BitVec 32) (β : Fin N → EReal) (v : Fin N → Fin C → EReal)
    (p : Fin N) (k : Fin C) : EReal :=
  ∑ q ∈ Finset.univ.filter (fun q : Fin E => (ni q).toInt = (p.val : ℤ)),
    β (src hN (ei q)) * edgeSum hN ni ei v (src hN (ei q)) k

/-- The dense projection a · W, row by row. -/
def mm {M : ℕ} (a : Fin M → Fin K → EReal) (W : Fin K → Fin F → EReal) (p : Fin M) (f : Fin F) : EReal :=
  ∑ k : Fin K, a p k * W k f

/-- The reference's layer: project, propagate (factor on the left), scale by δ on the left, add the bias, relu. -/
def layerRef (hN : 0 < N) (ni ei : Fin E → BitVec 32) (δ β : Fin N → EReal) (x : Fin N → Fin K → EReal)
    (W : Fin K → Fin F → EReal) (b : Fin F → EReal) (p : Fin N) (f : Fin F) : EReal :=
  max (δ p * propR hN ni ei β (mm x W) p f + b f) 0

/-- The kernel's propagate-FIRST layer: propagate (factor on the right), scale by δ on the right, project, add the
    bias, relu. -/
def layerPF (hN : 0 < N) (ni ei : Fin E → BitVec 32) (δ β : Fin N → EReal) (x : Fin N → Fin K → EReal)
    (W : Fin K → Fin F → EReal) (b : Fin F → EReal) (p : Fin N) (f : Fin F) : EReal :=
  max (mm (fun p k => propK hN ni ei β x p k * δ p) W p f + b f) 0

/-- The kernel's project-first layer: project, propagate (factor on the right), scale by δ on the left, add the bias,
    relu. -/
def layerPJ (hN : 0 < N) (ni ei : Fin E → BitVec 32) (δ β : Fin N → EReal) (x : Fin N → Fin K → EReal)
    (W : Fin K → Fin F → EReal) (b : Fin F → EReal) (p : Fin N) (f : Fin F) : EReal :=
  max (δ p * propK hN ni ei β (mm x W) p f + b f) 0

/-- Real-valued: every entry is the image of a real number. -/
def IsReal2 {A B : ℕ} (v : Fin A → Fin B → EReal) : Prop := ∀ a b, ∃ r : ℝ, v a b = (r : EReal)
def IsReal1 {A : ℕ} (v : Fin A → EReal) : Prop := ∀ a, ∃ r : ℝ, v a = (r : EReal)

end Cert.Hyper

end
-- ==== Proof.LibHyperReads.lean ====
/-
  GENERAL LEMMAS: the host operations of a hypergraph propagation, READ AT AN INDEX, landing on the functions of
  HyperSpec.lean. For ANY extents N, E, C (never a literal), on the extended reals, element type f32, index width 32:

  * `scatterAdd_rows_apply`: the accumulating row scatter of updates [E, C] into an operand [N, C] through an index
    column [E, 1], read at (r, k), is the operand entry plus the sum, over the update rows q whose index word reads r
    (signed, not clamped), of the update entry (q, k). The sum over the two-dimensional update index set of the entries
    landing on (r, k) is re-indexed by q ↦ (q, k): an update (q, k') lands on (r, k) exactly when its word reads r and
    k' = k.
  * `scatterAdd_elts_apply`: the same for element updates [E] into an operand [N].
  * `wrap_apply`: the select / compare-with-zero / add-the-extent idiom on index words is `wrapW`.
  * `gather_rows_src`, `gather_elts_src`: a row (element) gather at a column of wrapped words reads row `src` of the
    word (`clamp_wrap_eq_src`: wrapped, then read signed and clamped).
  * `deg_form_apply`, `invDeg_form_apply`: a count by scatter of ones into zeros is `deg`; compared with zero,
    divided into one, with zero elsewhere, it is `invDeg`.
  * `edgeSum_form_apply`, `propK_form_apply`, `propR_form_apply`: gather the node rows at the wrapped node column,
    scatter them by the hyperedge column (the hyperedge sums `edgeSum`), gather those at the wrapped hyperedge column,
    multiply by the hyperedge factor (on the right, after the gather: `propK`; on the left, before it: `propR`) and
    scatter by the node column.
  * `pool_form_apply`: a mean pooling, a row scatter divided by a count by scatter bounded below by one.

  Nothing here needs an entry to be finite: only a finite sum is re-indexed, and 0 + x = x. No axis is enumerated.
-/
import Idealize.ShloMosaic.Lib.ValueIdx
import Idealize.ShloMosaic.PureOps.Ideal.Laws
import proofs.«148780_j25718264168627_2_alg».proof.Proof.LibEdgeReads
import proofs.«148780_j25718264168627_2_alg».proof.Proof.LibCountScatter
import proofs.«148780_j25718264168627_2_alg».proof.Proof.LibPaddedScatter
import proofs.«148780_j25718264168627_2_alg».proof.Proof.HyperSpec

noncomputable section

namespace Cert.HyperReads

open Idealize.ShloMosaic Idealize.ShloMosaic.ValueIdx Cert.LibEdgeReads Cert.Hyper
open scoped BigOperators

/-! ## The accumulating scatters read at an index -/

/-- The accumulating row scatter at (r, k): the operand entry plus the sum over the update rows whose index word
    reads r of their entries in column k. -/
theorem scatterAdd_rows_apply {N E C : ℕ} (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (z : FVec Ideal ⟨2, ![N, C]⟩ .f32) (idx : IVec ⟨2, ![E, 1]⟩ 32) (upd : FVec Ideal ⟨2, ![E, C]⟩ .f32)
    (r : Fin N) (k : Fin C) :
    Host.scatterAdd (F := Ideal) d z idx upd (ix2 r k)
      = z (ix2 r k) + ∑ q ∈ Finset.univ.filter (fun q : Fin E => (idx (ix2 q (0 : Fin 1))).toInt = (r.val : ℤ)),
          upd (ix2 q k) := by
  subst hd
  show z (ix2 r k) + _ = z (ix2 r k) + _
  congr 1
  symm
  refine Finset.sum_nbij' (fun q : Fin E => ix2 q k) (fun j : (⟨2, ![E, C]⟩ : Shape).Idx => j 0) ?_ ?_ ?_ ?_ ?_
  · intro q hq
    rw [Finset.mem_filter] at hq ⊢
    exact ⟨Finset.mem_univ _, (LibPaddedScatter.rows_lands wf idx q k r k).mpr ⟨hq.2, rfl⟩⟩
  · intro j hj
    obtain ⟨q, k', rfl⟩ : ∃ (q : Fin E) (k' : Fin C), j = ix2 q k' := ⟨j 0, j 1, eq_ix2 j⟩
    have hj' := (Finset.mem_filter.mp hj).2
    exact Finset.mem_filter.mpr ⟨Finset.mem_univ _, ((LibPaddedScatter.rows_lands wf idx q k' r k).mp hj').1⟩
  · intro q _
    rfl
  · intro j hj
    obtain ⟨q, k', rfl⟩ : ∃ (q : Fin E) (k' : Fin C), j = ix2 q k' := ⟨j 0, j 1, eq_ix2 j⟩
    rw [Finset.mem_filter] at hj
    have hk : k' = k := ((LibPaddedScatter.rows_lands wf idx q k' r k).mp hj.2).2
    subst hk
    rfl
  · intro q _
    rfl

/-- The accumulating element scatter at r: the operand entry plus the sum of the updates whose index word reads r. -/
theorem scatterAdd_elts_apply {N E : ℕ} (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = Cert.LibCountScatter.dRow wf)
    (z : FVec Ideal ⟨1, ![N]⟩ .f32) (idx : IVec ⟨2, ![E, 1]⟩ 32) (upd : FVec Ideal ⟨1, ![E]⟩ .f32) (r : Fin N) :
    Host.scatterAdd (F := Ideal) d z idx upd (ix1 r)
      = z (ix1 r) + ∑ q ∈ Finset.univ.filter (fun q : Fin E => (idx (ix2 q (0 : Fin 1))).toInt = (r.val : ℤ)),
          upd (ix1 q) := by
  subst hd
  show z (ix1 r) + _ = z (ix1 r) + _
  congr 1
  symm
  refine Finset.sum_nbij' (fun q : Fin E => ix1 q) (fun j : (⟨1, ![E]⟩ : Shape).Idx => j 0) ?_ ?_ ?_ ?_ ?_
  · intro q hq
    rw [Finset.mem_filter] at hq ⊢
    exact ⟨Finset.mem_univ _, (LibCountScatter.row_lands wf idx q r).mpr hq.2⟩
  · intro j hj
    obtain ⟨q, rfl⟩ : ∃ q : Fin E, j = ix1 q := ⟨j 0, eq_ix1 j⟩
    have hj' := (Finset.mem_filter.mp hj).2
    exact Finset.mem_filter.mpr ⟨Finset.mem_univ _, (LibCountScatter.row_lands wf idx q r).mp hj'⟩
  · intro q _
    rfl
  · intro j _
    exact (eq_ix1 j).symm
  · intro q _
    rfl

/-! ## The wrap of a negative index word -/

/-- Select, on "the word is negative", the word plus the extent, else the word: `wrapW`. -/
theorem wrap_apply {E : ℕ} (n : ℕ) (v zero ext : IVec ⟨1, ![E]⟩ 32) (hz : ∀ i, zero i = 0#32)
    (hn : ∀ i, ext i = BitVec.ofNat 32 n) (q : Fin E) :
    select (cmpi .slt v zero) (addi v ext) v (ix1 q) = wrapW n (v (ix1 q)) := by
  show Scalar.select (IntOp.cmpi .slt (v (ix1 q)) (zero (ix1 q))) (IntOp.addi (v (ix1 q)) (ext (ix1 q))) (v (ix1 q)) = _
  rw [hz, hn]
  unfold wrapW Scalar.select IntOp.cmpi IntOp.addi
  cases h : (v (ix1 q)).slt 0#32 <;> simp

/-! ## A gather at a wrapped column reads row `src` of the word -/

section Propagation
variable {N E C : ℕ}

/-- The row a gather reads at a wrapped word is `src` of the word. -/
theorem clamp_wrap_eq_src (hN : 0 < N) (w w' : BitVec 32) (hw : w' = wrapW N w)
    (hlt : min w'.toInt.toNat (N - 1) < N) : (⟨min w'.toInt.toNat (N - 1), hlt⟩ : Fin N) = src hN w := by
  subst hw
  rfl

/-- The row gather at a column of wrapped words, at (q, k): the operand at row `src` of the q-th word, column k. -/
theorem gather_rows_src (hN : 0 < N)
    (wfG : GatherDims.WF ⟨2, ![N, C]⟩ ⟨2, ![E, 1]⟩ ⟨2, ![E, C]⟩ [1] [0] [] [0] [] 1 ![1, C])
    (dG : GatherDims ⟨2, ![N, C]⟩ ⟨2, ![E, 1]⟩ ⟨2, ![E, C]⟩) (hG : dG = rowGatherDims N E C wfG)
    (x : FVec Ideal ⟨2, ![N, C]⟩ .f32) (col wcol : IVec ⟨2, ![E, 1]⟩ 32) (q : Fin E)
    (hw : wcol (ix2 q (0 : Fin 1)) = wrapW N (col (ix2 q (0 : Fin 1)))) (k : Fin C) :
    Host.gather dG x wcol (ix2 q k) = x (ix2 (src hN (col (ix2 q (0 : Fin 1)))) k) := by
  rw [gather_rows_apply hN wfG dG hG]
  exact congrArg (fun a : Fin N => x (ix2 a k)) (clamp_wrap_eq_src hN _ _ hw _)

/-- The element gather at a column of wrapped words, at q: the operand at `src` of the q-th word. -/
theorem gather_elts_src (hN : 0 < N)
    (wfg : GatherDims.WF ⟨1, ![N]⟩ ⟨2, ![E, 1]⟩ ⟨1, ![E]⟩ [] [0] [] [0] [] 1 ![1])
    (dg : GatherDims ⟨1, ![N]⟩ ⟨2, ![E, 1]⟩ ⟨1, ![E]⟩) (hg : dg = eltGatherDims N E wfg)
    (x : FVec Ideal ⟨1, ![N]⟩ .f32) (col wcol : IVec ⟨2, ![E, 1]⟩ 32) (q : Fin E)
    (hw : wcol (ix2 q (0 : Fin 1)) = wrapW N (col (ix2 q (0 : Fin 1)))) :
    Host.gather dg x wcol (ix1 q) = x (ix1 (src hN (col (ix2 q (0 : Fin 1))))) := by
  rw [gather_elts_apply hN wfg dg hg]
  exact congrArg (fun a : Fin N => x (ix1 a)) (clamp_wrap_eq_src hN _ _ hw _)

/-! ## The propagation -/

/-- The hyperedge sums: gather the node rows at the wrapped node column, scatter them by the hyperedge column into
    zeros. At (j, k) this is `edgeSum`. -/
theorem edgeSum_form_apply (hN : 0 < N)
    (wfS : ScatterDims.WF ⟨2, ![N, C]⟩ ⟨2, ![E, 1]⟩ ⟨2, ![E, C]⟩ [1] [0] [0] 1)
    (dS : ScatterDims ⟨2, ![N, C]⟩ ⟨2, ![E, 1]⟩ ⟨2, ![E, C]⟩) (hS : dS = rowScatterDims N E C wfS)
    (wfG : GatherDims.WF ⟨2, ![N, C]⟩ ⟨2, ![E, 1]⟩ ⟨2, ![E, C]⟩ [1] [0] [] [0] [] 1 ![1, C])
    (dG : GatherDims ⟨2, ![N, C]⟩ ⟨2, ![E, 1]⟩ ⟨2, ![E, C]⟩) (hG : dG = rowGatherDims N E C wfG)
    (z : FVec Ideal ⟨2, ![N, C]⟩ .f32) (hz : ∀ i, z i = 0) (v : FVec Ideal ⟨2, ![N, C]⟩ .f32)
    (ncol ecol nwcol : IVec ⟨2, ![E, 1]⟩ 32)
    (hnw : ∀ q : Fin E, nwcol (ix2 q (0 : Fin 1)) = wrapW N (ncol (ix2 q (0 : Fin 1))))
    (j : Fin N) (k : Fin C) :
    Host.scatterAdd (F := Ideal) dS z ecol (Host.gather dG v nwcol) (ix2 j k)
      = edgeSum hN (fun q : Fin E => ncol (ix2 q (0 : Fin 1))) (fun q : Fin E => ecol (ix2 q (0 : Fin 1)))
          (fun (r : Fin N) (k : Fin C) => v (ix2 r k)) j k := by
  rw [scatterAdd_rows_apply wfS dS hS, hz, zero_add]
  unfold edgeSum
  refine Finset.sum_congr rfl (fun q _ => ?_)
  exact gather_rows_src hN wfG dG hG v ncol nwcol q (hnw q) k

/-- The propagation with the hyperedge factor multiplied on the right AFTER the gather of the hyperedge sums. -/
theorem propK_form_apply (hN : 0 < N)
    (wfS : ScatterDims.WF ⟨2, ![N, C]⟩ ⟨2, ![E, 1]⟩ ⟨2, ![E, C]⟩ [1] [0] [0] 1)
    (dS : ScatterDims ⟨2, ![N, C]⟩ ⟨2, ![E, 1]⟩ ⟨2, ![E, C]⟩) (hS : dS = rowScatterDims N E C wfS)
    (wfG : GatherDims.WF ⟨2, ![N, C]⟩ ⟨2, ![E, 1]⟩ ⟨2, ![E, C]⟩ [1] [0] [] [0] [] 1 ![1, C])
    (dG : GatherDims ⟨2, ![N, C]⟩ ⟨2, ![E, 1]⟩ ⟨2, ![E, C]⟩) (hG : dG = rowGatherDims N E C wfG)
    (wfg : GatherDims.WF ⟨1, ![N]⟩ ⟨2, ![E, 1]⟩ ⟨1, ![E]⟩ [] [0] [] [0] [] 1 ![1])
    (dg : GatherDims ⟨1, ![N]⟩ ⟨2, ![E, 1]⟩ ⟨1, ![E]⟩) (hg : dg = eltGatherDims N E wfg)
    (z : FVec Ideal ⟨2, ![N, C]⟩ .f32) (hz : ∀ i, z i = 0) (v : FVec Ideal ⟨2, ![N, C]⟩ .f32)
    (β : FVec Ideal ⟨1, ![N]⟩ .f32)
    (ncol ecol nwcol ewcol : IVec ⟨2, ![E, 1]⟩ 32)
    (hnw : ∀ q : Fin E, nwcol (ix2 q (0 : Fin 1)) = wrapW N (ncol (ix2 q (0 : Fin 1))))
    (hew : ∀ q : Fin E, ewcol (ix2 q (0 : Fin 1)) = wrapW N (ecol (ix2 q (0 : Fin 1))))
    (BB : FVec Ideal ⟨2, ![E, C]⟩ .f32)
    (hBB : ∀ (q : Fin E) (k : Fin C), BB (ix2 q k) = Host.gather dg β ewcol (ix1 q)) (p : Fin N) (k : Fin C) :
    Host.scatterAdd (F := Ideal) dS z ncol
        (mulf (Host.gather dG (Host.scatterAdd (F := Ideal) dS z ecol (Host.gather dG v nwcol)) ewcol) BB) (ix2 p k)
      = propK hN (fun q : Fin E => ncol (ix2 q (0 : Fin 1))) (fun q : Fin E => ecol (ix2 q (0 : Fin 1)))
          (fun r : Fin N => β (ix1 r)) (fun (r : Fin N) (k : Fin C) => v (ix2 r k)) p k := by
  rw [scatterAdd_rows_apply wfS dS hS, hz, zero_add]
  unfold propK
  refine Finset.sum_congr rfl (fun q _ => ?_)
  rw [mulf_apply, gather_rows_src hN wfG dG hG _ ecol ewcol q (hew q), hBB,
    gather_elts_src hN wfg dg hg β ecol ewcol q (hew q)]
  exact congrArg₂ (· * ·)
    (edgeSum_form_apply hN wfS dS hS wfG dG hG z hz v ncol ecol nwcol hnw (src hN (ecol (ix2 q (0 : Fin 1)))) k) rfl

/-- The propagation with the hyperedge factor multiplied on the left BEFORE the gather of the hyperedge sums. -/
theorem propR_form_apply (hN : 0 < N)
    (wfS : ScatterDims.WF ⟨2, ![N, C]⟩ ⟨2, ![E, 1]⟩ ⟨2, ![E, C]⟩ [1] [0] [0] 1)
    (dS : ScatterDims ⟨2, ![N, C]⟩ ⟨2, ![E, 1]⟩ ⟨2, ![E, C]⟩) (hS : dS = rowScatterDims N E C wfS)
    (wfG : GatherDims.WF ⟨2, ![N, C]⟩ ⟨2, ![E, 1]⟩ ⟨2, ![E, C]⟩ [1] [0] [] [0] [] 1 ![1, C])
    (dG : GatherDims ⟨2, ![N, C]⟩ ⟨2, ![E, 1]⟩ ⟨2, ![E, C]⟩) (hG : dG = rowGatherDims N E C wfG)
    (z : FVec Ideal ⟨2, ![N, C]⟩ .f32) (hz : ∀ i, z i = 0) (v : FVec Ideal ⟨2, ![N, C]⟩ .f32)
    (β : FVec Ideal ⟨1, ![N]⟩ .f32)
    (ncol ecol nwcol ewcol : IVec ⟨2, ![E, 1]⟩ 32)
    (hnw : ∀ q : Fin E, nwcol (ix2 q (0 : Fin 1)) = wrapW N (ncol (ix2 q (0 : Fin 1))))
    (hew : ∀ q : Fin E, ewcol (ix2 q (0 : Fin 1)) = wrapW N (ecol (ix2 q (0 : Fin 1))))
    (BBB : FVec Ideal ⟨2, ![N, C]⟩ .f32)
    (hBBB : ∀ (j : Fin N) (k : Fin C), BBB (ix2 j k) = β (ix1 j)) (p : Fin N) (k : Fin C) :
    Host.scatterAdd (F := Ideal) dS z ncol
        (Host.gather dG (mulf BBB (Host.scatterAdd (F := Ideal) dS z ecol (Host.gather dG v nwcol))) ewcol) (ix2 p k)
      = propR hN (fun q : Fin E => ncol (ix2 q (0 : Fin 1))) (fun q : Fin E => ecol (ix2 q (0 : Fin 1)))
          (fun r : Fin N => β (ix1 r)) (fun (r : Fin N) (k : Fin C) => v (ix2 r k)) p k := by
  rw [scatterAdd_rows_apply wfS dS hS, hz, zero_add]
  unfold propR
  refine Finset.sum_congr rfl (fun q _ => ?_)
  rw [gather_rows_src hN wfG dG hG _ ecol ewcol q (hew q), mulf_apply, hBBB]
  exact congrArg₂ (· * ·) rfl
    (edgeSum_form_apply hN wfS dS hS wfG dG hG z hz v ncol ecol nwcol hnw (src hN (ecol (ix2 q (0 : Fin 1)))) k)

end Propagation

/-! ## The inverse degree -/

/-- A count by scatter of ones into zeros is the degree. -/
theorem deg_form_apply {N E : ℕ} (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = Cert.LibCountScatter.dRow wf)
    (z : FVec Ideal ⟨1, ![N]⟩ .f32) (ones : FVec Ideal ⟨1, ![E]⟩ .f32) (hz : ∀ i, z i = 0)
    (hones : ∀ i, ones i = 1) (idx : IVec ⟨2, ![E, 1]⟩ 32) (r : Fin N) :
    Host.scatterAdd (F := Ideal) d z idx ones (ix1 r) = deg (fun q : Fin E => idx (ix2 q (0 : Fin 1))) r := by
  rw [scatterAdd_elts_apply wf d hd, hz, zero_add]
  unfold deg
  exact Finset.sum_congr rfl (fun q _ => hones _)

/-- One over the count where the count is positive, zero elsewhere: `invDeg`. -/
theorem invDeg_form_apply {N E : ℕ} (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = Cert.LibCountScatter.dRow wf)
    (z : FVec Ideal ⟨1, ![N]⟩ .f32) (ones : FVec Ideal ⟨1, ![E]⟩ .f32)
    (zero' one' zz : FVec Ideal ⟨1, ![N]⟩ .f32) (hz : ∀ i, z i = 0) (hones : ∀ i, ones i = 1)
    (hzero' : ∀ i, zero' i = 0) (hone' : ∀ i, one' i = 1) (hzz : ∀ i, zz i = 0)
    (idx : IVec ⟨2, ![E, 1]⟩ 32) (r : Fin N) :
    select (cmpf .ogt (Host.scatterAdd (F := Ideal) d z idx ones) zero')
        (Host.divf (F := Ideal) one' (Host.scatterAdd (F := Ideal) d z idx ones)) zz (ix1 r)
      = invDeg (fun q : Fin E => idx (ix2 q (0 : Fin 1))) r := by
  show Scalar.select (Ideal.cmp .ogt (Host.scatterAdd (F := Ideal) d z idx ones (ix1 r)) (zero' (ix1 r)))
      (Ideal.div (one' (ix1 r)) (Host.scatterAdd (F := Ideal) d z idx ones (ix1 r))) (zz (ix1 r)) = _
  rw [deg_form_apply wf d hd z ones hz hones, hzero', hone', hzz]
  unfold invDeg Scalar.select Ideal.cmp
  by_cases h : 0 < deg (fun q : Fin E => idx (ix2 q (0 : Fin 1))) r <;> simp [h]

/-! ## The mean pooling -/

/-- A row scatter into zeros divided by a count by scatter bounded below by one. -/
theorem pool_form_apply {N G C : ℕ}
    (wf : ScatterDims.WF ⟨2, ![G, C]⟩ ⟨2, ![N, 1]⟩ ⟨2, ![N, C]⟩ [1] [0] [0] 1)
    (dS : ScatterDims ⟨2, ![G, C]⟩ ⟨2, ![N, 1]⟩ ⟨2, ![N, C]⟩) (hS : dS = rowScatterDims G N C wf)
    (wf' : ScatterDims.WF ⟨1, ![G]⟩ ⟨2, ![N, 1]⟩ ⟨1, ![N]⟩ [] [0] [0] 1)
    (dc : ScatterDims ⟨1, ![G]⟩ ⟨2, ![N, 1]⟩ ⟨1, ![N]⟩) (hc : dc = Cert.LibCountScatter.dRow wf')
    (z : FVec Ideal ⟨2, ![G, C]⟩ .f32) (hz : ∀ i, z i = 0)
    (zc : FVec Ideal ⟨1, ![G]⟩ .f32) (hzc : ∀ i, zc i = 0)
    (ones : FVec Ideal ⟨1, ![N]⟩ .f32) (hones : ∀ i, ones i = 1)
    (one' : FVec Ideal ⟨1, ![G]⟩ .f32) (hone' : ∀ i, one' i = 1)
    (bcol : IVec ⟨2, ![N, 1]⟩ 32) (h : FVec Ideal ⟨2, ![N, C]⟩ .f32)
    (DD : FVec Ideal ⟨2, ![G, C]⟩ .f32)
    (hDD : ∀ (g : Fin G) (k : Fin C),
      DD (ix2 g k) = maximumf (Host.scatterAdd (F := Ideal) dc zc bcol ones) one' (ix1 g))
    (g : Fin G) (k : Fin C) :
    Host.divf (F := Ideal) (Host.scatterAdd (F := Ideal) dS z bcol h) DD (ix2 g k)
      = Ideal.div
          (∑ q ∈ Finset.univ.filter (fun q : Fin N => (bcol (ix2 q (0 : Fin 1))).toInt = (g.val : ℤ)), h (ix2 q k))
          (max (∑ q ∈ Finset.univ.filter (fun q : Fin N => (bcol (ix2 q (0 : Fin 1))).toInt = (g.val : ℤ)),
            (1 : EReal)) 1) := by
  have hs : ∑ q ∈ Finset.univ.filter (fun q : Fin N => (bcol (ix2 q (0 : Fin 1))).toInt = (g.val : ℤ)), ones (ix1 q)
      = ∑ q ∈ Finset.univ.filter (fun q : Fin N => (bcol (ix2 q (0 : Fin 1))).toInt = (g.val : ℤ)), (1 : EReal) :=
    Finset.sum_congr rfl (fun q _ => hones _)
  show Ideal.div (Host.scatterAdd (F := Ideal) dS z bcol h (ix2 g k)) (DD (ix2 g k)) = _
  rw [hDD, maximumf_apply, scatterAdd_rows_apply wf dS hS, scatterAdd_elts_apply wf' dc hc, hz, hzc, zero_add,
    zero_add, hone', hs]

end Cert.HyperReads

end
-- ==== Proof.LibAxisReads.lean ====
/-
  Broadcasts of scalars, vectors, rows and columns, and sums over either axis of a matrix, read at an index on the
  extended reals, for any extents.

  * A scalar (a rank-0 array) broadcast to any shape reads, at every index, its one entry; a constant scalar reads the
    value its word denotes.
  * A vector [a] made a column [a, 1] reads its entry of the row; a column [a, 1] spread over c columns reads the
    column's entry of the row. A vector [b] made a row [1, b] reads its entry of the column; a row [1, b] spread over
    a rows reads the row's entry of the column. (The host's `broadcast_in_dim` spellings: what `jnp.mean(axis=0)`,
    `jnp.var`, a bias add and a softmax's keepdims print as.)
  * A host sum of an [a, b] matrix over its first axis reads, at column e, the initial value plus the sum of the
    column's entries; over its last axis, at row i, the initial value plus the sum of the row's entries: the index
    with the summed coordinate put back is (r, e), respectively (i, f).
  * A vector sum (`multi_reduction <add>`) over the LEADING axis of an [a, b] matrix reads, at column e, the sum of
    that column (the accumulator word being the sum's neutral element, no initial term appears).
-/
import Idealize.ShloMosaic.Lib.ValueIdx
import Idealize.ShloMosaic.Lib.Pipeline.Value
import Idealize.ShloMosaic.PureOps.Ideal.Laws

noncomputable section

open scoped BigOperators

namespace Cert.LibAxisReads

open Idealize.ShloMosaic Idealize.ShloMosaic.ValueIdx

variable {α : Type}

/-- A rank-0 array broadcast to any shape reads its one entry everywhere. -/
theorem scalar_broadcast_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A constant scalar broadcast to any shape reads, at every index, the value the constant's word denotes. -/
theorem const_broadcast_apply {t : Shape} {φ : FTy} (dims : Fin 0 → Fin t.rank) (h : (⟨0, ![]⟩ : Shape).BroadcastsInDim t dims)
    (b : BitVec φ.bits) (j : t.Idx) :
    broadcastInDim t dims h (constant (F := Ideal) ⟨0, ![]⟩ φ b) j = Ideal.ofBits φ b :=
  scalar_broadcast_apply dims h _ j

/-- A vector [a] made a column [a, 1] reads, at (r, u), the vector at r. -/
theorem vec_column_apply {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) :=
  broadcastInDim_apply ![0] h v (ix2 r u) (ix1 r) (fun d => by
    match d with
    | ⟨0, _⟩ =>
      show r.val = if a = 1 then 0 else r.val
      split
      · have := r.isLt; omega
      · rfl)

/-- A vector [b] made a row [1, b] reads, at (u, e), the vector at e. -/
theorem vec_row_apply {b : ℕ} (v : (⟨1, ![b]⟩ : Shape).Idx → α)
    (h : (⟨1, ![b]⟩ : Shape).BroadcastsInDim ⟨2, ![1, b]⟩ ![1]) (u : Fin 1) (e : Fin b) :
    broadcastInDim ⟨2, ![1, b]⟩ ![1] h v (ix2 u e) = v (ix1 e) :=
  broadcastInDim_apply ![1] h v (ix2 u e) (ix1 e) (fun d => by
    match d with
    | ⟨0, _⟩ =>
      show e.val = if b = 1 then 0 else e.val
      split
      · have := e.isLt; omega
      · rfl)

/-- A row [1, b] spread over a rows reads, at (r, e), the row's entry of column e. -/
theorem row_spread_apply {a b : ℕ} (v : (⟨2, ![1, b]⟩ : Shape).Idx → α)
    (h : (⟨2, ![1, b]⟩ : Shape).BroadcastsInDim ⟨2, ![a, b]⟩ ![0, 1]) (r : Fin a) (e : Fin b) :
    broadcastInDim ⟨2, ![a, b]⟩ ![0, 1] h v (ix2 r e) = v (ix2 (0 : Fin 1) e) :=
  broadcastInDim_apply ![0, 1] h v (ix2 r e) (ix2 (0 : Fin 1) e) (fun d => by
    match d with
    | ⟨0, _⟩ =>
      show (0 : ℕ) = if (1 : ℕ) = 1 then 0 else r.val
      rw [if_pos rfl]
    | ⟨1, _⟩ =>
      show e.val = if b = 1 then 0 else e.val
      split
      · have := e.isLt; omega
      · rfl)

/-- A column [a, 1] spread over c columns reads, at (r, e), the column's entry of row r. -/
theorem column_spread_apply {a c : ℕ} (v : (⟨2, ![a, 1]⟩ : Shape).Idx → α)
    (h : (⟨2, ![a, 1]⟩ : Shape).BroadcastsInDim ⟨2, ![a, c]⟩ ![0, 1]) (r : Fin a) (e : Fin c) :
    broadcastInDim ⟨2, ![a, c]⟩ ![0, 1] h v (ix2 r e) = v (ix2 r (0 : Fin 1)) :=
  broadcastInDim_apply ![0, 1] h v (ix2 r e) (ix2 r (0 : Fin 1)) (fun d => by
    match d with
    | ⟨0, _⟩ =>
      show r.val = if a = 1 then 0 else r.val
      split
      · have := r.isLt; omega
      · rfl
    | ⟨1, _⟩ =>
      show (0 : ℕ) = if (1 : ℕ) = 1 then 0 else e.val
      rw [if_pos rfl])

/-- A host sum over the first axis of an [a, b] matrix reads, at column e, the initial value plus the sum of the
    column's entries. -/
theorem hostReduceAdd_firstAxis_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (e : Fin b) :
    Host.reduceAdd (F := Ideal) x init h' hu (ix1 e) = init (Shape.Idx.first hu) + ∑ r : Fin a, x (ix2 r e) := by
  refine (Ideal.hostReduceAdd_single h' h x (init (Shape.Idx.first hu)) (ix1 e)).trans ?_
  refine congrArg (fun z => init (Shape.Idx.first hu) + z) ?_
  exact Finset.sum_congr rfl fun r _ => congrArg x (funext fun d => Fin.ext (by
    match d with
    | ⟨0, _⟩ => rfl
    | ⟨1, _⟩ => rfl))

/-- A host sum over the last axis of an [a, b] matrix reads, at row i, the initial value plus the sum of the row's
    entries. -/
theorem hostReduceAdd_lastAxis_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd (F := Ideal) x init h' hu (ix1 i) = init (Shape.Idx.first hu) + ∑ f : Fin b, x (ix2 i f) := by
  refine (Ideal.hostReduceAdd_single h' h x (init (Shape.Idx.first hu)) (ix1 i)).trans ?_
  refine congrArg (fun z => init (Shape.Idx.first hu) + z) ?_
  exact Finset.sum_congr rfl fun f _ => congrArg x (funext fun d => Fin.ext (by
    match d with
    | ⟨0, _⟩ => rfl
    | ⟨1, _⟩ => rfl))

/-- On the extended reals a vector sum over the leading axis of an `[a, b]` matrix reads, at column `e`, the sum of
    that column's entries: the index over `e` with coordinate `r` put back on the summed axis is `(r, e)`. -/
theorem multiReduction_add_firstAxis_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (e : Fin b) :
    multiReduction .add [0] ⟨1, ![b]⟩ src acc h hφ hacc (ix1 e) = ∑ r : Fin a, src (ix2 r e) := by
  refine (Ideal.multiReduction_add_single src acc h hφ hacc (ix1 e)).trans ?_
  exact Finset.sum_congr rfl fun r _ => congrArg src (funext fun d => Fin.ext (by
    match d with
    | ⟨0, _⟩ => rfl
    | ⟨1, _⟩ => rfl))

end Cert.LibAxisReads

end
-- ==== Proof.KRead.lean ====
/-
  The kernel program's named host pieces, READ AT AN INDEX, landing on the functions of the mathematics.

  Each piece is a fixed composition of host operations at this program's literal extents (50000 nodes and hyperedges,
  400000 incidences, feature widths 128, 256 and 512, 1024 graphs). Reading it at an index uses the general forms for
  any extents: an index row made a column reads the row's entry; the select / compare / add idiom on index words is
  the wrap of a negative word by the extent; a constant word broadcast to any shape reads the value the word denotes
  (0 or 1 here); a count by scatter of ones, inverted where positive, is the inverse degree; gather, scatter, gather,
  multiply, scatter is one propagation with the hyperedge factor on the right. A layer is then one of the launched
  blocks (scale-project-bias-relu, or project followed by scale-bias-relu) applied to a propagation, which is the
  layer of the mathematics with the projection last, respectively first. Nothing here enumerates an axis.
-/
import Idealize.ShloMosaic.Lib.ValueIdx
import Idealize.ShloMosaic.Lib.IdealHost
import Idealize.ShloMosaic.Lib.Pipeline.Value
import Idealize.ShloMosaic.PureOps.Ideal.Laws
import proofs.«148780_j25718264168627_2_alg».proof.Proof.KDefs
import proofs.«148780_j25718264168627_2_alg».proof.Proof.LibHyperReads
import proofs.«148780_j25718264168627_2_alg».proof.Proof.LibAxisReads
import proofs.«148780_j25718264168627_2_alg».proof.Proof.HyperSpec
import proofs.«148780_j25718264168627_2_alg».proof.Proof.RegionSpec

noncomputable section

namespace Cert.KernelIdeal.Read

open Cert.KernelIdeal Cert.KernelIdeal.Facts₀ Cert.KernelIdeal.Facts Cert.KernelIdeal.Terms
open Idealize.ShloMosaic Idealize.ShloMosaic.ValueIdx Cert.Hyper Cert.HyperReads Cert.LibAxisReads Cert.LibEdgeReads
open scoped BigOperators

/-- The one proof that the node extent is positive. -/
theorem hN : 0 < 50000 := by norm_num

/-- The node words of the incidences, as a function of the incidence. -/
def niF (a1 : IA S2x400000) : Fin 400000 → BitVec 32 := fun q => colI (nI a1) (ix2 q (0 : Fin 1))
/-- The hyperedge words of the incidences. -/
def eiF (a1 : IA S2x400000) : Fin 400000 → BitVec 32 := fun q => colI (eI a1) (ix2 q (0 : Fin 1))

/-! ## Constants, columns, rows, the wrap -/

/-- The zero word broadcast to any shape reads 0. -/
theorem zeroF_apply {t : Shape} (h : S_.BroadcastsInDim t (![] : Fin 0 → Fin t.rank)) (j : t.Idx) :
    broadcastInDim t ![] h (constant (F := Ideal) S_ .f32 0x00000000#32) j = 0 :=
  (const_broadcast_apply _ h _ j).trans Ideal.ofBits_zero_f32

/-- The word of one broadcast to any shape reads 1. -/
theorem oneF_apply {t : Shape} (h : S_.BroadcastsInDim t (![] : Fin 0 → Fin t.rank)) (j : t.Idx) :
    broadcastInDim t ![] h (constant (F := Ideal) S_ .f32 0x3F800000#32) j = 1 :=
  (const_broadcast_apply _ h _ j).trans Ideal.ofBits_one_f32

/-- An index row as a column reads the row's entry. -/
theorem colI_apply (v : IA S400000) (q : Fin 400000) : colI v (ix2 q (0 : Fin 1)) = v (ix1 q) :=
  vec_column_apply v bcast_S400000_S400000x1_0 q 0

/-- The wrapped index row reads the wrap of the row's word. -/
theorem wrapI_apply (v : IA S400000) (q : Fin 400000) : wrapI v (ix1 q) = wrapW 50000 (v (ix1 q)) :=
  wrap_apply 50000 v _ _ (fun i => scalar_broadcast_apply _ bcast_S_S400000 _ i)
    (fun i => scalar_broadcast_apply _ bcast_S_S400000 _ i) q

/-- A vector recast as a column reads its entry of the row. -/
theorem cast_column_apply {a : ℕ} (d : (⟨1, ![a]⟩ : Shape).Idx → EReal)
    (h : (⟨1, ![a]⟩ : Shape).ShapeCasts ⟨2, ![a, 1]⟩) (r : Fin a) :
    shapeCast ⟨2, ![a, 1]⟩ d h (ix2 r (0 : Fin 1)) = d (ix1 r) :=
  shapeCast_apply d h (ix2 r (0 : Fin 1)) (ix1 r) (by
    rw [Shape.rowMajor_val_two, Shape.rowMajor_val_one]; show r.val = r.val * 1 + 0; omega)

/-- A vector recast as one row reads its entry of the column. -/
theorem cast_row_apply {b : ℕ} (v : (⟨1, ![b]⟩ : Shape).Idx → EReal)
    (h : (⟨1, ![b]⟩ : Shape).ShapeCasts ⟨2, ![1, b]⟩) (e : Fin b) :
    shapeCast ⟨2, ![1, b]⟩ v h (ix2 (0 : Fin 1) e) = v (ix1 e) :=
  shapeCast_apply v h (ix2 (0 : Fin 1) e) (ix1 e) (by
    rw [Shape.rowMajor_val_two, Shape.rowMajor_val_one]; show e.val = 0 * b + e.val; omega)

/-! ## The inverse degree and the propagation -/

theorem invD_apply (col : IA S400000x1) (r : Fin 50000) :
    invD col (ix1 r) = invDeg (fun q : Fin 400000 => col (ix2 q (0 : Fin 1))) r := by
  unfold invD
  exact invDeg_form_apply (N := 50000) (E := 400000) scatter_S50000_S400000x1_S400000_n_0_0_1_wf
    scatter_S50000_S400000x1_S400000_n_0_0_1 rfl _ _ _ _ _
    (fun i => zeroF_apply bcast_S_S50000 i) (fun i => oneF_apply bcast_S_S400000 i)
    (fun i => zeroF_apply bcast_S_S50000 i) (fun i => oneF_apply bcast_S_S50000 i)
    (fun i => zeroF_apply bcast_S_S50000 i) col r

theorem propKf128_apply (V : FA S50000x128) (nv ev : IA S400000) (bd : FA S50000) (p : Fin 50000) (k : Fin 128) :
    propKf128 V nv ev bd (ix2 p k)
      = propK hN (fun q : Fin 400000 => colI nv (ix2 q (0 : Fin 1))) (fun q : Fin 400000 => colI ev (ix2 q (0 : Fin 1)))
          (fun r : Fin 50000 => bd (ix1 r)) (fun (r : Fin 50000) (k : Fin 128) => V (ix2 r k)) p k := by
  unfold propKf128
  exact propK_form_apply (N := 50000) (E := 400000) (C := 128) hN
    scatter_S50000x128_S400000x1_S400000x128_1_0_0_1_wf scatter_S50000x128_S400000x1_S400000x128_1_0_0_1 rfl
    gather_S50000x128_S400000x1_S400000x128_1_0_n_n_0_1_1128_wf
    gather_S50000x128_S400000x1_S400000x128_1_0_n_n_0_1_1128 rfl
    gather_S50000_S400000x1_S400000_n_0_n_n_0_1_1_wf gather_S50000_S400000x1_S400000_n_0_n_n_0_1_1 rfl
    _ (fun i => zeroF_apply bcast_S_S50000x128 i) V bd (colI nv) (colI ev) (colI (wrapI nv)) (colI (wrapI ev))
    (fun q => by rw [colI_apply, colI_apply, wrapI_apply])
    (fun q => by rw [colI_apply, colI_apply, wrapI_apply])
    _ (fun q k => (column_spread_apply _ bcast_S400000x1_S400000x128_0_1 q k).trans
        (vec_column_apply _ bcast_S400000_S400000x1_0 q 0)) p k

/-! ## The layers -/

/-- The hyperedge factor the program passes to a propagation is the inverse degree of the hyperedge words. -/
theorem betaK_eq (a1 : IA S2x400000) :
    (fun r : Fin 50000 => invD (colI (eI a1)) (ix1 r)) = invDeg (eiF a1) :=
  funext (fun r => invD_apply (colI (eI a1)) r)

/-- The per-node factor column reads the inverse degree of the node words. -/
theorem deltaK_apply (a1 : IA S2x400000) (p : Fin 50000) :
    colF (invD (colI (nI a1))) (ix2 p (0 : Fin 1)) = invDeg (niF a1) p :=
  (cast_column_apply _ shapeCasts_S50000_S50000x1 p).trans (invD_apply (colI (nI a1)) p)

theorem layer1K_apply (a0 : FA S50000x128) (a1 : IA S2x400000) (a3 : FA S128x256) (a4 : FA S256) (p : Fin 50000)
    (f : Fin 256) :
    gScaleProj (M := 50000) (K := 128) (F := 256) (propKf128 a0 (nI a1) (eI a1) (invD (colI (eI a1))))
        (colF (invD (colI (nI a1)))) a3 (row256 a4) (ix2 p f)
      = layerPF hN (niF a1) (eiF a1) (invDeg (niF a1)) (invDeg (eiF a1))
          (fun (r : Fin 50000) (k : Fin 128) => a0 (ix2 r k)) (fun (k : Fin 128) (f : Fin 256) => a3 (ix2 k f))
          (fun f : Fin 256 => a4 (ix1 f)) p f := by
  rw [gScaleProj_apply, deltaK_apply]
  have hb : row256 a4 (ix2 (0 : Fin 1) f) = a4 (ix1 f) := cast_row_apply a4 shapeCasts_S256_S1x256 f
  rw [hb]
  unfold layerPF mm
  refine congrArg (fun t => max (t + a4 (ix1 f)) 0) (Finset.sum_congr rfl (fun k _ => ?_))
  rw [propKf128_apply, betaK_eq]
  rfl

theorem propKf256_apply (V : FA S50000x256) (nv ev : IA S400000) (bd : FA S50000) (p : Fin 50000) (k : Fin 256) :
    propKf256 V nv ev bd (ix2 p k)
      = propK hN (fun q : Fin 400000 => colI nv (ix2 q (0 : Fin 1))) (fun q : Fin 400000 => colI ev (ix2 q (0 : Fin 1)))
          (fun r : Fin 50000 => bd (ix1 r)) (fun (r : Fin 50000) (k : Fin 256) => V (ix2 r k)) p k := by
  unfold propKf256
  exact propK_form_apply (N := 50000) (E := 400000) (C := 256) hN
    scatter_S50000x256_S400000x1_S400000x256_1_0_0_1_wf scatter_S50000x256_S400000x1_S400000x256_1_0_0_1 rfl
    gather_S50000x256_S400000x1_S400000x256_1_0_n_n_0_1_1256_wf
    gather_S50000x256_S400000x1_S400000x256_1_0_n_n_0_1_1256 rfl
    gather_S50000_S400000x1_S400000_n_0_n_n_0_1_1_wf gather_S50000_S400000x1_S400000_n_0_n_n_0_1_1 rfl
    _ (fun i => zeroF_apply bcast_S_S50000x256 i) V bd (colI nv) (colI ev) (colI (wrapI nv)) (colI (wrapI ev))
    (fun q => by rw [colI_apply, colI_apply, wrapI_apply])
    (fun q => by rw [colI_apply, colI_apply, wrapI_apply])
    _ (fun q k => (column_spread_apply _ bcast_S400000x1_S400000x256_0_1 q k).trans
        (vec_column_apply _ bcast_S400000_S400000x1_0 q 0)) p k

theorem layer2K_apply (h : FA S50000x256) (a1 : IA S2x400000) (a5 : FA S256x512) (a6 : FA S512) (p : Fin 50000)
    (f : Fin 512) :
    gScaleProj (M := 50000) (K := 256) (F := 512) (propKf256 h (nI a1) (eI a1) (invD (colI (eI a1))))
        (colF (invD (colI (nI a1)))) a5 (row512 a6) (ix2 p f)
      = layerPF hN (niF a1) (eiF a1) (invDeg (niF a1)) (invDeg (eiF a1))
          (fun (r : Fin 50000) (k : Fin 256) => h (ix2 r k)) (fun (k : Fin 256) (f : Fin 512) => a5 (ix2 k f))
          (fun f : Fin 512 => a6 (ix1 f)) p f := by
  rw [gScaleProj_apply, deltaK_apply]
  have hb : row512 a6 (ix2 (0 : Fin 1) f) = a6 (ix1 f) := cast_row_apply a6 shapeCasts_S512_S1x512 f
  rw [hb]
  unfold layerPF mm
  refine congrArg (fun t => max (t + a6 (ix1 f)) 0) (Finset.sum_congr rfl (fun k _ => ?_))
  rw [propKf256_apply, betaK_eq]
  rfl

theorem layer3K_apply (h : FA S50000x512) (a1 : IA S2x400000) (a7 : FA S512x256) (a8 : FA S256) (p : Fin 50000)
    (f : Fin 256) :
    gScaleBias (M := 50000) (F := 256)
        (propKf256 (gProj (M := 50000) (K := 512) (F := 256) h a7) (nI a1) (eI a1) (invD (colI (eI a1))))
        (colF (invD (colI (nI a1)))) (row256 a8) (ix2 p f)
      = layerPJ hN (niF a1) (eiF a1) (invDeg (niF a1)) (invDeg (eiF a1))
          (fun (r : Fin 50000) (k : Fin 512) => h (ix2 r k)) (fun (k : Fin 512) (f : Fin 256) => a7 (ix2 k f))
          (fun f : Fin 256 => a8 (ix1 f)) p f := by
  rw [gScaleBias_apply, deltaK_apply]
  have hb : row256 a8 (ix2 (0 : Fin 1) f) = a8 (ix1 f) := cast_row_apply a8 shapeCasts_S256_S1x256 f
  rw [hb, propKf256_apply, betaK_eq]
  rfl

/-! ## The head -/

theorem headK_apply (g : FA S1024x256) (a9 : FA S256x128) (a10 : FA S128) (a11 : FA S128x1) (a12 : FA S1)
    (r : Fin 1024) (e : Fin 1) :
    gHead (M := 1024) (K := 256) (J := 128) (F := 1) g a9 (row128 a10) a11 (row1 a12) (ix2 r e)
      = (∑ j : Fin 128, max ((∑ k : Fin 256, g (ix2 r k) * a9 (ix2 k j)) + a10 (ix1 j)) 0 * a11 (ix2 j e))
        + a12 (ix1 e) := by
  rw [gHead_apply]
  have h1 : ∀ j : Fin 128, row128 a10 (ix2 (0 : Fin 1) j) = a10 (ix1 j) :=
    fun j => cast_row_apply a10 shapeCasts_S128_S1x128 j
  have h2 : row1 a12 (ix2 (0 : Fin 1) e) = a12 (ix1 e) := cast_row_apply a12 shapeCasts_S1_S1x1 e
  rw [h2]
  exact congrArg (fun t => t + a12 (ix1 e)) (Finset.sum_congr rfl (fun j _ => by rw [h1]))

end Cert.KernelIdeal.Read

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«148780_j25718264168627_2_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«148780_j25718264168627_2_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.RRead.lean ====
/-
  The reference program's pieces read at an index, landing on the program-free functions of the hypergraph
  convolution.

  The index rows of the incidence array, made columns, are the index words `niF`, `eiF` of the incidences. The count
  by scatter of ones, inverted where positive, is the inverse degree `invDeg`. A propagation of the program — gather the
  rows at the wrapped node words, sum them per hyperedge, scale each hyperedge's sum by its inverse degree on the left,
  gather at the wrapped hyperedge words, sum per node — is `propR`; a layer is the propagation of the projected rows,
  scaled by the node's inverse degree on the left, plus the bias, cut off below at 0: `layerRef`. The head is a dense
  layer, the maximum with 0, and a second dense layer. Every step is an equation between the same sums, products and
  maxima of extended reals, entry by entry; no entry is asked to be finite.
-/
import proofs.«148780_j25718264168627_2_alg».proof.Proof.RDefs
import proofs.«148780_j25718264168627_2_alg».proof.Proof.LibHyperReads
import proofs.«148780_j25718264168627_2_alg».proof.Proof.LibAxisReads
import proofs.«148780_j25718264168627_2_alg».proof.Proof.LibHostDenseRows
import proofs.«148780_j25718264168627_2_alg».proof.Proof.HyperSpec
import Idealize.ShloMosaic.Lib.IdealHost
import Idealize.ShloMosaic.Lib.ValueLayout

noncomputable section

namespace Cert.ReferenceIdeal.Read

open Cert.ReferenceIdeal Cert.ReferenceIdeal.Facts₀ Cert.ReferenceIdeal.Facts Cert.ReferenceIdeal.Terms
open Idealize.ShloMosaic Idealize.ShloMosaic.ValueIdx Cert.Hyper Cert.HyperReads Cert.LibAxisReads
open scoped BigOperators

theorem hN : 0 < 50000 := by norm_num

/-- The node word of incidence q, and its hyperedge word. -/
def niF (a1 : IA S2x400000) : Fin 400000 → BitVec 32 := fun q => colI (nI a1) (ix2 q (0 : Fin 1))
def eiF (a1 : IA S2x400000) : Fin 400000 → BitVec 32 := fun q => colI (eI a1) (ix2 q (0 : Fin 1))

/-! ## Constants, columns and wrapped words -/

/-- The zero constant spread over any shape reads 0. -/
private theorem zeros_apply {t : Shape} (h : S_.BroadcastsInDim t ![]) (j : t.Idx) :
    broadcastInDim t ![] h (constant (F := Ideal) S_ .f32 0x00000000#32) j = 0 :=
  (const_broadcast_apply ![] h _ j).trans Ideal.ofBits_zero_f32

/-- The constant of the word of 1 spread over any shape reads 1. -/
private theorem ones_apply {t : Shape} (h : S_.BroadcastsInDim t ![]) (j : t.Idx) :
    broadcastInDim t ![] h (constant (F := Ideal) S_ .f32 0x3F800000#32) j = 1 :=
  (const_broadcast_apply ![] h _ j).trans Ideal.ofBits_one_f32

/-- An index row made a column reads the row. -/
private theorem colI_apply (v : IA S400000) (q : Fin 400000) : colI v (ix2 q (0 : Fin 1)) = v (ix1 q) := by
  unfold colI
  exact vec_column_apply v _ q 0

/-- The wrapped index row reads the wrapped word. -/
private theorem wrapI_apply (v : IA S400000) (q : Fin 400000) : wrapI v (ix1 q) = wrapW 50000 (v (ix1 q)) := by
  unfold wrapI
  exact wrap_apply 50000 v _ _ (fun i => (scalar_broadcast_apply ![] _ _ i).trans (constantI_apply _ _))
    (fun i => (scalar_broadcast_apply ![] _ _ i).trans (constantI_apply _ _)) q

/-- The column of the wrapped row reads the wrapped word of the column of the row. -/
private theorem wrapCol_apply (v : IA S400000) (q : Fin 400000) :
    colI (wrapI v) (ix2 q (0 : Fin 1)) = wrapW 50000 (colI v (ix2 q (0 : Fin 1))) := by
  rw [colI_apply, colI_apply, wrapI_apply]

/-! ## The inverse degree -/

theorem invD_apply (col : IA S400000x1) (r : Fin 50000) :
    invD col (ix1 r) = invDeg (fun q : Fin 400000 => col (ix2 q (0 : Fin 1))) r := by
  unfold invD
  exact invDeg_form_apply scatter_S50000_S400000x1_S400000_n_0_0_1.wf scatter_S50000_S400000x1_S400000_n_0_0_1 rfl _ _ _ _ _
    (zeros_apply _) (ones_apply _) (zeros_apply _) (ones_apply _) (zeros_apply _) col r

/-- The inverse degree of the node column, and of the hyperedge column, as functions of the row. -/
private theorem invD_node (a1 : IA S2x400000) (r : Fin 50000) : invD (colI (nI a1)) (ix1 r) = invDeg (niF a1) r :=
  invD_apply _ r
private theorem invD_edge (a1 : IA S2x400000) : (fun r : Fin 50000 => invD (colI (eI a1)) (ix1 r)) = invDeg (eiF a1) :=
  funext fun r => invD_apply _ r

/-! ## One propagation -/

/-- The propagation at width 256 is `propR` of the incidence words, the hyperedges' inverse degrees and the rows. -/
theorem propR256_apply (xl : FA S50000x256) (a1 : IA S2x400000) (p : Fin 50000) (k : Fin 256) :
    propR256 xl a1 (ix2 p k)
      = propR hN (niF a1) (eiF a1) (invDeg (eiF a1)) (fun (r : Fin 50000) (k : Fin 256) => xl (ix2 r k)) p k := by
  unfold propR256
  refine (propR_form_apply hN scatter_S50000x256_S400000x1_S400000x256_1_0_0_1.wf scatter_S50000x256_S400000x1_S400000x256_1_0_0_1 rfl
    gather_S50000x256_S400000x1_S400000x256_1_0_n_n_0_1_1256.wf gather_S50000x256_S400000x1_S400000x256_1_0_n_n_0_1_1256 rfl
    _ (zeros_apply _) xl (invD (colI (eI a1))) (colI (nI a1)) (colI (eI a1)) (colI (wrapI (nI a1))) (colI (wrapI (eI a1)))
    (wrapCol_apply (nI a1)) (wrapCol_apply (eI a1)) _
    (fun j k => (column_spread_apply _ _ j k).trans (vec_column_apply _ _ j 0)) p k).trans ?_
  exact congrArg (fun β => propR hN (niF a1) (eiF a1) β (fun (r : Fin 50000) (k : Fin 256) => xl (ix2 r k)) p k) (invD_edge a1)

/-! ## One layer after its projection -/

/-- A layer at width 256 after its projection: the propagation of the projected rows, scaled by the node's inverse
    degree on the left, plus the bias, cut off below at 0. -/
theorem layR256_apply (xl : FA S50000x256) (a1 : IA S2x400000) (b : FA S256) (p : Fin 50000) (f : Fin 256) :
    layR256 xl a1 b (ix2 p f)
      = max (invDeg (niF a1) p * propR hN (niF a1) (eiF a1) (invDeg (eiF a1)) (fun (r : Fin 50000) (k : Fin 256) => xl (ix2 r k)) p f
          + b (ix1 f)) 0 := by
  unfold layR256
  rw [maximumf_apply, addf_apply, mulf_apply, zeros_apply, propR256_apply,
    column_spread_apply, vec_column_apply, row_spread_apply, vec_row_apply, invD_node]

/-! ## The three layers -/

theorem layer1R_apply (a0 : FA S50000x128) (a1 : IA S2x400000) (a3 : FA S128x256) (a4 : FA S256) (p : Fin 50000) (f : Fin 256) :
    layR256 (dot1 a0 a3) a1 a4 (ix2 p f)
      = layerRef hN (niF a1) (eiF a1) (invDeg (niF a1)) (invDeg (eiF a1)) (fun (r : Fin 50000) (k : Fin 128) => a0 (ix2 r k))
          (fun (k : Fin 128) (f : Fin 256) => a3 (ix2 k f)) (fun f : Fin 256 => a4 (ix1 f)) p f := by
  rw [layR256_apply]
  unfold layerRef
  have hm : (fun (r : Fin 50000) (k : Fin 256) => dot1 a0 a3 (ix2 r k))
      = mm (fun (r : Fin 50000) (k : Fin 128) => a0 (ix2 r k)) (fun (k : Fin 128) (f : Fin 256) => a3 (ix2 k f)) :=
    funext fun r => funext fun k =>
      Cert.LibHostDenseRows.hostDot_plain_apply dot_S50000x128_S128x256_S50000x256_1_0_0_1_n_n rfl none a0 a3 r k
  rw [hm]

theorem layer3R_apply (h : FA S50000x512) (a1 : IA S2x400000) (a7 : FA S512x256) (a8 : FA S256) (p : Fin 50000) (f : Fin 256) :
    layR256 (dot3 h a7) a1 a8 (ix2 p f)
      = layerRef hN (niF a1) (eiF a1) (invDeg (niF a1)) (invDeg (eiF a1)) (fun (r : Fin 50000) (k : Fin 512) => h (ix2 r k))
          (fun (k : Fin 512) (f : Fin 256) => a7 (ix2 k f)) (fun f : Fin 256 => a8 (ix1 f)) p f := by
  rw [layR256_apply]
  unfold layerRef
  have hm : (fun (r : Fin 50000) (k : Fin 256) => dot3 h a7 (ix2 r k))
      = mm (fun (r : Fin 50000) (k : Fin 512) => h (ix2 r k)) (fun (k : Fin 512) (f : Fin 256) => a7 (ix2 k f)) :=
    funext fun r => funext fun k =>
      Cert.LibHostDenseRows.hostDot_plain_apply dot_S50000x512_S512x256_S50000x256_1_0_0_1_n_n rfl none h a7 r k
  rw [hm]

/-! ## The same at width 512 -/

/-- The propagation at width 512. -/
theorem propR512_apply (xl : FA S50000x512) (a1 : IA S2x400000) (p : Fin 50000) (k : Fin 512) :
    propR512 xl a1 (ix2 p k)
      = propR hN (niF a1) (eiF a1) (invDeg (eiF a1)) (fun (r : Fin 50000) (k : Fin 512) => xl (ix2 r k)) p k := by
  unfold propR512
  refine (propR_form_apply hN scatter_S50000x512_S400000x1_S400000x512_1_0_0_1.wf scatter_S50000x512_S400000x1_S400000x512_1_0_0_1 rfl
    gather_S50000x512_S400000x1_S400000x512_1_0_n_n_0_1_1512.wf gather_S50000x512_S400000x1_S400000x512_1_0_n_n_0_1_1512 rfl
    _ (zeros_apply _) xl (invD (colI (eI a1))) (colI (nI a1)) (colI (eI a1)) (colI (wrapI (nI a1))) (colI (wrapI (eI a1)))
    (wrapCol_apply (nI a1)) (wrapCol_apply (eI a1)) _
    (fun j k => (column_spread_apply _ _ j k).trans (vec_column_apply _ _ j 0)) p k).trans ?_
  exact congrArg (fun β => propR hN (niF a1) (eiF a1) β (fun (r : Fin 50000) (k : Fin 512) => xl (ix2 r k)) p k) (invD_edge a1)

/-- A layer at width 512 after its projection. -/
theorem layR512_apply (xl : FA S50000x512) (a1 : IA S2x400000) (b : FA S512) (p : Fin 50000) (f : Fin 512) :
    layR512 xl a1 b (ix2 p f)
      = max (invDeg (niF a1) p * propR hN (niF a1) (eiF a1) (invDeg (eiF a1)) (fun (r : Fin 50000) (k : Fin 512) => xl (ix2 r k)) p f
          + b (ix1 f)) 0 := by
  unfold layR512
  rw [maximumf_apply, addf_apply, mulf_apply, zeros_apply, propR512_apply,
    column_spread_apply, vec_column_apply, row_spread_apply, vec_row_apply, invD_node]

theorem layer2R_apply (h : FA S50000x256) (a1 : IA S2x400000) (a5 : FA S256x512) (a6 : FA S512) (p : Fin 50000) (f : Fin 512) :
    layR512 (dot2 h a5) a1 a6 (ix2 p f)
      = layerRef hN (niF a1) (eiF a1) (invDeg (niF a1)) (invDeg (eiF a1)) (fun (r : Fin 50000) (k : Fin 256) => h (ix2 r k))
          (fun (k : Fin 256) (f : Fin 512) => a5 (ix2 k f)) (fun f : Fin 512 => a6 (ix1 f)) p f := by
  rw [layR512_apply]
  unfold layerRef
  have hm : (fun (r : Fin 50000) (k : Fin 512) => dot2 h a5 (ix2 r k))
      = mm (fun (r : Fin 50000) (k : Fin 256) => h (ix2 r k)) (fun (k : Fin 256) (f : Fin 512) => a5 (ix2 k f)) :=
    funext fun r => funext fun k =>
      Cert.LibHostDenseRows.hostDot_plain_apply dot_S50000x256_S256x512_S50000x512_1_0_0_1_n_n rfl none h a5 r k
  rw [hm]

/-! ## The head -/

theorem headR_apply (g : FA S1024x256) (a9 : FA S256x128) (a10 : FA S128) (a11 : FA S128x1) (a12 : FA S1) (r : Fin 1024) (e : Fin 1) :
    headR g a9 a10 a11 a12 (ix2 r e)
      = (∑ j : Fin 128, max ((∑ k : Fin 256, g (ix2 r k) * a9 (ix2 k j)) + a10 (ix1 j)) 0 * a11 (ix2 j e)) + a12 (ix1 e) := by
  unfold headR
  rw [addf_apply, row_spread_apply, vec_row_apply]
  refine congrArg (· + a12 (ix1 e)) ?_
  refine (Cert.LibHostDenseRows.hostDot_plain_apply dot_S1024x128_S128x1_S1024x1_1_0_0_1_n_n rfl none _ a11 r e).trans
    (Finset.sum_congr rfl fun j _ => ?_)
  refine congrArg (· * a11 (ix2 j e)) ?_
  rw [maximumf_apply, addf_apply, zeros_apply, row_spread_apply, vec_row_apply]
  refine congrArg (fun z => max (z + a10 (ix1 j)) 0) ?_
  exact Cert.LibHostDenseRows.hostDot_plain_apply dot_S1024x256_S256x128_S1024x128_1_0_0_1_n_n rfl none g a9 r j

end Cert.ReferenceIdeal.Read

end
-- ==== Proof.HyperLaw.lean ====
/-
  The law that lets a hypergraph convolution layer project either before or after it propagates.

  A layer gathers node rows into hyperedge sums, multiplies each hyperedge sum by a factor β, sums these back to
  the nodes, multiplies each node's row by a factor δ, and applies a dense projection by W (a finite sum over the
  feature axis of products with the entries of W). Written out, "propagate, then project" is

      ∑ k, (∑ q, (∑ q', x q' k) · β q) · δ · W k,

  and "project, then propagate" is

      δ · ∑ q, β q · ∑ q', ∑ k, x q' k · W k.

  Going from one to the other moves the factors β q, δ and W k across finite sums and exchanges the order of the
  sums. Exchanging sums and commuting a product are valid on the extended reals without any hypothesis, so the two
  spellings of the propagation that differ only in the side on which β stands agree unconditionally
  (`layerPJ_eq_layerRef`). Moving a factor across a sum is distributivity, c · (a + b) = c · a + c · b, and that is
  exactly what fails on the extended reals at the infinities: with a = ⊤, b = ⊥ and c = −1 the left side is
  −(⊤ + ⊥) = ⊤ while the right side is ⊥ + ⊤ = ⊥. A real factor does distribute over a sum of reals, because the
  whole computation then happens inside the field ℝ and is carried to the extended reals by the coercion, which
  preserves products and finite sums. Hence the hypotheses of `layerPF_eq_layerRef`: the factors δ, β and the
  entries of x and W are real. The bias is added after both spellings have produced the same number, so it may be
  anything, infinite included.

  The remaining statements say that these quantities stay real: an inverse degree is a nonnegative real, a dense
  projection of real arrays is real, and a whole reference layer with real inputs is real.
-/
import proofs.«148780_j25718264168627_2_alg».proof.Proof.HyperSpec

noncomputable section

namespace Cert.Hyper

open Idealize.ShloMosaic
open scoped BigOperators

variable {N E K F : ℕ}

/-! ### The coercion ℝ → EReal and finite sums -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Closure of "is the image of a real" under the operations of a layer -/

theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

theorem real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s))
      (ih (fun i hi => hf i (Finset.mem_insert_of_mem hi)))

theorem real_max_zero {a : EReal} (ha : ∃ r : ℝ, a = (r : EReal)) : ∃ r : ℝ, max a 0 = (r : EReal) := by
  rcases le_total a 0 with h | h
  · exact ⟨0, by rw [max_eq_right h, EReal.coe_zero]⟩
  · obtain ⟨r, hr⟩ := ha
    exact ⟨r, by rw [max_eq_left h, hr]⟩

/-! ### The inverse degree -/

/-- A degree is a count: the coercion of the (real) cardinality of a finite set of incidences. -/
theorem deg_eq_coe (idx : Fin E → BitVec 32) (r : Fin N) :
    deg idx r
      = (((Finset.univ.filter (fun q : Fin E => (idx q).toInt = (r.val : ℤ))).card : ℝ) : EReal) := by
  unfold deg
  have h := coe_sum (Finset.univ.filter (fun q : Fin E => (idx q).toInt = (r.val : ℤ))) (fun _ => (1 : ℝ))
  rw [EReal.coe_one] at h
  rw [← h, Finset.sum_const, nsmul_eq_mul, mul_one]

theorem invDeg_real (idx : Fin E → BitVec 32) (r : Fin N) :
    ∃ x : ℝ, 0 ≤ x ∧ invDeg idx r = (x : EReal) := by
  unfold invDeg
  rw [deg_eq_coe]
  generalize ((Finset.univ.filter (fun q : Fin E => (idx q).toInt = (r.val : ℤ))).card : ℝ) = d
  split_ifs with h
  · have hpos : 0 < d := EReal.coe_pos.mp h
    refine ⟨1 / d, by positivity, ?_⟩
    rw [Ideal.div_coe hpos.ne', one_mul]
  · exact ⟨0, le_refl 0, EReal.coe_zero.symm⟩

theorem isReal1_of_nonneg_real (v : Fin N → EReal) (h : ∀ r, ∃ x : ℝ, 0 ≤ x ∧ v r = (x : EReal)) :
    IsReal1 v := by
  intro r
  obtain ⟨x, _, hx⟩ := h r
  exact ⟨x, hx⟩

/-! ### The side of the hyperedge factor -/

theorem propK_eq_propR {C : ℕ} (hN : 0 < N) (ni ei : Fin E → BitVec 32) (β : Fin N → EReal)
    (v : Fin N → Fin C → EReal) : propK hN ni ei β v = propR hN ni ei β v := by
  funext p k
  unfold propK propR
  exact Finset.sum_congr rfl (fun q _ => mul_comm _ _)

theorem layerPJ_eq_layerRef (hN : 0 < N) (ni ei : Fin E → BitVec 32) (δ β : Fin N → EReal)
    (x : Fin N → Fin K → EReal) (W : Fin K → Fin F → EReal) (b : Fin F → EReal) :
    layerPJ hN ni ei δ β x W b = layerRef hN ni ei δ β x W b := by
  funext p f
  unfold layerPJ layerRef
  rw [propK_eq_propR]

/-! ### The law over the reals, and its image in the extended reals -/

/-- Over ℝ: a sum over k of (a doubly indexed sum, scaled by g inside and by d outside) times w k equals the
    scaled doubly indexed sum of the sums over k. Only the field laws and the exchange of finite sums. -/
theorem law_real {ι ι' κ : Type*} (S : Finset ι) (T : ι → Finset ι') (U : Finset κ) (g : ι → ℝ)
    (h : ι' → κ → ℝ) (w : κ → ℝ) (d : ℝ) :
    ∑ k ∈ U, (∑ q ∈ S, (∑ q' ∈ T q, h q' k) * g q) * d * w k
      = d * ∑ q ∈ S, g q * ∑ q' ∈ T q, ∑ k ∈ U, h q' k * w k := by
  simp only [Finset.sum_mul, Finset.mul_sum]
  rw [Finset.sum_comm]
  refine Finset.sum_congr rfl (fun q _ => ?_)
  rw [Finset.sum_comm]
  refine Finset.sum_congr rfl (fun q' _ => ?_)
  refine Finset.sum_congr rfl (fun k _ => ?_)
  ring

/-- The same identity between extended reals that are all images of reals. -/
theorem law_coe {ι ι' κ : Type*} (S : Finset ι) (T : ι → Finset ι') (U : Finset κ) (g : ι → ℝ)
    (h : ι' → κ → ℝ) (w : κ → ℝ) (d : ℝ) :
    ∑ k ∈ U, (∑ q ∈ S, (∑ q' ∈ T q, (h q' k : EReal)) * (g q : EReal)) * (d : EReal) * (w k : EReal)
      = (d : EReal) * ∑ q ∈ S, (g q : EReal) * ∑ q' ∈ T q, ∑ k ∈ U, (h q' k : EReal) * (w k : EReal) := by
  have key := congrArg (fun r : ℝ => (r : EReal)) (law_real S T U g h w d)
  simp only [coe_sum, EReal.coe_mul] at key
  exact key

theorem layerPF_eq_layerRef (hN : 0 < N) (ni ei : Fin E → BitVec 32) (δ β : Fin N → EReal)
    (x : Fin N → Fin K → EReal) (W : Fin K → Fin F → EReal) (b : Fin F → EReal)
    (hδ : IsReal1 δ) (hβ : IsReal1 β) (hx : IsReal2 x) (hW : IsReal2 W) :
    layerPF hN ni ei δ β x W b = layerRef hN ni ei δ β x W b := by
  choose dr hd using hδ
  choose br hb using hβ
  choose xr hxr using hx
  choose Wr hWr using hW
  obtain rfl : δ = fun p => ((dr p : ℝ) : EReal) := funext hd
  obtain rfl : β = fun p => ((br p : ℝ) : EReal) := funext hb
  obtain rfl : x = fun p k => ((xr p k : ℝ) : EReal) := funext (fun p => funext (hxr p))
  obtain rfl : W = fun k f => ((Wr k f : ℝ) : EReal) := funext (fun k => funext (hWr k))
  funext p f
  have key :
      mm (fun p k => propK hN ni ei (fun p => ((br p : ℝ) : EReal))
            (fun p k => ((xr p k : ℝ) : EReal)) p k * ((dr p : ℝ) : EReal))
          (fun k f => ((Wr k f : ℝ) : EReal)) p f
        = ((dr p : ℝ) : EReal) * propR hN ni ei (fun p => ((br p : ℝ) : EReal))
            (mm (fun p k => ((xr p k : ℝ) : EReal)) (fun k f => ((Wr k f : ℝ) : EReal))) p f :=
    law_coe (Finset.univ.filter (fun q : Fin E => (ni q).toInt = (p.val : ℤ)))
      (fun q => Finset.univ.filter (fun q' : Fin E => (ei q').toInt = ((src hN (ei q)).val : ℤ)))
      (Finset.univ : Finset (Fin K))
      (fun q => br (src hN (ei q))) (fun q' k => xr (src hN (ni q')) k) (fun k => Wr k f) (dr p)
  unfold layerPF layerRef
  rw [key]

/-! ### Real inputs give real outputs -/

theorem mm_real {M : ℕ} (a : Fin M → Fin K → EReal) (W : Fin K → Fin F → EReal) (ha : IsReal2 a)
    (hW : IsReal2 W) : IsReal2 (mm a W) := by
  intro p f
  unfold mm
  exact real_sum _ _ (fun k _ => real_mul (ha p k) (hW k f))

theorem layerRef_real (hN : 0 < N) (ni ei : Fin E → BitVec 32) (δ β : Fin N → EReal)
    (x : Fin N → Fin K → EReal) (W : Fin K → Fin F → EReal) (b : Fin F → EReal)
    (hδ : IsReal1 δ) (hβ : IsReal1 β) (hx : IsReal2 x) (hW : IsReal2 W) (hb : IsReal1 b) :
    IsReal2 (layerRef hN ni ei δ β x W b) := by
  intro p f
  unfold layerRef
  refine real_max_zero (real_add (real_mul (hδ p) ?_) (hb f))
  unfold propR
  refine real_sum _ _ (fun q _ => real_mul (hβ _) ?_)
  unfold edgeSum
  exact real_sum _ _ (fun q' _ => mm_real x W hx hW _ _)

end Cert.Hyper

end
-- ==== Proof.Bridge.lean ====
/-
  The two programs compute the same function of their arguments.

  Both results are compositions of three hypergraph-convolution layers, a mean pooling over graphs and a two-layer
  head. Layer by layer the kernel program's array (what a launch leaves, read off its grid's blocks, over what the host
  operations before it computed) and the reference's array (its host operations' term) are read entry by entry as the
  same program-free function: the reference's layer, `layerRef`. For the third layer, the pooling and the head this is
  a matter of spelling (a product in the other order). For the first two layers the kernel propagates BEFORE it
  projects — it sums the rows over the incidences and multiplies by the weight matrix afterwards — and the two
  agree because everything in sight is a real number: the input rows, the weights, and the inverse degrees (a real
  factor distributes over a finite sum of reals; on the extended reals it would not at infinities). That is where the
  precondition, every float input finite, is used: for the node features and the first two layers' weights and the
  first bias (so that the second layer's input, the first layer's output, is real again).
-/
import proofs.«148780_j25718264168627_2_alg».proof.Proof.KOutDefs
import proofs.«148780_j25718264168627_2_alg».proof.Proof.KRead
import proofs.«148780_j25718264168627_2_alg».proof.Proof.RRead
import proofs.«148780_j25718264168627_2_alg».proof.Proof.HyperLaw
import proofs.«148780_j25718264168627_2_alg».proof.Proof.RDefs

noncomputable section

namespace Cert.Bridge

open Idealize.ShloMosaic Idealize.ShloMosaic.ValueIdx Cert.Hyper

/-- The two programs read the same node words and the same hyperedge words off the incidence array. -/
theorem niF_eq (a1 : Cert.KernelIdeal.Terms.IA Cert.KernelIdeal.S2x400000) :
    Cert.KernelIdeal.Read.niF a1 = Cert.ReferenceIdeal.Read.niF a1 := rfl
theorem eiF_eq (a1 : Cert.KernelIdeal.Terms.IA Cert.KernelIdeal.S2x400000) :
    Cert.KernelIdeal.Read.eiF a1 = Cert.ReferenceIdeal.Read.eiF a1 := rfl

/-- The inverse degrees are nonnegative reals. -/
theorem invDeg_isReal {N E : ℕ} (idx : Fin E → BitVec 32) : IsReal1 (invDeg (N := N) idx) :=
  isReal1_of_nonneg_real _ (fun r => invDeg_real idx r)

/-- An array all of whose entries are real numbers. -/
def RealArr {s : Shape} (a : FVec Ideal s .f32) : Prop := ∀ i, ∃ r : ℝ, a i = (r : EReal)

/-! ## The first layer: propagate-then-project against project-then-propagate, for real features and weights -/

theorem layer1_eq (a0 : Cert.KernelIdeal.Terms.FA Cert.KernelIdeal.S50000x128) (a1 : Cert.KernelIdeal.Terms.IA Cert.KernelIdeal.S2x400000) (a3 : Cert.KernelIdeal.Terms.FA Cert.KernelIdeal.S128x256)
    (a4 : Cert.KernelIdeal.Terms.FA Cert.KernelIdeal.S256) (hx : RealArr a0) (hW : RealArr a3) :
    Cert.KernelIdeal.Value.K1 a0 a1 a3 a4 = Cert.ReferenceIdeal.Terms.layR256 (Cert.ReferenceIdeal.Terms.dot1 a0 a3) a1 a4 := by
  funext i
  obtain ⟨p, f, rfl⟩ : ∃ (p : Fin 50000) (f : Fin 256), i = ix2 p f := ⟨i 0, i 1, eq_ix2 i⟩
  unfold Cert.KernelIdeal.Value.K1
  rw [Cert.KernelIdeal.Read.layer1K_apply, Cert.ReferenceIdeal.Read.layer1R_apply, ← niF_eq, ← eiF_eq]
  exact congrFun (congrFun (layerPF_eq_layerRef _ _ _ _ _ _ _ _ (invDeg_isReal _) (invDeg_isReal _)
    (fun r k => hx _) (fun k f => hW _)) p) f

/-- The first layer's output is real again when its bias is. -/
theorem layer1_real (a0 : Cert.KernelIdeal.Terms.FA Cert.KernelIdeal.S50000x128) (a1 : Cert.KernelIdeal.Terms.IA Cert.KernelIdeal.S2x400000) (a3 : Cert.KernelIdeal.Terms.FA Cert.KernelIdeal.S128x256)
    (a4 : Cert.KernelIdeal.Terms.FA Cert.KernelIdeal.S256) (hx : RealArr a0) (hW : RealArr a3) (hb : RealArr a4) :
    RealArr (Cert.ReferenceIdeal.Terms.layR256 (Cert.ReferenceIdeal.Terms.dot1 a0 a3) a1 a4) := by
  intro i
  obtain ⟨p, f, rfl⟩ : ∃ (p : Fin 50000) (f : Fin 256), i = ix2 p f := ⟨i 0, i 1, eq_ix2 i⟩
  rw [Cert.ReferenceIdeal.Read.layer1R_apply]
  exact layerRef_real _ _ _ _ _ _ _ _ (invDeg_isReal _) (invDeg_isReal _) (fun r k => hx _) (fun k f => hW _)
    (fun f => hb _) p f

/-! ## The second layer, the same law one width up -/

theorem layer2_eq (h : Cert.KernelIdeal.Terms.FA Cert.KernelIdeal.S50000x256) (a1 : Cert.KernelIdeal.Terms.IA Cert.KernelIdeal.S2x400000) (a5 : Cert.KernelIdeal.Terms.FA Cert.KernelIdeal.S256x512)
    (a6 : Cert.KernelIdeal.Terms.FA Cert.KernelIdeal.S512) (hh : RealArr h) (hW : RealArr a5) :
    Cert.KernelIdeal.Value.K2 h a1 a5 a6 = Cert.ReferenceIdeal.Terms.layR512 (Cert.ReferenceIdeal.Terms.dot2 h a5) a1 a6 := by
  funext i
  obtain ⟨p, f, rfl⟩ : ∃ (p : Fin 50000) (f : Fin 512), i = ix2 p f := ⟨i 0, i 1, eq_ix2 i⟩
  unfold Cert.KernelIdeal.Value.K2
  rw [Cert.KernelIdeal.Read.layer2K_apply, Cert.ReferenceIdeal.Read.layer2R_apply, ← niF_eq, ← eiF_eq]
  exact congrFun (congrFun (layerPF_eq_layerRef _ _ _ _ _ _ _ _ (invDeg_isReal _) (invDeg_isReal _)
    (fun r k => hh _) (fun k f => hW _)) p) f

/-! ## The third layer: both project first; only the order of a product differs -/

theorem layer3_eq (h : Cert.KernelIdeal.Terms.FA Cert.KernelIdeal.S50000x512) (a1 : Cert.KernelIdeal.Terms.IA Cert.KernelIdeal.S2x400000) (a7 : Cert.KernelIdeal.Terms.FA Cert.KernelIdeal.S512x256)
    (a8 : Cert.KernelIdeal.Terms.FA Cert.KernelIdeal.S256) :
    Cert.KernelIdeal.Value.K3 h a1 a7 a8 = Cert.ReferenceIdeal.Terms.layR256 (Cert.ReferenceIdeal.Terms.dot3 h a7) a1 a8 := by
  funext i
  obtain ⟨p, f, rfl⟩ : ∃ (p : Fin 50000) (f : Fin 256), i = ix2 p f := ⟨i 0, i 1, eq_ix2 i⟩
  unfold Cert.KernelIdeal.Value.K3
  rw [Cert.KernelIdeal.Read.layer3K_apply, Cert.ReferenceIdeal.Read.layer3R_apply, ← niF_eq, ← eiF_eq]
  exact congrFun (congrFun (layerPJ_eq_layerRef _ _ _ _ _ _ _ _) p) f

/-! ## The pooling and the head are spelt alike -/

theorem pool_eq (h : Cert.KernelIdeal.Terms.FA Cert.KernelIdeal.S50000x256) (a2 : Cert.KernelIdeal.Terms.IA Cert.KernelIdeal.S50000) :
    Cert.KernelIdeal.Terms.poolK h a2 = Cert.ReferenceIdeal.Terms.poolR h a2 := rfl

theorem head_eq (g : Cert.KernelIdeal.Terms.FA Cert.KernelIdeal.S1024x256) (a9 : Cert.KernelIdeal.Terms.FA Cert.KernelIdeal.S256x128) (a10 : Cert.KernelIdeal.Terms.FA Cert.KernelIdeal.S128)
    (a11 : Cert.KernelIdeal.Terms.FA Cert.KernelIdeal.S128x1) (a12 : Cert.KernelIdeal.Terms.FA Cert.KernelIdeal.S1) :
    gHead (M := 1024) (K := 256) (J := 128) (F := 1) g a9 (Cert.KernelIdeal.Terms.row128 a10) a11 (Cert.KernelIdeal.Terms.row1 a12)
      = Cert.ReferenceIdeal.Terms.headR g a9 a10 a11 a12 := by
  funext i
  obtain ⟨r, e, rfl⟩ : ∃ (r : Fin 1024) (e : Fin 1), i = ix2 r e := ⟨i 0, i 1, eq_ix2 i⟩
  rw [Cert.KernelIdeal.Read.headK_apply, Cert.ReferenceIdeal.Read.headR_apply]

/-! ## The whole -/

/-- The kernel program's result and the reference's are one function of the arguments, when the node features, the
    first two weight matrices and the first bias are real. -/
theorem out_eq (a0 : Cert.KernelIdeal.Terms.FA Cert.KernelIdeal.S50000x128) (a1 : Cert.KernelIdeal.Terms.IA Cert.KernelIdeal.S2x400000) (a2 : Cert.KernelIdeal.Terms.IA Cert.KernelIdeal.S50000)
    (a3 : Cert.KernelIdeal.Terms.FA Cert.KernelIdeal.S128x256) (a4 : Cert.KernelIdeal.Terms.FA Cert.KernelIdeal.S256) (a5 : Cert.KernelIdeal.Terms.FA Cert.KernelIdeal.S256x512) (a6 : Cert.KernelIdeal.Terms.FA Cert.KernelIdeal.S512)
    (a7 : Cert.KernelIdeal.Terms.FA Cert.KernelIdeal.S512x256) (a8 : Cert.KernelIdeal.Terms.FA Cert.KernelIdeal.S256) (a9 : Cert.KernelIdeal.Terms.FA Cert.KernelIdeal.S256x128) (a10 : Cert.KernelIdeal.Terms.FA Cert.KernelIdeal.S128)
    (a11 : Cert.KernelIdeal.Terms.FA Cert.KernelIdeal.S128x1) (a12 : Cert.KernelIdeal.Terms.FA Cert.KernelIdeal.S1)
    (h0 : RealArr a0) (h3 : RealArr a3) (h4 : RealArr a4) (h5 : RealArr a5) :
    Cert.KernelIdeal.Value.KOut a0 a1 a2 a3 a4 a5 a6 a7 a8 a9 a10 a11 a12 = Cert.ReferenceIdeal.Terms.ROut a0 a1 a2 a3 a4 a5 a6 a7 a8 a9 a10 a11 a12 := by
  unfold Cert.KernelIdeal.Value.KOut Cert.ReferenceIdeal.Terms.ROut
  rw [layer1_eq a0 a1 a3 a4 h0 h3, layer2_eq _ a1 a5 a6 (layer1_real a0 a1 a3 a4 h0 h3 h4) h5, layer3_eq, pool_eq, head_eq]

end Cert.Bridge

end
-- ==== Proof.Finite.lean ====
/-
  From "every float input is finite" to "these input arrays are real-valued".

  The certificate's precondition is a conjunction, one conjunct per float input x, of "|x[i]| < +∞ at every index i"
  (the maximum of x[i] and −x[i] compared with the word of +∞, all the comparisons folded by "and" from 1). On the
  extended reals |y| < +∞ excludes both infinities, so y is a real number. Read off the conjunction for the four inputs
  of the first two layers: the [50000, 128] features, the [128, 256] weights, the [256] bias and the [256, 512] weights.
-/
import proofs.«148780_j25718264168627_2_alg».proof.Defs
import proofs.«148780_j25718264168627_2_alg».proof.Proof.Gen.Pre_finite_inputs
import proofs.«148780_j25718264168627_2_alg».proof.Proof.Gen.KernelIdeal
import Idealize.ShloMosaic.Lib.ReduceAll
import Idealize.ShloMosaic.Lib.ValueIdx
import Idealize.ShloMosaic.PureOps.Ideal.Laws

noncomputable section

namespace Cert.Finite

open Idealize.ShloMosaic Idealize.SL.Sem

/-- The rank-0 shape has one index. -/
instance scalarIdx_subsingleton : Subsingleton Cert.Pre_finite_inputs.S_.Idx := ⟨fun a b => funext fun d => d.elim0⟩

/-- An extended real whose absolute value is below +∞ is a real number. -/
theorem real_of_abs_lt_top (y : EReal) (h : max y (-y) < ⊤) : ∃ r : ℝ, y = (r : EReal) := by
  induction y using EReal.rec with
  | bot => exact absurd h (by simp)
  | top => exact absurd h (by simp)
  | coe r => exact ⟨r, rfl⟩

/-- The word 0x7F800000 is +∞. -/
theorem inf_word : Ideal.ofBits .f32 0x7F800000#32 = ⊤ := by simp [Ideal.ofBits, Ideal.ieee]

/-- An entry at which "|x| < the splat of +∞" answers 1 is a real number. -/
theorem real_of_entry {T : Shape} (x : FVec Ideal T .f32) (hb : Cert.Pre_finite_inputs.S_.BroadcastsInDim T (![] : Fin 0 → Fin T.rank)) (i : T.Idx)
    (e : cmpf .olt (Host.absf x) (broadcastInDim T ![] hb (constant (F := Ideal) Cert.Pre_finite_inputs.S_ .f32 0x7F800000#32)) i = 1#1) :
    ∃ r : ℝ, x i = (r : EReal) := by
  have h1 : BitVec.ofBool (decide (max (x i) (-(x i)) < Ideal.ofBits .f32 0x7F800000#32)) = 1#1 := e
  rw [inf_word] at h1
  refine real_of_abs_lt_top (x i) ?_
  by_contra hn
  rw [decide_eq_false hn] at h1
  exact absurd h1 (by decide)

/-- An array all of whose entries pass "|x| < +∞" (the comparisons folded by "and" from 1 give 1) is real-valued. -/
theorem real_of_all {T : Shape} {axes : List (Fin T.rank)} (x : FVec Ideal T .f32)
    (hb : Cert.Pre_finite_inputs.S_.BroadcastsInDim T (![] : Fin 0 → Fin T.rank))
    (hr : T.ReducesTo axes Cert.Pre_finite_inputs.S_) (hu : 0 < Cert.Pre_finite_inputs.S_.numel)
    (e : Host.reduce IntOp.andi (cmpf .olt (Host.absf x) (broadcastInDim T ![] hb (constant (F := Ideal) Cert.Pre_finite_inputs.S_ .f32 0x7F800000#32)))
        (constantI Cert.Pre_finite_inputs.S_ 1 1#1) hr hu ValueIdx.ix0 = 1#1) (i : T.Idx) :
    ∃ r : ℝ, x i = (r : EReal) :=
  real_of_entry x hb i (Host.reduce_andi_all _ _ hr hu ValueIdx.ix0 e i)

section
open Cert.Pre_finite_inputs
variable [Cert.Pre_finite_inputs.Facts]

/-- The printed predicate answering 1 makes its first, fourth, fifth and sixth arguments real-valued: the predicate
    is the "and" of eleven all-entries tests in the arguments' order, the four wanted ones innermost. -/
theorem real_of_fn (a0 : FVec Ideal S50000x128 .f32) (a1 : IVec S2x400000 32) (a2 : IVec S50000 32)
    (a3 : FVec Ideal S128x256 .f32) (a4 : FVec Ideal S256 .f32) (a5 : FVec Ideal S256x512 .f32) (a6 : FVec Ideal S512 .f32)
    (a7 : FVec Ideal S512x256 .f32) (a8 : FVec Ideal S256 .f32) (a9 : FVec Ideal S256x128 .f32) (a10 : FVec Ideal S128 .f32)
    (a11 : FVec Ideal S128x1 .f32) (a12 : FVec Ideal S1 .f32)
    (h : fn (F := Ideal) a0 a1 a2 a3 a4 a5 a6 a7 a8 a9 a10 a11 a12 ValueIdx.ix0 = 1#1) :
    (∀ i, ∃ r : ℝ, a0 i = (r : EReal)) ∧ (∀ i, ∃ r : ℝ, a3 i = (r : EReal))
      ∧ (∀ i, ∃ r : ℝ, a4 i = (r : EReal)) ∧ (∀ i, ∃ r : ℝ, a5 i = (r : EReal)) := by
  dsimp only [fn, fn_part1, fn_part2, fn_part3] at h
  have h48 := (IntOp.andi_eq_one.1 h).1
  have h43 := (IntOp.andi_eq_one.1 h48).1
  have h38 := (IntOp.andi_eq_one.1 h43).1
  have h33 := (IntOp.andi_eq_one.1 h38).1
  have h28 := (IntOp.andi_eq_one.1 h33).1
  have h23 := (IntOp.andi_eq_one.1 h28).1
  have h18 := (IntOp.andi_eq_one.1 h23).1
  obtain ⟨h13, h17⟩ := IntOp.andi_eq_one.1 h18
  obtain ⟨h8, h12⟩ := IntOp.andi_eq_one.1 h13
  obtain ⟨h3, h7⟩ := IntOp.andi_eq_one.1 h8
  exact ⟨real_of_all a0 _ _ _ h3, real_of_all a3 _ _ _ h7, real_of_all a4 _ _ _ h12, real_of_all a5 _ _ _ h17⟩

end

/-- Under the certificate's precondition the features, the first layer's weights and bias and the second layer's
    weights are real-valued on every device. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
  ∧ (∀ i, ∃ r : ℝ, m ((c.tc : Thread Cert.KernelIdeal.nD Cert.KernelIdeal.τ).loc Cert.KernelIdeal.main_arg3) i = (r : EReal))
  ∧ (∀ i, ∃ r : ℝ, m ((c.tc : Thread Cert.KernelIdeal.nD Cert.KernelIdeal.τ).loc Cert.KernelIdeal.main_arg4) i = (r : EReal))
  ∧ (∀ i, ∃ r : ℝ, m ((c.tc : Thread Cert.KernelIdeal.nD Cert.KernelIdeal.τ).loc Cert.KernelIdeal.main_arg5) i = (r : EReal)) :=
  real_of_fn _ _ _ _ _ _ _ _ _ _ _ _ _ (congrFun (h c) ValueIdx.ix0)

end Cert.Finite

end
-- ==== Proof.lean ====
/-
  The certificate: a Pallas pipeline of five TPU kernels (three hypergraph-convolution layers, their dense projections
  as kernels, a two-layer head) against its jnp reference.

  Frames. Each kernel program terminates without a fault and leaves its arguments as launched: launch by launch,
  every grid point's body runs on its fetched blocks and writes its output block back. The reference is a host
  program: its operations run one after the other.

  The idealization rewrote nothing, so what it preserves is trivial.

  Equal results on the extended reals. The kernel program's result buffer ends at the last boundary's contents of the
  frame's fold, which, launch by launch (each launch's output array is one function of its input arrays, its grid of
  row blocks tiling the rows) and stretch by stretch of host operations, is one term `KOut` of the arguments; the
  reference's is `ROut`. The two are the same function of arguments that agree (Bridge): entry by entry each layer is
  the reference's layer, for the first two layers because propagation — sums of rows over the incidences, scaled by
  inverse degrees — commutes with the projection by a weight matrix when the rows, the weights and the factors are
  real, which the precondition gives for the inputs and the layers preserve.
-/
import proofs.«148780_j25718264168627_2_alg».proof.Defs
import proofs.«148780_j25718264168627_2_alg».proof.Proof.Gen.Kernel
import proofs.«148780_j25718264168627_2_alg».proof.Proof.Gen.Kernel.Frame
import proofs.«148780_j25718264168627_2_alg».proof.Proof.Gen.KernelIdeal
import proofs.«148780_j25718264168627_2_alg».proof.Proof.Gen.KernelIdeal.Frame
import proofs.«148780_j25718264168627_2_alg».proof.Proof.Gen.ReferenceIdeal
import proofs.«148780_j25718264168627_2_alg».proof.Proof.Gen.Pre_finite_inputs
import proofs.«148780_j25718264168627_2_alg».proof.Proof.KRun
import proofs.«148780_j25718264168627_2_alg».proof.Proof.KValue
import proofs.«148780_j25718264168627_2_alg».proof.Proof.RefRunP
import proofs.«148780_j25718264168627_2_alg».proof.Proof.RefTerms
import proofs.«148780_j25718264168627_2_alg».proof.Proof.Bridge
import proofs.«148780_j25718264168627_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both idealized programs run, and end with equal results. -/
theorem algebraic : Cert.algebraic_KernelIdeal_ReferenceIdeal := by
  intro m ρ m' ρ' hpre hagree
  refine ⟨fun c => Cert.KernelIdeal.Gen.W9 m ρ c (Proc.devRef .tc Cert.KernelIdeal.main_v0),
    Cert.KernelIdeal.RunValue.run_valued m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h3, h4, h5⟩ := Cert.Finite.real_of_pre m hpre c
  obtain ⟨e0, e1, e2, e3, e4, e5, e6, e7, e8, e9, e10, e11, e12⟩ := hagree c
  rw [Cert.ReferenceIdeal.Terms.res_eq, e0, e1, e2, e3, e4, e5, e6, e7, e8, e9, e10, e11, e12]
  exact ((Cert.KernelIdeal.Value.kernel_value m ρ c).trans
    (Cert.Bridge.out_eq _ _ _ _ _ _ _ _ _ _ _ _ _ h0 h3 h4 h5)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
